-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x448x1024 : Shape := ⟨3, ![32, 448, 1024]⟩
abbrev S500x1024 : Shape := ⟨2, ![500, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S32x448x1024 : S_.BroadcastsInDim S32x448x1024 (![] : Fin 0 → Fin S32x448x1024.rank)
  reducesTo_S32x448x1024_S_d0_1_2 : S32x448x1024.ReducesTo [0, 1, 2] S_
  h_S_ : 0 < S_.numel
  bcast_S_S500x1024 : S_.BroadcastsInDim S500x1024 (![] : Fin 0 → Fin S500x1024.rank)
  reducesTo_S500x1024_S_d0_1 : S500x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S1024x2048 .f32) (main_arg15 : FVec F S1024 .f32) (main_arg16 : FVec F S1024x1024 .f32) (main_arg17 : FVec F S1024 .f32) (main_v63 : IVec S_ 1) (main_v67 : IVec S_ 1) : IVec S_ 1 :=
  let main_v68 : IVec S_ 1 := andi main_v63 main_v67
  let main_v69 : FVec F S1024x2048 .f32 := Host.absf main_arg14
  let main_cst_26 : FVec F S_ .f32 := constant S_ .f32 0x7F800000#32
  let main_v70 : FVec F S1024x2048 .f32 := broadcastInDim S1024x2048 ![] bcast_S_S1024x2048 main_cst_26
  let main_v71 : IVec S1024x2048 1 := cmpf .olt main_v69 main_v70
  let main_c_27 : IVec S_ 1 := constantI S_ 1 1#1
  let main_v72 : IVec S_ 1 := (fun x v => Host.reduce IntOp.andi x v reducesTo_S1024x2048_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x1024 .f32) (main_arg13 : FVec F S1024 .f32) (main_arg14 : FVec F S1024x2048 .f32) (main_arg15 : FVec F S1024 .f32) (main_arg16 : FVec F S1024x1024 .f32) (main_arg17 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x2048 .f32) (main_arg15 : FVec F S1024 .f32) (main_arg16 : FVec F S1024x1024 .f32) (main_arg17 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x2048 .f32) (main_arg15 : FVec F S1024 .f32) (main_arg16 : FVec F S1024x1024 .f32) (main_arg17 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32x448x1024 .f32) (main_arg1 : FVec F S500x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x2048 .f32) (main_arg15 : FVec F S1024 .f32) (main_arg16 : FVec F S1024x1024 .f32) (main_arg17 : FVec F S1024 .f32) : IVec S_ 1 :=
  let main_v0 : FVec F S32x448x1024 .f32 := Host.absf main_arg0
  let main_cst : FVec F S_ .f32 := constant S_ .f32 0x7F800000#32
  let main_v1 : FVec F S32x448x1024 .f32 := broadcastInDim S32x448x1024 ![] bcast_S_S32x448x1024 main_cst
  let main_v2 : IVec S32x448x1024 1 := cmpf .olt main_v0 main_v1
  let main_c : IVec S_ 1 := constantI S_ 1 1#1
  let main_v3 : IVec S_ 1 := (fun x v => Host.reduce IntOp.andi x v reducesTo_S32x448x1024_S_d0_1_2 h_S_) main_v2 main_c
  let main_v4 : FVec F S500x1024 .f32 := Host.absf main_arg1
  let main_cst_0 : FVec F S_ .f32 := constant S_ .f32 0x7F800000#32
  let main_v5 : FVec F S500x1024 .f32 := broadcastInDim S500x1024 ![] bcast_S_S500x1024 main_cst_0
  let main_v6 : IVec S500x1024 1 := cmpf .olt main_v4 main_v5
  let main_c_1 : IVec S_ 1 := constantI S_ 1 1#1
  let main_v7 : IVec S_ 1 := (fun x v => Host.reduce IntOp.andi x v reducesTo_S500x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32x448x1024 : Shape := ⟨3, ![32, 448, 1024]⟩
abbrev S500x1024 : Shape := ⟨2, ![500, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S448x1024 : Shape := ⟨2, ![448, 1024]⟩
abbrev S1x448x1024 : Shape := ⟨3, ![1, 448, 1024]⟩
abbrev S448x448 : Shape := ⟨2, ![448, 448]⟩
abbrev S448 : Shape := ⟨1, ![448]⟩
abbrev S448x1 : Shape := ⟨2, ![448, 1]⟩
abbrev S2048x1024 : Shape := ⟨2, ![2048, 1024]⟩
abbrev S32x1x1024 : Shape := ⟨3, ![32, 1, 1024]⟩
abbrev S1x1x1024 : Shape := ⟨3, ![1, 1, 1024]⟩
abbrev S32x1024 : Shape := ⟨2, ![32, 1024]⟩

abbrev nBuf : Space → Nat
  | .hbm => 50
  | .vmem => 32
  | .smem => 0
  | _ => 0

abbrev bufTy : (tb : Table) → Fin (tcTables nBuf tb) → BufTy
  | .hbm, ⟨0, _⟩ => ⟨S32x448x1024, .f32⟩
  | .hbm, ⟨1, _⟩ => ⟨S500x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x2048, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S448x1024, .f32⟩
  | .hbm, ⟨37, _⟩ => ⟨S32x448x1024, .f32⟩
  | .hbm, ⟨38, _⟩ => ⟨S32x448x1024, .f32⟩
  | .hbm, ⟨39, _⟩ => ⟨S2048x1024, .f32⟩
  | .hbm, ⟨40, _⟩ => ⟨S2048x1024, .bf16⟩
  | .hbm, ⟨41, _⟩ => ⟨S1024x1024, .bf16⟩
  | .hbm, ⟨42, _⟩ => ⟨S1024x1024, .bf16⟩
  | .hbm, ⟨43, _⟩ => ⟨S1x1024, .f32⟩
  | .hbm, ⟨44, _⟩ => ⟨S1024x1024, .f32⟩
  | .hbm, ⟨45, _⟩ => ⟨S1024x1024, .bf16⟩
  | .hbm, ⟨46, _⟩ => ⟨S1x1024, .f32⟩
  | .hbm, ⟨47, _⟩ => ⟨S32x448x1024, .f32⟩
  | .hbm, ⟨48, _⟩ => ⟨S32x1x1024, .f32⟩
  | .hbm, ⟨49, _⟩ => ⟨S32x1024, .f32⟩
  | .local _ .vmem, ⟨0, _⟩ => ⟨S1x448x1024, .f32⟩
  | .local _ .vmem, ⟨1, _⟩ => ⟨S1x448x1024, .f32⟩
  | .local _ .vmem, ⟨2, _⟩ => ⟨S448x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1x448x1024, .f32⟩
  | .local _ .vmem, ⟨16, _⟩ => ⟨S1x448x1024, .f32⟩
  | .local _ .vmem, ⟨17, _⟩ => ⟨S1x448x1024, .f32⟩
  | .local _ .vmem, ⟨18, _⟩ => ⟨S1x448x1024, .f32⟩
  | .local _ .vmem, ⟨19, _⟩ => ⟨S1x448x1024, .f32⟩
  | .local _ .vmem, ⟨20, _⟩ => ⟨S1x448x1024, .f32⟩
  | .local _ .vmem, ⟨21, _⟩ => ⟨S1x448x1024, .f32⟩
  | .local _ .vmem, ⟨22, _⟩ => ⟨S1x448x1024, .f32⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S1024x1024, .bf16⟩
  | .local _ .vmem, ⟨27, _⟩ => ⟨S1x1024, .f32⟩
  | .local _ .vmem, ⟨28, _⟩ => ⟨S1x448x1024, .f32⟩
  | .local _ .vmem, ⟨29, _⟩ => ⟨S1x448x1024, .f32⟩
  | .local _ .vmem, ⟨30, _⟩ => ⟨S1x1x1024, .f32⟩
  | .local _ .vmem, ⟨31, _⟩ => ⟨S1x1x1024, .f32⟩
  | _, _ => ⟨S32x448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x448x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S448x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x448x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x448x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x448x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x448x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x448x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  slices_S500x1024_S448x1024_0_0 : S500x1024.Slices ![0, 0] S448x1024
  inb_S1x448x1024_S1x448x1024_0_0_0 : ∀ a, (![0, 0, 0] : Fin 3 → Nat) a + S1x448x1024.size a ≤ S1x448x1024.size a
  h_S1x448x1024 : 0 < S1x448x1024.numel
  shapeCasts_S1x448x1024_S448x1024 : S1x448x1024.ShapeCasts S448x1024
  inb_S448x1024_S448x1024_0_0 : ∀ a, (![0, 0] : Fin 2 → Nat) a + S448x1024.size a ≤ S448x1024.size a
  h_S448x1024 : 0 < S448x1024.numel
  shapeCasts_S448x1024_S448x1024 : S448x1024.ShapeCasts S448x1024
  iota_S448x448_d0_w32 : S448x448.Iotas .tc 32 [0]
  iota_S448x448_d1_w32 : S448x448.Iotas .tc 32 [1]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S448x1024 : S1x1024.Broadcasts S448x1024
  reduces_S448x448_S448 : S448x448.Reduces [1] S448
  shapeCasts_S448_S448x1 : S448.ShapeCasts S448x1
  broadcasts_S448x1_S448x448 : S448x1.Broadcasts S448x448
  shapeCasts_S448x1024_S1x448x1024 : S448x1024.ShapeCasts S1x448x1024
  transposes_S1024x2048_S2048x1024_1_0 : S1024x2048.Transposes [1, 0] S2048x1024
  slices_S2048x1024_S1024x1024_0_0 : S2048x1024.Slices ![0, 0] S1024x1024
  slices_S2048x1024_S1024x1024_1024_0 : S2048x1024.Slices ![1024, 0] S1024x1024
  reduces_S448x1024_S1024 : S448x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S32x1x1024_S32x1024 : S32x1x1024.ShapeCasts S32x1024
  dot_S448x1024_S1024x1024_S448x1024_1_0_0_1_n_n_wf : DotDims.WF S448x1024 S1024x1024 S448x1024 [1] [0] [0] [1] [] []
  dot_S448x1024_S448x1024_S448x448_1_1_0_0_n_n_wf : DotDims.WF S448x1024 S448x1024 S448x448 [1] [1] [0] [0] [] []
  dot_S448x448_S448x1024_S448x1024_1_0_0_1_n_n_wf : DotDims.WF S448x448 S448x1024 S448x1024 [1] [0] [0] [1] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x448x1024.size a ≤ S32x448x1024.size a
  hwx0_0 : ∀ i : grid0.Coords, EltTy.bits .f32 = 32 ∨ (Rect.block (s := S32x448x1024) S1x448x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x1024.size a ≤ S448x1024.size a
  hwx0_1 : ∀ i : grid0.Coords, EltTy.bits .f32 = 32 ∨ (Rect.block (s := S448x1024) S448x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x448x1024.size a ≤ S32x448x1024.size a
  hwx0_14 : ∀ i : grid0.Coords, EltTy.bits .f32 = 32 ∨ (Rect.block (s := S32x448x1024) S1x448x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x448x1024.size a ≤ S32x448x1024.size a
  hwx0_15 : ∀ i : grid0.Coords, EltTy.bits .f32 = 32 ∨ (Rect.block (s := S32x448x1024) S1x448x1024.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x448x1024.size a ≤ S32x448x1024.size a
  hwx1_0 : ∀ i : grid1.Coords, EltTy.bits .f32 = 32 ∨ (Rect.block (s := S32x448x1024) S1x448x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x448x1024.size a ≤ S32x448x1024.size a
  hwx1_1 : ∀ i : grid1.Coords, EltTy.bits .f32 = 32 ∨ (Rect.block (s := S32x448x1024) S1x448x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x448x1024.size a ≤ S32x448x1024.size a
  hwx1_7 : ∀ i : grid1.Coords, EltTy.bits .f32 = 32 ∨ (Rect.block (s := S32x448x1024) S1x448x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1024.size a ≤ S32x1x1024.size a
  hwx1_8 : ∀ i : grid1.Coords, EltTy.bits .f32 = 32 ∨ (Rect.block (s := S32x1x1024) S1x1x1024.size (cc1_transform_8 i) (hinb1_8 i)).WholeWords (EltTy.packing .f32)

variable [Facts₀]

def dot_S448x1024_S1024x1024_S448x1024_1_0_0_1_n_n : DotDims S448x1024 S1024x1024 S448x1024 where
  lhsContracting := [1]
  rhsContracting := [0]
  lhsNonContracting := [0]
  rhsNonContracting := [1]
  lhsBatch := []
  rhsBatch := []
  wf := dot_S448x1024_S1024x1024_S448x1024_1_0_0_1_n_n_wf
def dot_S448x1024_S448x1024_S448x448_1_1_0_0_n_n : DotDims S448x1024 S448x1024 S448x448 where
  lhsContracting := [1]
  rhsContracting := [1]
  lhsNonContracting := [0]
  rhsNonContracting := [0]
  lhsBatch := []
  rhsBatch := []
  wf := dot_S448x1024_S448x1024_S448x448_1_1_0_0_n_n_wf
def dot_S448x448_S448x1024_S448x1024_1_0_0_1_n_n : DotDims S448x448 S448x1024 S448x1024 where
  lhsContracting := [1]
  rhsContracting := [0]
  lhsNonContracting := [0]
  rhsNonContracting := [1]
  lhsBatch := []
  rhsBatch := []
  wf := dot_S448x448_S448x1024_S448x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x448x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S448x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19_0) S1x448x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v19_1) S1x448x1024.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v19_0) S1x448x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S1x448x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_0) S1x448x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v28_1) S1x1x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S32x448x1024 : Shape := ⟨3, ![32, 448, 1024]⟩
abbrev S500x1024 : Shape := ⟨2, ![500, 1024]⟩
abbrev S1024x1024 : Shape := ⟨2, ![1024, 1024]⟩
abbrev S1024 : Shape := ⟨1, ![1024]⟩
abbrev S1024x2048 : Shape := ⟨2, ![1024, 2048]⟩
abbrev S448x1024 : Shape := ⟨2, ![448, 1024]⟩
abbrev S1x448x1024 : Shape := ⟨3, ![1, 448, 1024]⟩
abbrev S_ : Shape := ⟨0, ![]⟩
abbrev S448x448 : Shape := ⟨2, ![448, 448]⟩
abbrev S1x1x1024 : Shape := ⟨3, ![1, 1, 1024]⟩
abbrev S32x448x448 : Shape := ⟨3, ![32, 448, 448]⟩
abbrev S1x448x448 : Shape := ⟨3, ![1, 448, 448]⟩
abbrev S32x448 : Shape := ⟨2, ![32, 448]⟩
abbrev S32x448x1 : Shape := ⟨3, ![32, 448, 1]⟩
abbrev S32x448x2048 : Shape := ⟨3, ![32, 448, 2048]⟩
abbrev S32x1024 : Shape := ⟨2, ![32, 1024]⟩
abbrev S1x1024 : Shape := ⟨2, ![1, 1024]⟩

abbrev nBuf : Space → Nat
  | .hbm => 139
  | .vmem => 0
  | .smem => 0
  | _ => 0

abbrev hbmTy0_0 (i : Nat) : BufTy := match i % 128 with
  | 0 => ⟨S32x448x1024, .f32⟩
  | 1 => ⟨S500x1024, .f32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S1024x1024, .f32⟩
  | 11 => ⟨S1024, .f32⟩
  | 12 => ⟨S1024x1024, .f32⟩
  | 13 => ⟨S1024, .f32⟩
  | 14 => ⟨S1024x2048, .f32⟩
  | 15 => ⟨S1024, .f32⟩
  | 16 => ⟨S1024x1024, .f32⟩
  | 17 => ⟨S1024, .f32⟩
  | 18 => ⟨S448x1024, .f32⟩
  | 19 => ⟨S1x448x1024, .f32⟩
  | 20 => ⟨S32x448x1024, .f32⟩
  | 21 => ⟨S32x448x1024, .f32⟩
  | 22 => ⟨S_, .i1⟩
  | 23 => ⟨S448x448, .i1⟩
  | 24 => ⟨S448x448, .i32⟩
  | 25 => ⟨S_, .i32⟩
  | 26 => ⟨S448x448, .i32⟩
  | 27 => ⟨S448x448, .i32⟩
  | 28 => ⟨S448x448, .i32⟩
  | 29 => ⟨S448x448, .i1⟩
  | 30 => ⟨S_, .i1⟩
  | 31 => ⟨S448x448, .i1⟩
  | 32 => ⟨S448x448, .i1⟩
  | 33 => ⟨S32x448x1024, .f32⟩
  | 34 => ⟨S1x1x1024, .f32⟩
  | 35 => ⟨S32x448x1024, .f32⟩
  | 36 => ⟨S32x448x1024, .f32⟩
  | 37 => ⟨S32x448x1024, .f32⟩
  | 38 => ⟨S1x1x1024, .f32⟩
  | 39 => ⟨S32x448x1024, .f32⟩
  | 40 => ⟨S32x448x1024, .f32⟩
  | 41 => ⟨S32x448x1024, .f32⟩
  | 42 => ⟨S1x1x1024, .f32⟩
  | 43 => ⟨S32x448x1024, .f32⟩
  | 44 => ⟨S32x448x1024, .f32⟩
  | 45 => ⟨S32x448x448, .f32⟩
  | 46 => ⟨S_, .f32⟩
  | 47 => ⟨S_, .f32⟩
  | 48 => ⟨S32x448x448, .f32⟩
  | 49 => ⟨S32x448x448, .f32⟩
  | 50 => ⟨S1x448x448, .i1⟩
  | 51 => ⟨S_, .f32⟩
  | 52 => ⟨S_, .f32⟩
  | 53 => ⟨S32x448x448, .i1⟩
  | 54 => ⟨S32x448x448, .f32⟩
  | 55 => ⟨S32x448x448, .f32⟩
  | 56 => ⟨S_, .f32⟩
  | 57 => ⟨S32x448, .f32⟩
  | 58 => ⟨S_, .f32⟩
  | 59 => ⟨S32x448, .f32⟩
  | 60 => ⟨S32x448, .f32⟩
  | 61 => ⟨S32x448x1, .f32⟩
  | 62 => ⟨S32x448x448, .f32⟩
  | 63 => ⟨S32x448x448, .f32⟩
  | 64 => ⟨S32x448x448, .f32⟩
  | 65 => ⟨S_, .f32⟩
  | 66 => ⟨S32x448, .f32⟩
  | 67 => ⟨S32x448x1, .f32⟩
  | 68 => ⟨S32x448x448, .f32⟩
  | 69 => ⟨S32x448x448, .f32⟩
  | 70 => ⟨S32x448x1024, .f32⟩
  | 71 => ⟨S448x448, .i1⟩
  | 72 => ⟨S32x448x1024, .f32⟩
  | 73 => ⟨S1x1x1024, .f32⟩
  | 74 => ⟨S32x448x1024, .f32⟩
  | 75 => ⟨S32x448x1024, .f32⟩
  | 76 => ⟨S32x448x1024, .f32⟩
  | 77 => ⟨S1x1x1024, .f32⟩
  | 78 => ⟨S32x448x1024, .f32⟩
  | 79 => ⟨S32x448x1024, .f32⟩
  | 80 => ⟨S32x448x1024, .f32⟩
  | 81 => ⟨S1x1x1024, .f32⟩
  | 82 => ⟨S32x448x1024, .f32⟩
  | 83 => ⟨S32x448x1024, .f32⟩
  | 84 => ⟨S32x448x448, .f32⟩
  | 85 => ⟨S_, .f32⟩
  | 86 => ⟨S_, .f32⟩
  | 87 => ⟨S32x448x448, .f32⟩
  | 88 => ⟨S32x448x448, .f32⟩
  | 89 => ⟨S1x448x448, .i1⟩
  | 90 => ⟨S_, .f32⟩
  | 91 => ⟨S_, .f32⟩
  | 92 => ⟨S32x448x448, .i1⟩
  | 93 => ⟨S32x448x448, .f32⟩
  | 94 => ⟨S32x448x448, .f32⟩
  | 95 => ⟨S_, .f32⟩
  | 96 => ⟨S32x448, .f32⟩
  | 97 => ⟨S_, .f32⟩
  | 98 => ⟨S32x448, .f32⟩
  | 99 => ⟨S32x448, .f32⟩
  | 100 => ⟨S32x448x1, .f32⟩
  | 101 => ⟨S32x448x448, .f32⟩
  | 102 => ⟨S32x448x448, .f32⟩
  | 103 => ⟨S32x448x448, .f32⟩
  | 104 => ⟨S_, .f32⟩
  | 105 => ⟨S32x448, .f32⟩
  | 106 => ⟨S32x448x1, .f32⟩
  | 107 => ⟨S32x448x448, .f32⟩
  | 108 => ⟨S32x448x448, .f32⟩
  | 109 => ⟨S32x448x1024, .f32⟩
  | 110 => ⟨S32x448x2048, .f32⟩
  | 111 => ⟨S32x448x1024, .f32⟩
  | 112 => ⟨S1x1x1024, .f32⟩
  | 113 => ⟨S32x448x1024, .f32⟩
  | 114 => ⟨S32x448x1024, .f32⟩
  | 115 => ⟨S32x448x1024, .f32⟩
  | 116 => ⟨S32x448x1024, .f32⟩
  | 117 => ⟨S_, .f32⟩
  | 118 => ⟨S32x448x1024, .f32⟩
  | 119 => ⟨S32x448x1024, .f32⟩
  | 120 => ⟨S_, .f32⟩
  | 121 => ⟨S32x448x1024, .f32⟩
  | 122 => ⟨S32x448x1024, .f32⟩
  | 123 => ⟨S32x448x1024, .f32⟩
  | 124 => ⟨S_, .f32⟩
  | 125 => ⟨S32x448x1024, .f32⟩
  | 126 => ⟨S32x448x1024, .f32⟩
  | 127 => ⟨S32x448x1024, .f32⟩
  | _ => ⟨S32x448x1024, .f32⟩

abbrev hbmTy0_1 (i : Nat) : BufTy := match i % 128 with
  | 0 => ⟨S32x448x1024, .f32⟩
  | 1 => ⟨S_, .f32⟩
  | 2 => ⟨S32x1024, .f32⟩
  | 3 => ⟨S_, .f32⟩
  | 4 => ⟨S32x1024, .f32⟩
  | 5 => ⟨S32x1024, .f32⟩
  | 6 => ⟨S32x1024, .f32⟩
  | 7 => ⟨S1x1024, .f32⟩
  | 8 => ⟨S32x1024, .f32⟩
  | 9 => ⟨S32x1024, .f32⟩
  | 10 => ⟨S32x1024, .f32⟩
  | _ => ⟨S32x448x1024, .f32⟩

abbrev hbmTy (i : Nat) : BufTy := match i / 128 with
  | 0 => hbmTy0_0 i
  | 1 => hbmTy0_1 i
  | _ => ⟨S32x448x1024, .f32⟩

abbrev bufTy : (tb : Table) → Fin (tcTables nBuf tb) → BufTy
  | .hbm, ⟨i, _⟩ => hbmTy i
  | _, _ => ⟨S32x448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v23 : Ref sig .tc := ⟨.hbm, 55, rfl⟩
abbrev main_cst_1 : Ref sig .tc := ⟨.hbm, 56, rfl⟩
abbrev main_v24 : Ref sig .tc := ⟨.hbm, 57, rfl⟩
abbrev main_cst_2 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_3 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_4 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_5 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v54 : Ref sig .tc := ⟨.hbm, 94, rfl⟩
abbrev main_cst_6 : Ref sig .tc := ⟨.hbm, 95, rfl⟩
abbrev main_v55 : Ref sig .tc := ⟨.hbm, 96, rfl⟩
abbrev main_cst_7 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_8 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_9 : Ref sig .tc := ⟨.hbm, 117, rfl⟩
abbrev main_v74 : Ref sig .tc := ⟨.hbm, 118, rfl⟩
abbrev main_v75 : Ref sig .tc := ⟨.hbm, 119, rfl⟩
abbrev main_cst_10 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_11 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_12 : Ref sig .tc := ⟨.hbm, 129, rfl⟩
abbrev main_v83 : Ref sig .tc := ⟨.hbm, 130, rfl⟩
abbrev main_cst_13 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S500x1024_S448x1024_0_0 : S500x1024.Slices ![0, 0] S448x1024
  bcast_S448x1024_S1x448x1024_1_2 : S448x1024.BroadcastsInDim S1x448x1024 (![1, 2] : Fin 2 → Fin S1x448x1024.rank)
  bcast_S1x448x1024_S32x448x1024_0_1_2 : S1x448x1024.BroadcastsInDim S32x448x1024 (![0, 1, 2] : Fin 3 → Fin S32x448x1024.rank)
  bcast_S_S448x448 : S_.BroadcastsInDim S448x448 (![] : Fin 0 → Fin S448x448.rank)
  bcast_S1024_S1x1x1024_2 : S1024.BroadcastsInDim S1x1x1024 (![2] : Fin 1 → Fin S1x1x1024.rank)
  bcast_S1x1x1024_S32x448x1024_0_1_2 : S1x1x1024.BroadcastsInDim S32x448x1024 (![0, 1, 2] : Fin 3 → Fin S32x448x1024.rank)
  bcast_S_S32x448x448 : S_.BroadcastsInDim S32x448x448 (![] : Fin 0 → Fin S32x448x448.rank)
  bcast_S448x448_S1x448x448_1_2 : S448x448.BroadcastsInDim S1x448x448 (![1, 2] : Fin 2 → Fin S1x448x448.rank)
  bcast_S1x448x448_S32x448x448_0_1_2 : S1x448x448.BroadcastsInDim S32x448x448 (![0, 1, 2] : Fin 3 → Fin S32x448x448.rank)
  reducesTo_S32x448x448_S32x448_d2 : S32x448x448.ReducesTo [2] S32x448
  h_S_ : 0 < S_.numel
  bcast_S_S32x448 : S_.BroadcastsInDim S32x448 (![] : Fin 0 → Fin S32x448.rank)
  bcast_S32x448_S32x448x1_0_1 : S32x448.BroadcastsInDim S32x448x1 (![0, 1] : Fin 2 → Fin S32x448x1.rank)
  bcast_S32x448x1_S32x448x448_0_1_2 : S32x448x1.BroadcastsInDim S32x448x448 (![0, 1, 2] : Fin 3 → Fin S32x448x448.rank)
  transposes_S448x448_S448x448_1_0 : S448x448.Transposes [1, 0] S448x448
  concatenates_S32x448x1024_S32x448x1024_S32x448x2048_d2 : Shape.Concatenates [S32x448x1024, S32x448x1024] S32x448x2048 2
  bcast_S_S32x448x1024 : S_.BroadcastsInDim S32x448x1024 (![] : Fin 0 → Fin S32x448x1024.rank)
  reducesTo_S32x448x1024_S32x1024_d1 : S32x448x1024.ReducesTo [1] S32x1024
  bcast_S_S32x1024 : S_.BroadcastsInDim S32x1024 (![] : Fin 0 → Fin S32x1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  dot_S32x448x1024_S1024x1024_S32x448x1024_2_1_01_0_n_n_wf : DotDims.WF S32x448x1024 S1024x1024 S32x448x1024 [2] [1] [0, 1] [0] [] []
  dot_S32x448x1024_S32x448x1024_S32x448x448_2_2_1_1_0_0_wf : DotDims.WF S32x448x1024 S32x448x1024 S32x448x448 [2] [2] [1] [1] [0] [0]
  dot_S32x448x448_S32x448x1024_S32x448x1024_2_1_1_2_0_0_wf : DotDims.WF S32x448x448 S32x448x1024 S32x448x1024 [2] [1] [1] [2] [0] [0]
  dot_S32x448x2048_S1024x2048_S32x448x1024_2_1_01_0_n_n_wf : DotDims.WF S32x448x2048 S1024x2048 S32x448x1024 [2] [1] [0, 1] [0] [] []
  dot_S32x1024_S1024x1024_S32x1024_1_1_0_0_n_n_wf : DotDims.WF S32x1024 S1024x1024 S32x1024 [1] [1] [0] [0] [] []

variable [Facts₀]

def dot_S32x448x1024_S1024x1024_S32x448x1024_2_1_01_0_n_n : DotDims S32x448x1024 S1024x1024 S32x448x1024 where
  lhsContracting := [2]
  rhsContracting := [1]
  lhsNonContracting := [0, 1]
  rhsNonContracting := [0]
  lhsBatch := []
  rhsBatch := []
  wf := dot_S32x448x1024_S1024x1024_S32x448x1024_2_1_01_0_n_n_wf
def dot_S32x448x1024_S32x448x1024_S32x448x448_2_2_1_1_0_0 : DotDims S32x448x1024 S32x448x1024 S32x448x448 where
  lhsContracting := [2]
  rhsContracting := [2]
  lhsNonContracting := [1]
  rhsNonContracting := [1]
  lhsBatch := [0]
  rhsBatch := [0]
  wf := dot_S32x448x1024_S32x448x1024_S32x448x448_2_2_1_1_0_0_wf
def dot_S32x448x448_S32x448x1024_S32x448x1024_2_1_1_2_0_0 : DotDims S32x448x448 S32x448x1024 S32x448x1024 where
  lhsContracting := [2]
  rhsContracting := [1]
  lhsNonContracting := [1]
  rhsNonContracting := [2]
  lhsBatch := [0]
  rhsBatch := [0]
  wf := dot_S32x448x448_S32x448x1024_S32x448x1024_2_1_1_2_0_0_wf
def dot_S32x448x2048_S1024x2048_S32x448x1024_2_1_01_0_n_n : DotDims S32x448x2048 S1024x2048 S32x448x1024 where
  lhsContracting := [2]
  rhsContracting := [1]
  lhsNonContracting := [0, 1]
  rhsNonContracting := [0]
  lhsBatch := []
  rhsBatch := []
  wf := dot_S32x448x2048_S1024x2048_S32x448x1024_2_1_01_0_n_n_wf
def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

class Facts : Prop extends Facts₀ where

variable [Facts]
-- ==== Proof.KRun.lean ====
/-
  The idealized kernel's run, with every buffer named.

  @main is five segments: a stretch of host operations, the attention region, a second stretch, the gate region,
  and one last host operation.  The generated frame module folds the buffer contents through these segments
  (`W0` at launch … `W5` at the return) and runs the segments from any launch memory.  Here the same run is
  read with its whole final memory: every buffer that outlives a region ends at `W5`'s contents.  The value
  statements of the other modules read `W5` at the two result buffers.
-/
import proofs.«181104_j38946763440234_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the launch memory `m` terminates, nothing faulting, and every buffer
    that is not scoped to a region ends at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Run

end
-- ==== Proof.Spec.lean ====
/-
  The mathematics both programs compute, written once over the extended reals, with no program in sight.

  One batch element at a time.  From the row block `X` (448 × 1024) and the positional rows `P`, the shifted
  input is `X + P`.  A projection is the affine map `u ↦ (∑ d, u s d · Wt d h) + bias h` (the weight as the
  matrix product meets it, contraction index first).  A logit is the scaled inner product of a query row and
  a key row where the triangular mask keeps the pair, and −∞ elsewhere.  A softmax row subtracts the row's
  maximum, exponentiates, and divides by the row's sum.  Attention is the softmax row times the value rows.
  The gate is the logistic of an affine map of both attentions; the token is the gate's convex mix of the
  two attentions; the utterance vector is `tanh` of an affine map of the tokens' mean over the sequence.

  The float words that both programs spell identically (−∞ seeding the maximum, 1.0 in the mix, 2⁻⁵ scaling
  the logits, 448.0 dividing the sum) stay as words: nothing here evaluates them.
-/
import Idealize.ShloMosaic.PureOps.Ideal
import Idealize.ShloMosaic.Lib.ValueIdx

noncomputable section

namespace Cert.Attn

open Idealize.ShloMosaic

/-- The word of −∞: the seed of a row's maximum. -/
abbrev negInf : EReal := Ideal.ofBits .f32 0xFF800000#32
/-- The word of 1.0. -/
abbrev one : EReal := Ideal.ofBits .f32 0x3F800000#32
/-- The word of 2⁻⁵ = 1/√1024: the logits' scale. -/
abbrev scale : EReal := Ideal.ofBits .f32 0x3D000000#32
/-- The word of 448.0: the sequence length the mean divides by. -/
abbrev len : EReal := Ideal.ofBits .f32 0x43E00000#32

/-- A row of the positional table used as a row of the first 448. -/
abbrev row500 (s : Fin 448) : Fin 500 := ⟨s.val, by have := s.isLt; omega⟩
/-- Column `f` of the first half of the 2048 gate columns. -/
abbrev lo (f : Fin 1024) : Fin 2048 := ⟨f.val, by have := f.isLt; omega⟩
/-- Column `f` of the second half of the 2048 gate columns. -/
abbrev hi (f : Fin 1024) : Fin 2048 := ⟨1024 + f.val, by have := f.isLt; omega⟩

/-- The forward (causal) mask keeps key `k` for query `q` when `k ≤ q`. -/
abbrev keepFw (q k : Fin 448) : Prop := k ≤ q
/-- The backward mask keeps key `k` for query `q` when `q ≤ k`. -/
abbrev keepBw (q k : Fin 448) : Prop := q ≤ k

/-- The shifted input: the row block plus the positional rows. -/
def shifted (X P : Fin 448 → Fin 1024 → EReal) (s : Fin 448) (d : Fin 1024) : EReal := X s d + P s d

/-- An affine projection of the rows `u`: entry `(s, h)` is `(∑ d, u s d · Wt d h) + bias h`. -/
def proj (u : Fin 448 → Fin 1024 → EReal) (Wt : Fin 1024 → Fin 1024 → EReal) (bias : Fin 1024 → EReal)
    (s : Fin 448) (h : Fin 1024) : EReal := (∑ d, u s d * Wt d h) + bias h

/-- The masked, scaled logits: the inner product of query row `q` and key row `k` times 2⁻⁵ where the mask
    keeps the pair, −∞ elsewhere. -/
def logits (keep : Fin 448 → Fin 448 → Prop) [DecidableRel keep] (Q K : Fin 448 → Fin 1024 → EReal)
    (q k : Fin 448) : EReal := if keep q k then (∑ h, Q q h * K k h) * scale else ⊥

/-- A row's maximum as both programs take it: the fold of `max` over the row from the word of −∞, met once
    more with that word. -/
def rowMax (r : Fin 448 → EReal) : EReal := max negInf ((Finset.univ : Finset (Fin 448)).fold max negInf r)

/-- A softmax row: `exp (r k − max r) / ∑ j, exp (r j − max r)`. -/
def softmaxRow (r : Fin 448 → EReal) (k : Fin 448) : EReal :=
  Ideal.div (Ideal.exp (r k - rowMax r)) (∑ j, Ideal.exp (r j - rowMax r))

/-- Attention: the softmax of each logit row times the value rows. -/
def attend (L : Fin 448 → Fin 448 → EReal) (V : Fin 448 → Fin 1024 → EReal) (q : Fin 448) (h : Fin 1024) : EReal :=
  ∑ k, softmaxRow (L q) k * V k h

/-- One direction's attention of one batch element, from its row block, the positional rows and the three
    projections' weights and biases. -/
def attn (keep : Fin 448 → Fin 448 → Prop) [DecidableRel keep] (X P : Fin 448 → Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (q : Fin 448) (h : Fin 1024) : EReal :=
  attend (logits keep (proj (shifted X P) Wq bq) (proj (shifted X P) Wk bk)) (proj (shifted X P) Wv bv) q h

/-- The gate: the logistic of the two attentions' affine map, each attention against its half of the gate
    weight. -/
def gate (A B : Fin 448 → Fin 1024 → EReal) (Gf Gb : Fin 1024 → Fin 1024 → EReal) (bg : Fin 1024 → EReal)
    (s : Fin 448) (h : Fin 1024) : EReal :=
  Ideal.logistic (((∑ f, A s f * Gf f h) + (∑ f, B s f * Gb f h)) + bg h)

/-- The token representation: the gate's mix `g · A + (1 − g) · B` of the two attentions. -/
def token (A B : Fin 448 → Fin 1024 → EReal) (Gf Gb : Fin 1024 → Fin 1024 → EReal) (bg : Fin 1024 → EReal)
    (s : Fin 448) (h : Fin 1024) : EReal :=
  gate A B Gf Gb bg s h * A s h + (one - gate A B Gf Gb bg s h) * B s h

/-- The utterance vector: `tanh` of the affine map of the tokens' mean over the sequence. -/
def utter (T : Fin 448 → Fin 1024 → EReal) (Wut : Fin 1024 → Fin 1024 → EReal) (bu : Fin 1024 → EReal)
    (o : Fin 1024) : EReal :=
  Ideal.tanh ((∑ h, Ideal.div (∑ s, T s h) len * Wut h o) + bu o)

end Cert.Attn

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.KAttnOps.lean ====
/-
  The operation groups of the attention body read at one entry, over the extended reals, each over variables.

  The shifted input is the row block plus the positional rows.  A projection is a plain matrix product into a zero
  accumulator plus a bias row laid along the rows: at (s, h) the sum over d of u (s, d) · w (d, h), plus bias h.  The
  score product contracts the second coordinate of both operands: at (q, k) the sum over h of Q (q, h) · K (k, h).
  The two triangular masks compare the column coordinate with the row coordinate.  The softmax chain takes a row's
  maximum (the fold of max from the word of −∞, met once more with that word), subtracts it, exponentiates, and
  divides by the row's sum.  The named fill constant is −∞.
-/
import proofs.«181104_j38946763440234_1_alg».proof.Proof.Gen.KernelIdeal.Skeleton
import proofs.«181104_j38946763440234_1_alg».proof.Proof.Spec
import proofs.«181104_j38946763440234_1_alg».proof.Proof.LibColumnLayout
import proofs.«181104_j38946763440234_1_alg».proof.Proof.LibSoftplus
import Idealize.ShloMosaic.PureOps.IdealRules
import Idealize.ShloMosaic.PureOps.Ideal.Laws
import Idealize.ShloMosaic.Lib.ValueLayout
import Idealize.ShloMosaic.Lib.Pipeline.Value
import Idealize.ShloMosaic.Lib.Affine
import Idealize.ShloMosaic.Lib.WordArith

noncomputable section

open scoped BigOperators

namespace Cert.KernelIdeal.Pay

open Idealize.ShloMosaic Idealize.ShloMosaic.ValueIdx Cert.KernelIdeal

/-- The shifted input at (s, d): the row block's entry plus the positional entry (the format change is the identity). -/
theorem shifted_apply (v0 : Vec Ideal S1x448x1024 .f32) (v2 : Vec Ideal S448x1024 .f32) (s : Fin 448) (d : Fin 1024) :
    Gen.k0_pay2 (F := Ideal) v0 v2 (ix2 s d) = v0 (ix3 (0 : Fin 1) s d) + v2 (ix2 s d) := by
  unfold Gen.k0_pay2
  rw [truncf_apply, addf_apply, shapeCast_1ab_ab_apply, shapeCast_self]

/-- The named fill constant is −∞. -/
theorem neg_big : Named.named (F := Ideal) κ "neg_big" (φ := .f32) 0xFF333332#32 = (⊥ : EReal) :=
  IdealRules.named_const.ideal_named_scalar _ _ _ _ rfl

/-- A projection at (s, h): the sum over d of u (s, d) · w (d, h), plus the bias entry h. -/
theorem proj_apply (u : FVec Ideal S448x1024 .bf16) (w : FVec Ideal S1024x1024 .bf16) (bias : FVec Ideal S1x1024 .f32)
    (hw : S1024x1024.ShapeCasts S1024x1024) (hb : S1x1024.ShapeCasts S1x1024) (hbc : S1x1024.Broadcasts S448x1024)
    (s : Fin 448) (h : Fin 1024) :
    addf (matmul dot_S448x1024_S1024x1024_S448x1024_1_0_0_1_n_n none u
        (shapeCast S1024x1024 w hw) (constant (F := Ideal) S448x1024 .f32 0x00000000#32))
      (broadcastTo S448x1024 (shapeCast S1x1024 bias hb) hbc) (ix2 s h)
      = (∑ d : Fin 1024, u (ix2 s d) * w (ix2 d h)) + bias (ix2 (0 : Fin 1) h) := by
  rw [addf_apply, shapeCast_self, shapeCast_self, broadcastTo_1b_ab_apply]
  refine congrArg (· + bias (ix2 (0 : Fin 1) h)) ?_
  exact Cert.Lib.Softplus.matmul0_plain_apply _ rfl none u w s h

/-! The score product contracts axis 1 of both operands: at output (q, k) and contraction coordinate c the left
    operand is read at (q, c) and the right operand at (k, c). -/

theorem scoresLhs0 (i : S448x448.Idx) (c : dot_S448x1024_S448x1024_S448x448_1_1_0_0_n_n.contr.Idx) : (dot_S448x1024_S448x1024_S448x448_1_1_0_0_n_n.lhsIdx i c 0).val = (i 0).val := by
  unfold DotDims.lhsIdx
  rw [dif_neg (show ¬(0 : Fin S448x1024.rank) ∈ dot_S448x1024_S448x1024_S448x448_1_1_0_0_n_n.lhsBatch by decide),
    dif_pos (show (0 : Fin S448x1024.rank) ∈ dot_S448x1024_S448x1024_S448x448_1_1_0_0_n_n.lhsNonContracting by decide)]
  rfl

theorem scoresRhs0 (i : S448x448.Idx) (c : dot_S448x1024_S448x1024_S448x448_1_1_0_0_n_n.contr.Idx) : (dot_S448x1024_S448x1024_S448x448_1_1_0_0_n_n.rhsIdx i c 0).val = (i 1).val := by
  unfold DotDims.rhsIdx
  rw [dif_neg (show ¬(0 : Fin S448x1024.rank) ∈ dot_S448x1024_S448x1024_S448x448_1_1_0_0_n_n.rhsBatch by decide),
    dif_pos (show (0 : Fin S448x1024.rank) ∈ dot_S448x1024_S448x1024_S448x448_1_1_0_0_n_n.rhsNonContracting by decide)]
  rfl

theorem scoresLhs1 (i : S448x448.Idx) (c : dot_S448x1024_S448x1024_S448x448_1_1_0_0_n_n.contr.Idx) : (dot_S448x1024_S448x1024_S448x448_1_1_0_0_n_n.lhsIdx i c 1).val = (c ⟨0, by decide⟩).val :=
  dot_S448x1024_S448x1024_S448x448_1_1_0_0_n_n.lhsIdx_val_of_single rfl i c

theorem scoresRhs1 (i : S448x448.Idx) (c : dot_S448x1024_S448x1024_S448x448_1_1_0_0_n_n.contr.Idx) : (dot_S448x1024_S448x1024_S448x448_1_1_0_0_n_n.rhsIdx i c 1).val = (c ⟨0, by decide⟩).val :=
  dot_S448x1024_S448x1024_S448x448_1_1_0_0_n_n.rhsIdx_val_of_single rfl i c

/-- The score product into a zero accumulator, read at (q, k): the inner product of row q of the left operand and
    row k of the right operand. -/
theorem scores_apply (Q K : FVec Ideal S448x1024 .bf16) (q k : Fin 448) :
    matmul dot_S448x1024_S448x1024_S448x448_1_1_0_0_n_n none Q K (constant (F := Ideal) S448x448 .f32 0x00000000#32) (ix2 q k)
      = ∑ h : Fin 1024, Q (ix2 q h) * K (ix2 k h) := by
  refine (Ideal.matmul_constant_zero_apply _ none Q K (ix2 q k)).trans ?_
  rw [← Equiv.sum_comp (contrEquiv1 dot_S448x1024_S448x1024_S448x448_1_1_0_0_n_n 1024 rfl rfl).symm]
  refine Finset.sum_congr rfl fun c _ => ?_
  have hc := contrEquiv1_symm_val dot_S448x1024_S448x1024_S448x448_1_1_0_0_n_n 1024 rfl rfl c
  have el : dot_S448x1024_S448x1024_S448x448_1_1_0_0_n_n.lhsIdx (ix2 q k) ((contrEquiv1 dot_S448x1024_S448x1024_S448x448_1_1_0_0_n_n 1024 rfl rfl).symm c) = ix2 q c :=
    funext fun a => Fin.ext (by
      match a with
      | ⟨0, _⟩ => exact scoresLhs0 _ _
      | ⟨1, _⟩ => exact (scoresLhs1 _ _).trans hc)
  have er : dot_S448x1024_S448x1024_S448x448_1_1_0_0_n_n.rhsIdx (ix2 q k) ((contrEquiv1 dot_S448x1024_S448x1024_S448x448_1_1_0_0_n_n 1024 rfl rfl).symm c) = ix2 k c :=
    funext fun a => Fin.ext (by
      match a with
      | ⟨0, _⟩ => exact scoresRhs0 _ _
      | ⟨1, _⟩ => exact (scoresRhs1 _ _).trans hc)
  rw [el, er]

/-! The triangular masks. -/

/-- A coordinate below 448, as a 32-bit word read signed, is itself. -/
theorem word_toInt (n : Fin 448) : (BitVec.ofNat 32 n.val).toInt = (n.val : Int) :=
  WordArith.toInt_ofNat_small _ (by have := n.isLt; omega)

/-- The forward mask at (q, k): column ≤ row. -/
theorem maskFw_apply (q k : Fin 448) : Gen.k0_pay3 (ix2 q k) = if k ≤ q then 1#1 else 0#1 := by
  have e : Gen.k0_pay3 (ix2 q k) = IntOp.cmpi .sle (BitVec.ofNat 32 k.val) (BitVec.ofNat 32 q.val) := by
    unfold Gen.k0_pay3
    show IntOp.cmpi .sle (iota .tc S448x448 32 [1] _ (ix2 q k)) (iota .tc S448x448 32 [0] _ (ix2 q k)) = _
    rw [iota_single_apply, iota_single_apply]
  rw [e]
  by_cases hkq : k ≤ q
  · rw [if_pos hkq]
    exact IntOp.cmpi_sle.mpr (by rw [word_toInt, word_toInt]; have := Fin.le_def.mp hkq; omega)
  · rw [if_neg hkq]
    refine eq_zero_of_ne_one fun h => hkq ?_
    have := IntOp.cmpi_sle.mp h
    rw [word_toInt, word_toInt] at this
    exact Fin.le_def.mpr (by omega)

/-- The backward mask at (q, k): column ≥ row. -/
theorem maskBw_apply (q k : Fin 448) : Gen.k0_pay4 (ix2 q k) = if q ≤ k then 1#1 else 0#1 := by
  have e : Gen.k0_pay4 (ix2 q k) = IntOp.cmpi .sge (BitVec.ofNat 32 k.val) (BitVec.ofNat 32 q.val) := by
    unfold Gen.k0_pay4
    show IntOp.cmpi .sge (iota .tc S448x448 32 [1] _ (ix2 q k)) (iota .tc S448x448 32 [0] _ (ix2 q k)) = _
    rw [iota_single_apply, iota_single_apply]
  rw [e]
  by_cases hkq : q ≤ k
  · rw [if_pos hkq]
    exact IntOp.cmpi_sge.mpr (by rw [word_toInt, word_toInt]; have := Fin.le_def.mp hkq; omega)
  · rw [if_neg hkq]
    refine eq_zero_of_ne_one fun h => hkq ?_
    have := IntOp.cmpi_sge.mp h
    rw [word_toInt, word_toInt] at this
    exact Fin.le_def.mpr (by omega)

/-! The vector softmax of a [448, 448] array along its rows, read at one entry. -/

/-- In an [a, b] array reduced over its columns, the reduced index q with column j put back is (q, j). -/
theorem lift_cols {a b : ℕ} (h : (⟨2, ![a, b]⟩ : Shape).Reduces [1] (⟨1, ![a]⟩ : Shape)) (q : Fin a)
    (j : Fin ((⟨2, ![a, b]⟩ : Shape).size 1)) : h.lift (ix1 q) j = ix2 q (⟨j.val, j.isLt⟩ : Fin b) := by
  funext d; apply Fin.ext
  fin_cases d <;> rfl

/-- The maximum-reduction over the columns from the word of −∞, at row q: the fold of max over the row. -/
theorem rowMaxFold_apply (v : FVec Ideal S448x448 .f32) (hr : S448x448.Reduces [1] S448) (hφ : FKind.Formats .f32)
    (hacc : (0xFF800000#32 : BitVec 32) = FKind.maximumf.neutral .f32 hφ) (q : Fin 448) :
    multiReduction (F := Ideal) .maximumf [1] S448 v 0xFF800000#32 hr hφ hacc (ix1 q)
      = (Finset.univ : Finset (Fin 448)).fold max Attn.negInf fun k => v (ix2 q k) := by
  refine (Ideal.multiReduction_maximumf_single v _ hr hφ hacc (ix1 q)).trans ?_
  refine congrArg (fun f => Finset.fold max Attn.negInf f (Finset.univ : Finset (Fin 448))) ?_
  funext j
  exact congrArg v (lift_cols hr q j)

/-- The add-reduction over the columns from the zero word, at row q: the sum over the row. -/
theorem rowSum_apply (e : FVec Ideal S448x448 .f32) (hr : S448x448.Reduces [1] S448) (hφ : FKind.Formats .f32)
    (hacc : (0x00000000#32 : BitVec 32) = FKind.add.neutral .f32 hφ) (q : Fin 448) :
    multiReduction (F := Ideal) .add [1] S448 e 0x00000000#32 hr hφ hacc (ix1 q) = ∑ k : Fin 448, e (ix2 q k) := by
  refine (Ideal.multiReduction_add_single e _ hr hφ hacc (ix1 q)).trans ?_
  refine Finset.sum_congr rfl fun j _ => ?_
  exact congrArg e (lift_cols hr q j)

/-- The row maximum met once more with the word of −∞, laid along the row: at (q, k) it is the row's maximum. -/
theorem colMax_apply (v : FVec Ideal S448x448 .f32) (hr : S448x448.Reduces [1] S448) (hφ : FKind.Formats .f32)
    (hacc : (0xFF800000#32 : BitVec 32) = FKind.maximumf.neutral .f32 hφ)
    (hc : S448.ShapeCasts S448x1) (hb : S448x1.Broadcasts S448x448) (q k : Fin 448) :
    broadcastTo S448x448 (shapeCast S448x1 (maximumf (broadcast S448 (Scalar.ofBits (F := Ideal) .f32 0xFF800000#32))
        (multiReduction (F := Ideal) .maximumf [1] S448 v 0xFF800000#32 hr hφ hacc)) hc) hb (ix2 q k)
      = Attn.rowMax fun k' => v (ix2 q k') := by
  rw [PhysLoss.broadcastTo_a1_ab_apply, PhysLoss.shapeCast_a_a1_apply, maximumf_apply, broadcast_apply, rowMaxFold_apply]
  rfl

/-- The row sum laid along the row: at (q, k) it is the sum over row q. -/
theorem colSum_apply (e : FVec Ideal S448x448 .f32) (hr : S448x448.Reduces [1] S448) (hφ : FKind.Formats .f32)
    (hacc : (0x00000000#32 : BitVec 32) = FKind.add.neutral .f32 hφ)
    (hc : S448.ShapeCasts S448x1) (hb : S448x1.Broadcasts S448x448) (q k : Fin 448) :
    broadcastTo S448x448 (shapeCast S448x1 (multiReduction (F := Ideal) .add [1] S448 e 0x00000000#32 hr hφ hacc) hc) hb (ix2 q k)
      = ∑ j : Fin 448, e (ix2 q j) := by
  rw [PhysLoss.broadcastTo_a1_ab_apply, PhysLoss.shapeCast_a_a1_apply, rowSum_apply]

/-- With M the row's maximum along row q, exp (v − M) over its row sum, at (q, k), is the softmax of row q at k. -/
theorem softmax_core (v M : FVec Ideal S448x448 .f32) (hr : S448x448.Reduces [1] S448) (hφ : FKind.Formats .f32)
    (hadd : (0x00000000#32 : BitVec 32) = FKind.add.neutral .f32 hφ)
    (hc : S448.ShapeCasts S448x1) (hb : S448x1.Broadcasts S448x448) (q : Fin 448)
    (hM : ∀ k, M (ix2 q k) = Attn.rowMax fun k' => v (ix2 q k')) (k : Fin 448) :
    divf (exp (subf v M))
        (broadcastTo S448x448 (shapeCast S448x1
          (multiReduction (F := Ideal) .add [1] S448 (exp (subf v M)) 0x00000000#32 hr hφ hadd) hc) hb) (ix2 q k)
      = Attn.softmaxRow (fun k' => v (ix2 q k')) k := by
  have he : ∀ j, exp (subf v M) (ix2 q j) = Ideal.exp (v (ix2 q j) - Attn.rowMax fun k' => v (ix2 q k')) := fun j => by
    show Ideal.exp (v (ix2 q j) - M (ix2 q j)) = _
    rw [hM]
  rw [divf_apply, colSum_apply, he k]
  unfold Attn.softmaxRow
  refine congrArg (Ideal.div _) ?_
  exact Finset.sum_congr rfl fun j _ => he j

/-- The vector softmax chain read at (q, k): the softmax of row q at k. -/
theorem softmax_apply (v : FVec Ideal S448x448 .f32) (hr : S448x448.Reduces [1] S448) (hφ : FKind.Formats .f32)
    (hmax : (0xFF800000#32 : BitVec 32) = FKind.maximumf.neutral .f32 hφ)
    (hadd : (0x00000000#32 : BitVec 32) = FKind.add.neutral .f32 hφ)
    (hc : S448.ShapeCasts S448x1) (hb : S448x1.Broadcasts S448x448) (q k : Fin 448) :
    divf
        (exp (subf v (broadcastTo S448x448 (shapeCast S448x1 (maximumf (broadcast S448 (Scalar.ofBits (F := Ideal) .f32 0xFF800000#32))
          (multiReduction (F := Ideal) .maximumf [1] S448 v 0xFF800000#32 hr hφ hmax)) hc) hb)))
        (broadcastTo S448x448 (shapeCast S448x1 (multiReduction (F := Ideal) .add [1] S448
          (exp (subf v (broadcastTo S448x448 (shapeCast S448x1 (maximumf (broadcast S448 (Scalar.ofBits (F := Ideal) .f32 0xFF800000#32))
            (multiReduction (F := Ideal) .maximumf [1] S448 v 0xFF800000#32 hr hφ hmax)) hc) hb)))
          0x00000000#32 hr hφ hadd) hc) hb) (ix2 q k)
      = Attn.softmaxRow (fun k' => v (ix2 q k')) k :=
  softmax_core v _ hr hφ hadd hc hb q (fun k => colMax_apply v hr hφ hmax hc hb q k) k

end Cert.KernelIdeal.Pay

end
-- ==== Proof.KAttn.lean ====
/-
  The attention payloads of the kernel body read at one entry, over the extended reals.

  Each direction's payload is the softmax of the masked, scaled score row times the value rows: the scores are the inner
  products of a query row and a key row of the two projections of the shifted input, times 2⁻⁵, kept where the
  triangular mask keeps the pair and −∞ elsewhere; the values are the third projection.  In the backward direction
  the value bias is added after the projection's product, which is the same affine map.
-/
import proofs.«181104_j38946763440234_1_alg».proof.Proof.KAttnOps

noncomputable section

open scoped BigOperators

namespace Cert.KernelIdeal.Pay

open Idealize.ShloMosaic Idealize.ShloMosaic.ValueIdx Cert.KernelIdeal

/-- The sum over d of the shifted input's (s, d) · w (d, h), plus bias h, is the projection of the shifted input. -/
theorem projShift_apply (x0 : Vec Ideal S1x448x1024 .f32) (x1 : Vec Ideal S448x1024 .f32)
    (w : Vec Ideal S1024x1024 .bf16) (b : Vec Ideal S1x1024 .f32) (s : Fin 448) (h : Fin 1024) :
    (∑ d : Fin 1024, Gen.k0_pay2 (F := Ideal) x0 x1 (ix2 s d) * w (ix2 d h)) + b (ix2 (0 : Fin 1) h)
      = Attn.proj (Attn.shifted (fun s d => x0 (ix3 (0 : Fin 1) s d)) (fun s d => x1 (ix2 s d)))
          (fun d j => w (ix2 d j)) (fun j => b (ix2 (0 : Fin 1) j)) s h := by
  unfold Attn.proj Attn.shifted
  refine congrArg (· + b (ix2 (0 : Fin 1) h)) ?_
  refine Finset.sum_congr rfl fun d _ => ?_
  rw [shifted_apply]

/-- The forward value projection at (s, h). -/
theorem pay5_apply (x0 : Vec Ideal S1x448x1024 .f32) (x1 : Vec Ideal S448x1024 .f32)
    (w : Vec Ideal S1024x1024 .bf16) (b : Vec Ideal S1x1024 .f32) (s : Fin 448) (h : Fin 1024) :
    Gen.k0_pay5 (F := Ideal) x0 x1 w b (ix2 s h)
      = Attn.proj (Attn.shifted (fun s d => x0 (ix3 (0 : Fin 1) s d)) (fun s d => x1 (ix2 s d)))
          (fun d j => w (ix2 d j)) (fun j => b (ix2 (0 : Fin 1) j)) s h := by
  unfold Gen.k0_pay5
  exact (proj_apply _ w b _ _ _ s h).trans (projShift_apply x0 x1 w b s h)

/-- The forward scaled scores at (q, k): the inner product of query row q and key row k, times 2⁻⁵. -/
theorem pay6_apply (x0 : Vec Ideal S1x448x1024 .f32) (x1 : Vec Ideal S448x1024 .f32)
    (wq : Vec Ideal S1024x1024 .bf16) (bq : Vec Ideal S1x1024 .f32) (wk : Vec Ideal S1024x1024 .bf16) (bk : Vec Ideal S1x1024 .f32)
    (q k : Fin 448) :
    Gen.k0_pay6 (F := Ideal) x0 x1 wq bq wk bk (ix2 q k)
      = (∑ h : Fin 1024,
          Attn.proj (Attn.shifted (fun s d => x0 (ix3 (0 : Fin 1) s d)) (fun s d => x1 (ix2 s d)))
            (fun d j => wq (ix2 d j)) (fun j => bq (ix2 (0 : Fin 1) j)) q h
          * Attn.proj (Attn.shifted (fun s d => x0 (ix3 (0 : Fin 1) s d)) (fun s d => x1 (ix2 s d)))
            (fun d j => wk (ix2 d j)) (fun j => bk (ix2 (0 : Fin 1) j)) k h) * Attn.scale := by
  unfold Gen.k0_pay6
  rw [mulf_apply, broadcast_apply]
  refine congrArg (· * Attn.scale) ?_
  refine (scores_apply _ _ q k).trans ?_
  refine Finset.sum_congr rfl fun h _ => ?_
  rw [truncf_apply, truncf_apply]
  exact congrArg₂ (· * ·)
    ((proj_apply _ wq bq _ _ _ q h).trans (projShift_apply x0 x1 wq bq q h))
    ((proj_apply _ wk bk _ _ _ k h).trans (projShift_apply x0 x1 wk bk k h))

/-- The forward payload at (0, q, h): the softmax of the masked score row q times the value rows. -/
theorem pay7_apply (m : IVec S448x448 1) (V : FVec Ideal S448x1024 .f32) (L : FVec Ideal S448x448 .f32) (c : Ideal .f32)
    (q : Fin 448) (h : Fin 1024) :
    Gen.k0_pay7 (F := Ideal) m V L c (ix3 (0 : Fin 1) q h)
      = ∑ k : Fin 448, Attn.softmaxRow (fun k' => Scalar.select (m (ix2 q k')) (L (ix2 q k')) c) k * V (ix2 k h) := by
  unfold Gen.k0_pay7
  rw [shapeCast_ab_1ab_apply]
  refine (Cert.Lib.Softplus.matmul0_plain_apply _ rfl none _ _ q h).trans ?_
  refine Finset.sum_congr rfl fun k _ => ?_
  rw [truncf_apply, truncf_apply]
  refine congrArg (· * V (ix2 k h)) ?_
  exact softmax_apply (select m L (broadcast S448x448 c)) _ _ _ _ _ _ q k

/-- A backward query or key projection at (s, h). -/
theorem pay8_apply (u : FVec Ideal S448x1024 .bf16) (w : Vec Ideal S1024x1024 .bf16) (b : Vec Ideal S1x1024 .f32)
    (s : Fin 448) (h : Fin 1024) :
    Gen.k0_pay8 (F := Ideal) u w b (ix2 s h) = (∑ d : Fin 1024, u (ix2 s d) * w (ix2 d h)) + b (ix2 (0 : Fin 1) h) := by
  unfold Gen.k0_pay8
  exact proj_apply u w b _ _ _ s h

theorem pay9_apply (u : FVec Ideal S448x1024 .bf16) (w : Vec Ideal S1024x1024 .bf16) (b : Vec Ideal S1x1024 .f32)
    (s : Fin 448) (h : Fin 1024) :
    Gen.k0_pay9 (F := Ideal) u w b (ix2 s h) = (∑ d : Fin 1024, u (ix2 s d) * w (ix2 d h)) + b (ix2 (0 : Fin 1) h) := by
  unfold Gen.k0_pay9
  exact proj_apply u w b _ _ _ s h

/-- The backward value product at (s, h), before its bias. -/
theorem pay10_apply (u : FVec Ideal S448x1024 .bf16) (w : Vec Ideal S1024x1024 .bf16) (s : Fin 448) (h : Fin 1024) :
    Gen.k0_pay10 (F := Ideal) u w (ix2 s h) = ∑ d : Fin 1024, u (ix2 s d) * w (ix2 d h) := by
  unfold Gen.k0_pay10
  rw [shapeCast_self]
  exact Cert.Lib.Softplus.matmul0_plain_apply _ rfl none u w s h

/-- The backward payload at (0, q, h): the softmax of the masked, scaled score row q times the value rows with their
    bias. -/
theorem pay1_apply (m : IVec S448x448 1) (Q K Vm : FVec Ideal S448x1024 .f32) (bv : Vec Ideal S1x1024 .f32)
    (q : Fin 448) (h : Fin 1024) :
    Gen.k0_pay1 (F := Ideal) m Q K Vm bv (ix3 (0 : Fin 1) q h)
      = ∑ k : Fin 448,
          Attn.softmaxRow (fun k' => Scalar.select (m (ix2 q k'))
            ((∑ d : Fin 1024, Q (ix2 q d) * K (ix2 k' d)) * Attn.scale) (⊥ : EReal)) k
          * (Vm (ix2 k h) + bv (ix2 (0 : Fin 1) h)) := by
  unfold Gen.k0_pay1
  rw [shapeCast_ab_1ab_apply]
  refine (Cert.Lib.Softplus.matmul0_plain_apply _ rfl none _ _ q h).trans ?_
  refine Finset.sum_congr rfl fun k _ => ?_
  rw [truncf_apply, truncf_apply, addf_apply, shapeCast_self, broadcastTo_1b_ab_apply]
  refine congrArg (· * (Vm (ix2 k h) + bv (ix2 (0 : Fin 1) h))) ?_
  refine (softmax_apply _ _ _ _ _ _ _ q k).trans ?_
  refine congrArg (fun r => Attn.softmaxRow r k) (funext fun k' => ?_)
  rw [select_apply, mulf_apply, broadcast_apply, broadcast_apply, scores_apply, neg_big]
  rfl

theorem attnFw_apply (x0 : Vec Ideal S1x448x1024 .f32) (x1 : Vec Ideal S448x1024 .f32)
    (x2 : Vec Ideal S1024x1024 .bf16) (x3 : Vec Ideal S1x1024 .f32) (x4 : Vec Ideal S1024x1024 .bf16) (x5 : Vec Ideal S1x1024 .f32)
    (x6 : Vec Ideal S1024x1024 .bf16) (x7 : Vec Ideal S1x1024 .f32) (q : Fin 448) (h : Fin 1024) :
    Gen.k0_pay7 (F := Ideal) Gen.k0_pay3 (Gen.k0_pay5 x0 x1 x6 x7) (Gen.k0_pay6 x0 x1 x2 x3 x4 x5)
        (Named.named κ "neg_big" 0xFF333332#32) (ix3 (0 : Fin 1) q h)
      = Attn.attn Attn.keepFw (fun s d => x0 (ix3 (0 : Fin 1) s d)) (fun s d => x1 (ix2 s d))
          (fun d j => x2 (ix2 d j)) (fun j => x3 (ix2 (0 : Fin 1) j))
          (fun d j => x4 (ix2 d j)) (fun j => x5 (ix2 (0 : Fin 1) j))
          (fun d j => x6 (ix2 d j)) (fun j => x7 (ix2 (0 : Fin 1) j)) q h := by
  refine (pay7_apply _ _ _ _ q h).trans ?_
  unfold Attn.attn Attn.attend
  refine Finset.sum_congr rfl fun k _ => ?_
  refine congrArg₂ (· * ·) (congrArg (fun r => Attn.softmaxRow r k) (funext fun k' => ?_)) (pay5_apply x0 x1 x6 x7 k h)
  rw [maskFw_apply, pay6_apply, neg_big]
  unfold Attn.logits
  by_cases hk : k' ≤ q
  · rw [if_pos hk, select_one, if_pos hk]
  · rw [if_neg hk, select_zero, if_neg hk]

theorem attnBw_apply (x0 : Vec Ideal S1x448x1024 .f32) (x1 : Vec Ideal S448x1024 .f32)
    (x8 : Vec Ideal S1024x1024 .bf16) (x9 : Vec Ideal S1x1024 .f32) (x10 : Vec Ideal S1024x1024 .bf16) (x11 : Vec Ideal S1x1024 .f32)
    (x12 : Vec Ideal S1024x1024 .bf16) (x13 : Vec Ideal S1x1024 .f32) (q : Fin 448) (h : Fin 1024) :
    Gen.k0_pay1 (F := Ideal) Gen.k0_pay4 (Gen.k0_pay8 (Gen.k0_pay2 x0 x1) x8 x9) (Gen.k0_pay9 (Gen.k0_pay2 x0 x1) x10 x11)
        (Gen.k0_pay10 (Gen.k0_pay2 x0 x1) x12) x13 (ix3 (0 : Fin 1) q h)
      = Attn.attn Attn.keepBw (fun s d => x0 (ix3 (0 : Fin 1) s d)) (fun s d => x1 (ix2 s d))
          (fun d j => x8 (ix2 d j)) (fun j => x9 (ix2 (0 : Fin 1) j))
          (fun d j => x10 (ix2 d j)) (fun j => x11 (ix2 (0 : Fin 1) j))
          (fun d j => x12 (ix2 d j)) (fun j => x13 (ix2 (0 : Fin 1) j)) q h := by
  refine (pay1_apply _ _ _ _ _ q h).trans ?_
  unfold Attn.attn Attn.attend
  refine Finset.sum_congr rfl fun k _ => ?_
  refine congrArg₂ (· * ·) (congrArg (fun r => Attn.softmaxRow r k) (funext fun k' => ?_)) ?_
  · have hs : (∑ d : Fin 1024, Gen.k0_pay8 (F := Ideal) (Gen.k0_pay2 x0 x1) x8 x9 (ix2 q d)
          * Gen.k0_pay9 (F := Ideal) (Gen.k0_pay2 x0 x1) x10 x11 (ix2 k' d))
        = ∑ d : Fin 1024,
            Attn.proj (Attn.shifted (fun s d => x0 (ix3 (0 : Fin 1) s d)) (fun s d => x1 (ix2 s d)))
              (fun d j => x8 (ix2 d j)) (fun j => x9 (ix2 (0 : Fin 1) j)) q d
            * Attn.proj (Attn.shifted (fun s d => x0 (ix3 (0 : Fin 1) s d)) (fun s d => x1 (ix2 s d)))
              (fun d j => x10 (ix2 d j)) (fun j => x11 (ix2 (0 : Fin 1) j)) k' d :=
      Finset.sum_congr rfl fun d _ => by rw [pay8_apply, pay9_apply, projShift_apply, projShift_apply]
    rw [maskBw_apply, hs]
    unfold Attn.logits
    by_cases hk : q ≤ k'
    · rw [if_pos hk, select_one, if_pos hk]
    · rw [if_neg hk, select_zero, if_neg hk]
  · rw [pay10_apply]
    exact projShift_apply x0 x1 x12 x13 k h

end Cert.KernelIdeal.Pay

end
-- ==== Proof.LibMaxReduce.lean ====
/-
  Maximum reductions read at an index, over the extended reals, as folds of `max` over one coordinate.

  A vector maximum-reduction of an [a, b] array over its rows, at lane q, is the fold of max from the accumulator's
  value over the entries (j, q); the host's reduce with a maximum body over the middle axis of an [a, b, c] array,
  at (n, k), is the fold of max from the initial value over the entries (n, j, k).  Each index with the reduced
  coordinate put back is named by its coordinates, so a proof continues entry by entry.
-/
import Idealize.ShloMosaic.PureOps.Ideal.Laws
import Idealize.ShloMosaic.PureOps.Reduce
import Idealize.ShloMosaic.Lib.ValueIdx

noncomputable section

namespace MaxReduce

open Idealize.ShloMosaic Idealize.ShloMosaic.ValueIdx

variable {a b c : ℕ}

/-- In an [a, b] array reduced over its rows, the reduced index `q` with row `j` put back is (j, q). -/
theorem lift_rows (h : (⟨2, ![a, b]⟩ : Shape).Reduces [0] (⟨1, ![b]⟩ : Shape)) (q : Fin b)
    (j : Fin ((⟨2, ![a, b]⟩ : Shape).size 0)) : h.lift (ix1 q) j = ix2 (⟨j.val, j.isLt⟩ : Fin a) q := by
  funext d; apply Fin.ext
  fin_cases d <;> rfl

/-- A vector maximum-reduction of an [a, b] array over its rows, at lane `q`: the fold of max from the accumulator's
    value over the rows' entries at that lane. -/
theorem multiReduction_max_rows {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction .maximumf [0] (⟨1, ![b]⟩ : Shape) src acc h hφ hacc (ix1 q)
      = (Finset.univ : Finset (Fin a)).fold max (Ideal.ofBits φ acc) fun j => src (ix2 j q) := by
  refine (Ideal.multiReduction_maximumf_single src acc h hφ hacc (ix1 q)).trans ?_
  refine congrArg (fun f => Finset.fold max (Ideal.ofBits φ acc) f (Finset.univ : Finset (Fin a))) ?_
  funext j
  exact congrArg src (lift_rows h q j)

/-- In an [a, b, c] array reduced over its middle axis, the reduced index (n, k) with coordinate `j` put back is
    (n, j, k). -/
theorem lift_mid (h : (⟨3, ![a, b, c]⟩ : Shape).Reduces [1] (⟨2, ![a, c]⟩ : Shape)) (n : Fin a) (k : Fin c)
    (j : Fin ((⟨3, ![a, b, c]⟩ : Shape).size 1)) : h.lift (ix2 n k) j = ix3 n (⟨j.val, j.isLt⟩ : Fin b) k := by
  funext d; apply Fin.ext
  fin_cases d <;> rfl

/-- The host's reduce with a maximum body over the middle axis of an [a, b, c] array, at (n, k): the fold of max
    from the initial value's element over the entries (n, j, k). -/
theorem hostReduce_max_mid {φ : FTy} {u : Shape} (x : FVec Ideal ⟨3, ![a, b, c]⟩ φ) (init : u.Idx → Ideal φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (n : Fin a) (k : Fin c) :
    Host.reduce FloatOps.maximumf x init h' hu (ix2 n k)
      = (Finset.univ : Finset (Fin b)).fold max (init (Shape.Idx.first hu)) fun j => x (ix3 n j k) := by
  rw [Host.reduce_eq_fold_single FloatOps.maximumf x init h' h hu]
  refine congrArg (fun f => Finset.fold max (init (Shape.Idx.first hu)) f (Finset.univ : Finset (Fin b))) ?_
  funext j
  exact congrArg x (lift_mid h n k j)

end MaxReduce

end
-- ==== Proof.KGate.lean ====
/-
  The gate kernel's arithmetic read at one entry, at the ideal values (extended reals, every operation exact).

  The gate at (s, h) is the logistic of the two attention rows' affine map: each row times its weight matrix, summed
  over the contracted coordinate, the two sums added, plus the bias entry h.  A format change is the identity here,
  so the narrowed operands of the products are the operands themselves.  The token at (s, h) is the gate's mix
  g · A + (1 − g) · B of the two attentions, the 1 being the word of 1.0 as it stands.  A unit axis put in front of
  or taken off a block reads the same entries.

  The utterance vector at o: the tokens summed over the sequence coordinate at each column h, divided by the word
  of 448.0, times the weight matrix summed over h, plus the bias entry o, under tanh.  The sum over the sequence is
  the vector add-reduction over rows, whose reduced index h with row s put back is (s, h).
-/
import proofs.«181104_j38946763440234_1_alg».proof.Proof.Gen.KernelIdeal.Skeleton
import proofs.«181104_j38946763440234_1_alg».proof.Proof.Spec
import proofs.«181104_j38946763440234_1_alg».proof.Proof.LibSoftplus
import proofs.«181104_j38946763440234_1_alg».proof.Proof.LibMaxReduce
import Idealize.ShloMosaic.PureOps.IdealRules
import Idealize.ShloMosaic.PureOps.Ideal.Laws
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal

/-- The gate over variables. -/
theorem gate_apply (a b : FVec Ideal S448x1024 .f32) (w1 w2 : FVec Ideal S1024x1024 .bf16)
    (bias : FVec Ideal S1x1024 .f32) (s : Fin 448) (h : Fin 1024) :
    logistic (addf (addf
        (matmul dot_S448x1024_S1024x1024_S448x1024_1_0_0_1_n_n none (truncf .bf16 a Gen.bitsLt_bf16_f32) w1
          (constant (F := Ideal) S448x1024 .f32 0x00000000#32))
        (matmul dot_S448x1024_S1024x1024_S448x1024_1_0_0_1_n_n none (truncf .bf16 b Gen.bitsLt_bf16_f32) w2
          (constant (F := Ideal) S448x1024 .f32 0x00000000#32)))
        (broadcastTo S448x1024 bias Gen.broadcasts_S1x1024_S448x1024)) (ix2 s h)
      = Attn.gate (fun s f => a (ix2 s f)) (fun s f => b (ix2 s f)) (fun f j => w1 (ix2 f j)) (fun f j => w2 (ix2 f j))
          (fun j => bias (ix2 (0 : Fin 1) j)) s h := by
  unfold Attn.gate
  show Ideal.logistic ((matmul _ none (truncf .bf16 a Gen.bitsLt_bf16_f32) w1 _ (ix2 s h)
      + matmul _ none (truncf .bf16 b Gen.bitsLt_bf16_f32) w2 _ (ix2 s h))
      + broadcastTo S448x1024 bias Gen.broadcasts_S1x1024_S448x1024 (ix2 s h)) = _
  have e1 := Cert.Lib.Softplus.matmul0_plain_apply dot_S448x1024_S1024x1024_S448x1024_1_0_0_1_n_n rfl none
    (truncf .bf16 a Gen.bitsLt_bf16_f32) w1 s h
  have e2 := Cert.Lib.Softplus.matmul0_plain_apply dot_S448x1024_S1024x1024_S448x1024_1_0_0_1_n_n rfl none
    (truncf .bf16 b Gen.bitsLt_bf16_f32) w2 s h
  have e3 := broadcastTo_1b_ab_apply bias Gen.broadcasts_S1x1024_S448x1024 s h
  rw [e1, e2, e3]
  rfl

/-- The gate's mix over variables. -/
theorem mix_apply (a b : FVec Ideal S448x1024 .f32) (w1 w2 : FVec Ideal S1024x1024 .bf16)
    (bias : FVec Ideal S1x1024 .f32) (s : Fin 448) (h : Fin 1024) :
    addf (mulf (logistic (addf (addf
        (matmul dot_S448x1024_S1024x1024_S448x1024_1_0_0_1_n_n none (truncf .bf16 a Gen.bitsLt_bf16_f32) w1
          (constant (F := Ideal) S448x1024 .f32 0x00000000#32))
        (matmul dot_S448x1024_S1024x1024_S448x1024_1_0_0_1_n_n none (truncf .bf16 b Gen.bitsLt_bf16_f32) w2
          (constant (F := Ideal) S448x1024 .f32 0x00000000#32)))
        (broadcastTo S448x1024 bias Gen.broadcasts_S1x1024_S448x1024))) a)
      (mulf (subf (broadcast S448x1024 (Scalar.ofBits (F := Ideal) .f32 0x3F800000#32)) (logistic (addf (addf
        (matmul dot_S448x1024_S1024x1024_S448x1024_1_0_0_1_n_n none (truncf .bf16 a Gen.bitsLt_bf16_f32) w1
          (constant (F := Ideal) S448x1024 .f32 0x00000000#32))
        (matmul dot_S448x1024_S1024x1024_S448x1024_1_0_0_1_n_n none (truncf .bf16 b Gen.bitsLt_bf16_f32) w2
          (constant (F := Ideal) S448x1024 .f32 0x00000000#32)))
        (broadcastTo S448x1024 bias Gen.broadcasts_S1x1024_S448x1024)))) b) (ix2 s h)
      = Attn.token (fun s f => a (ix2 s f)) (fun s f => b (ix2 s f)) (fun f j => w1 (ix2 f j)) (fun f j => w2 (ix2 f j))
          (fun j => bias (ix2 (0 : Fin 1) j)) s h := by
  unfold Attn.token
  rw [← gate_apply a b w1 w2 bias s h]
  rfl

theorem pay2_apply (x0 x1 : Vec Ideal S1x448x1024 .f32) (x2 x3 : Vec Ideal S1024x1024 .bf16) (x4 : Vec Ideal S1x1024 .f32)
    (s : Fin 448) (h : Fin 1024) :
    Gen.k1_pay2 (F := Ideal) x0 x1 x2 x3 x4 (ix2 s h)
      = Attn.token (fun s f => x0 (ix3 (0 : Fin 1) s f)) (fun s f => x1 (ix3 (0 : Fin 1) s f))
          (fun f j => x2 (ix2 f j)) (fun f j => x3 (ix2 f j)) (fun j => x4 (ix2 (0 : Fin 1) j)) s h := by
  have ea : (fun (s : Fin 448) (f : Fin 1024) => shapeCast S448x1024 x0 Gen.shapeCasts_S1x448x1024_S448x1024 (ix2 s f))
      = fun s f => x0 (ix3 (0 : Fin 1) s f) := by
    funext s f; exact shapeCast_1ab_ab_apply x0 _ s f
  have eb : (fun (s : Fin 448) (f : Fin 1024) => shapeCast S448x1024 x1 Gen.shapeCasts_S1x448x1024_S448x1024 (ix2 s f))
      = fun s f => x1 (ix3 (0 : Fin 1) s f) := by
    funext s f; exact shapeCast_1ab_ab_apply x1 _ s f
  unfold Gen.k1_pay2
  rw [shapeCast_self x2, shapeCast_self x3, shapeCast_self x4]
  refine (mix_apply (shapeCast S448x1024 x0 Gen.shapeCasts_S1x448x1024_S448x1024)
    (shapeCast S448x1024 x1 Gen.shapeCasts_S1x448x1024_S448x1024) x2 x3 x4 s h).trans ?_
  rw [ea, eb]

/-- The token block with a unit axis put in front reads the same entries. -/
theorem token_apply (x0 x1 : Vec Ideal S1x448x1024 .f32) (x2 x3 : Vec Ideal S1024x1024 .bf16) (x4 : Vec Ideal S1x1024 .f32)
    (s : Fin 448) (h : Fin 1024) :
    Gen.k1_pay3 (F := Ideal) x0 x1 x2 x3 x4 (ix3 (0 : Fin 1) s h)
      = Attn.token (fun s f => x0 (ix3 (0 : Fin 1) s f)) (fun s f => x1 (ix3 (0 : Fin 1) s f))
          (fun f j => x2 (ix2 f j)) (fun f j => x3 (ix2 f j)) (fun j => x4 (ix2 (0 : Fin 1) j)) s h := by
  unfold Gen.k1_pay3
  exact (shapeCast_ab_1ab_apply (Gen.k1_pay2 x0 x1 x2 x3 x4) Gen.shapeCasts_S448x1024_S1x448x1024 (0 : Fin 1) s h).trans
    (pay2_apply x0 x1 x2 x3 x4 s h)

/-- The sum over the sequence of a [448, 1024] block, at column h. -/
theorem colsum_apply (T : FVec Ideal S448x1024 .f32) (h : Fin 1024) :
    multiReduction (F := Ideal) .add [0] S1024 T 0x00000000#32 Gen.reduces_S448x1024_S1024 (.inl rfl) rfl (ix1 h)
      = ∑ s : Fin 448, T (ix2 s h) := by
  refine (Ideal.multiReduction_add_single T 0x00000000#32 Gen.reduces_S448x1024_S1024 (.inl rfl) rfl (ix1 h)).trans ?_
  show (∑ s : Fin 448, T (Gen.reduces_S448x1024_S1024.lift (ix1 h) s)) = _
  refine Finset.sum_congr rfl fun k _ => ?_
  exact congrArg T (MaxReduce.lift_rows Gen.reduces_S448x1024_S1024 h k)

/-- The mean over the sequence times a weight matrix, over variables. -/
theorem mean_proj_apply (T : FVec Ideal S448x1024 .f32) (w : FVec Ideal S1024x1024 .bf16) (o : Fin 1024) :
    matmul dot_S1x1024_S1024x1024_S1x1024_1_0_0_1_n_n none
      (truncf .bf16 (divf (shapeCast S1x1024
          (multiReduction (F := Ideal) .add [0] S1024 T 0x00000000#32 Gen.reduces_S448x1024_S1024 (.inl rfl) rfl)
          Gen.shapeCasts_S1024_S1x1024)
        (broadcast S1x1024 (Scalar.ofBits (F := Ideal) .f32 0x43E00000#32))) Gen.bitsLt_bf16_f32)
      w (constant (F := Ideal) S1x1024 .f32 0x00000000#32) (ix2 (0 : Fin 1) o)
      = ∑ h : Fin 1024, Ideal.div (∑ s : Fin 448, T (ix2 s h)) Attn.len * w (ix2 h o) := by
  refine (Cert.Lib.Softplus.matmul0_plain_apply dot_S1x1024_S1024x1024_S1x1024_1_0_0_1_n_n rfl none _ w (0 : Fin 1) o).trans ?_
  refine Finset.sum_congr rfl fun h _ => ?_
  refine congrArg (fun t => Ideal.div t Attn.len * w (ix2 h o)) ?_
  exact (shapeCast_a_1a_apply _ Gen.shapeCasts_S1024_S1x1024 (0 : Fin 1) h).trans (colsum_apply T h)

/-- The last payload over variables: the bias row added, tanh, a unit axis put in front. -/
theorem out_apply (v : FVec Ideal S1x1024 .f32) (x6 : Vec Ideal S1x1024 .f32) (o : Fin 1024) :
    Gen.k1_pay1 (F := Ideal) v x6 (ix3 (0 : Fin 1) (0 : Fin 1) o)
      = Ideal.tanh (v (ix2 (0 : Fin 1) o) + x6 (ix2 (0 : Fin 1) o)) := by
  unfold Gen.k1_pay1
  rw [shapeCast_self x6]
  exact shapeCast_ab_1ab_apply _ Gen.shapeCasts_S1x1024_S1x1x1024 (0 : Fin 1) (0 : Fin 1) o

theorem utter_apply (x0 x1 : Vec Ideal S1x448x1024 .f32) (x2 x3 : Vec Ideal S1024x1024 .bf16) (x4 : Vec Ideal S1x1024 .f32)
    (x5 : Vec Ideal S1024x1024 .bf16) (x6 : Vec Ideal S1x1024 .f32) (o : Fin 1024) :
    Gen.k1_pay1 (F := Ideal) (Gen.k1_pay4 x0 x1 x2 x3 x4 x5) x6 (ix3 (0 : Fin 1) (0 : Fin 1) o)
      = Attn.utter (Attn.token (fun s f => x0 (ix3 (0 : Fin 1) s f)) (fun s f => x1 (ix3 (0 : Fin 1) s f))
          (fun f j => x2 (ix2 f j)) (fun f j => x3 (ix2 f j)) (fun j => x4 (ix2 (0 : Fin 1) j)))
          (fun h j => x5 (ix2 h j)) (fun j => x6 (ix2 (0 : Fin 1) j)) o := by
  refine (out_apply _ x6 o).trans ?_
  unfold Attn.utter
  refine congrArg (fun t => Ideal.tanh (t + x6 (ix2 (0 : Fin 1) o))) ?_
  unfold Gen.k1_pay4
  rw [shapeCast_self x5]
  refine (mean_proj_apply (Gen.k1_pay2 x0 x1 x2 x3 x4) x5 o).trans ?_
  refine Finset.sum_congr rfl fun h _ => ?_
  have e : (fun s : Fin 448 => Gen.k1_pay2 (F := Ideal) x0 x1 x2 x3 x4 (ix2 s h))
      = fun s => Attn.token (fun s f => x0 (ix3 (0 : Fin 1) s f)) (fun s f => x1 (ix3 (0 : Fin 1) s f))
          (fun f j => x2 (ix2 f j)) (fun f j => x3 (ix2 f j)) (fun j => x4 (ix2 (0 : Fin 1) j)) s h :=
    funext fun s => pay2_apply x0 x1 x2 x3 x4 s h
  exact congrArg (fun f : Fin 448 → EReal => Ideal.div (∑ s : Fin 448, f s) Attn.len * x5 (ix2 h o)) e

end Cert.KernelIdeal.Pay

end
-- ==== Proof.Whole.lean ====
/-
  The results as whole-array functions of the eighteen argument arrays.

  Entry `(b, q, h)` of an attention is `Attn.attn` of batch element `b`: its rows of the input, the first 448
  positional rows, and the three projections, each weight read transposed (the projection contracts the weight's
  SECOND axis) and each bias read along its one axis.  Entry `(b, s, h)` of the tokens is `Attn.token` of batch element
  `b`'s two attentions against the two halves of the gate weight's 2048 columns.  Entry `(b, o)` of the utterance
  vectors is `Attn.utter` of batch element `b`'s tokens.  Both programs' result arrays are shown equal to these.
-/
import proofs.«181104_j38946763440234_1_alg».proof.Proof.Spec

noncomputable section

namespace Cert.Attn

open Idealize.ShloMosaic Idealize.ShloMosaic.ValueIdx

/-- One direction's attention of the whole batch. -/
def attnW (keep : Fin 448 → Fin 448 → Prop) [DecidableRel keep] (a0 : (⟨3, ![32, 448, 1024]⟩ : Shape).Idx → EReal) (a1 : (⟨2, ![500, 1024]⟩ : Shape).Idx → EReal) (a2 : (⟨2, ![1024, 1024]⟩ : Shape).Idx → EReal) (a3 : (⟨1, ![1024]⟩ : Shape).Idx → EReal) (a4 : (⟨2, ![1024, 1024]⟩ : Shape).Idx → EReal) (a5 : (⟨1, ![1024]⟩ : Shape).Idx → EReal) (a6 : (⟨2, ![1024, 1024]⟩ : Shape).Idx → EReal) (a7 : (⟨1, ![1024]⟩ : Shape).Idx → EReal) :
    (⟨3, ![32, 448, 1024]⟩ : Shape).Idx → EReal := fun i =>
  attn keep (fun s d => a0 (ix3 (i 0) s d)) (fun s d => a1 (ix2 (row500 s) d))
    (fun d j => a2 (ix2 j d)) (fun j => a3 (ix1 j)) (fun d j => a4 (ix2 j d)) (fun j => a5 (ix1 j))
    (fun d j => a6 (ix2 j d)) (fun j => a7 (ix1 j)) (i 1) (i 2)

/-- The token representations of the whole batch, from two attention arrays and the gate's weight and bias. -/
def tokenOf (A B : (⟨3, ![32, 448, 1024]⟩ : Shape).Idx → EReal) (a14 : (⟨2, ![1024, 2048]⟩ : Shape).Idx → EReal) (a15 : (⟨1, ![1024]⟩ : Shape).Idx → EReal) : (⟨3, ![32, 448, 1024]⟩ : Shape).Idx → EReal := fun i =>
  token (fun s f => A (ix3 (i 0) s f)) (fun s f => B (ix3 (i 0) s f))
    (fun f j => a14 (ix2 j (lo f))) (fun f j => a14 (ix2 j (hi f))) (fun j => a15 (ix1 j)) (i 1) (i 2)

/-- The utterance vectors of the whole batch, from a token array and the output layer's weight and bias. -/
def utterOf (T : (⟨3, ![32, 448, 1024]⟩ : Shape).Idx → EReal) (a16 : (⟨2, ![1024, 1024]⟩ : Shape).Idx → EReal) (a17 : (⟨1, ![1024]⟩ : Shape).Idx → EReal) : (⟨2, ![32, 1024]⟩ : Shape).Idx → EReal := fun i =>
  utter (fun s h => T (ix3 (i 0) s h)) (fun h j => a16 (ix2 j h)) (fun j => a17 (ix1 j)) (i 1)

/-- The tokens as a function of the arguments. -/
def tokenW (a0 : (⟨3, ![32, 448, 1024]⟩ : Shape).Idx → EReal) (a1 : (⟨2, ![500, 1024]⟩ : Shape).Idx → EReal) (a2 : (⟨2, ![1024, 1024]⟩ : Shape).Idx → EReal) (a3 : (⟨1, ![1024]⟩ : Shape).Idx → EReal) (a4 : (⟨2, ![1024, 1024]⟩ : Shape).Idx → EReal) (a5 : (⟨1, ![1024]⟩ : Shape).Idx → EReal) (a6 : (⟨2, ![1024, 1024]⟩ : Shape).Idx → EReal) (a7 : (⟨1, ![1024]⟩ : Shape).Idx → EReal) (a8 : (⟨2, ![1024, 1024]⟩ : Shape).Idx → EReal) (a9 : (⟨1, ![1024]⟩ : Shape).Idx → EReal) (a10 : (⟨2, ![1024, 1024]⟩ : Shape).Idx → EReal) (a11 : (⟨1, ![1024]⟩ : Shape).Idx → EReal) (a12 : (⟨2, ![1024, 1024]⟩ : Shape).Idx → EReal) (a13 : (⟨1, ![1024]⟩ : Shape).Idx → EReal) (a14 : (⟨2, ![1024, 2048]⟩ : Shape).Idx → EReal) (a15 : (⟨1, ![1024]⟩ : Shape).Idx → EReal) : (⟨3, ![32, 448, 1024]⟩ : Shape).Idx → EReal :=
  tokenOf (attnW keepFw a0 a1 a2 a3 a4 a5 a6 a7) (attnW keepBw a0 a1 a8 a9 a10 a11 a12 a13) a14 a15

/-- The utterance vectors as a function of the arguments. -/
def utterW (a0 : (⟨3, ![32, 448, 1024]⟩ : Shape).Idx → EReal) (a1 : (⟨2, ![500, 1024]⟩ : Shape).Idx → EReal) (a2 : (⟨2, ![1024, 1024]⟩ : Shape).Idx → EReal) (a3 : (⟨1, ![1024]⟩ : Shape).Idx → EReal) (a4 : (⟨2, ![1024, 1024]⟩ : Shape).Idx → EReal) (a5 : (⟨1, ![1024]⟩ : Shape).Idx → EReal) (a6 : (⟨2, ![1024, 1024]⟩ : Shape).Idx → EReal) (a7 : (⟨1, ![1024]⟩ : Shape).Idx → EReal) (a8 : (⟨2, ![1024, 1024]⟩ : Shape).Idx → EReal) (a9 : (⟨1, ![1024]⟩ : Shape).Idx → EReal) (a10 : (⟨2, ![1024, 1024]⟩ : Shape).Idx → EReal) (a11 : (⟨1, ![1024]⟩ : Shape).Idx → EReal) (a12 : (⟨2, ![1024, 1024]⟩ : Shape).Idx → EReal) (a13 : (⟨1, ![1024]⟩ : Shape).Idx → EReal) (a14 : (⟨2, ![1024, 2048]⟩ : Shape).Idx → EReal) (a15 : (⟨1, ![1024]⟩ : Shape).Idx → EReal) (a16 : (⟨2, ![1024, 1024]⟩ : Shape).Idx → EReal) (a17 : (⟨1, ![1024]⟩ : Shape).Idx → EReal) : (⟨2, ![32, 1024]⟩ : Shape).Idx → EReal :=
  utterOf (tokenW a0 a1 a2 a3 a4 a5 a6 a7 a8 a9 a10 a11 a12 a13 a14 a15) a16 a17

end Cert.Attn

end
-- ==== Proof.KArr0.lean ====
/-
  The attention region, from blocks to arrays.

  The region's grid has one point per batch element.  At point `t` the first input window holds batch element `t`
  of the input (a [1, 448, 1024] block); the other thirteen input windows hold whole arrays (the positional rows,
  six transposed weights, six bias rows) at every point; each of the two output windows writes its [1, 448, 1024]
  block back to batch element `t` of its array.  Given what the body's two pure payloads are entry by entry, what
  point `t` writes back is block `t` of ONE whole-array function — `Attn.attn` of batch element `t` — and the 32
  blocks cover the array, so after the region each output array IS that function of the arrays the region found.
  Everything is stated at a parameter `V`, the buffers' contents when the region is entered.
-/
import proofs.«181104_j38946763440234_1_alg».proof.Proof.Gen.KernelIdeal.Frame
import proofs.«181104_j38946763440234_1_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point of the attention region as a batch index. -/
abbrev bt0 (t : Fin cfg0.N) : Fin 32 := ⟨t.val, by have h : t.val < grid0.N := t.isLt; exact h.trans_eq N_0⟩

/-! ## The printed index maps, decided over the grid -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_14 : ∀ t : Fin cfg0.N, win0_14.index t (0 : Fin 3) = t.val ∧ win0_14.index t (1 : Fin 3) = 0 ∧ win0_14.index t (2 : Fin 3) = 0 :=
  (by decide +kernel : ∀ t : Fin grid0.N, _)
theorem idx0_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)

/-! ## Each input window's block at a point, read off the array the region finds -/

/-- Window 0's block at point `t` is batch element `t` of the input. -/
theorem iblk0_0_apply (c : Dev nD) (t : Fin cfg0.N) (s : Fin 448) (d : Fin 1024) :
    (iblk0 V c 0 t : Vec Ideal S1x448x1024 .f32) (ix3 (0 : Fin 1) s d) = (V c main_arg0 : S32x448x1024.Idx → EReal) (ix3 (bt0 t) s d) := by
  have hi := idx0_0 t
  unfold iblk0
  rw [View.read_apply]
  show V c main_arg0 _ = V c main_arg0 _
  congr 1
  funext a
  apply Fin.ext
  match a with
  | ⟨0, _⟩ => show win0_0.index t (0 : Fin 3) * 1 + 1 * 0 = t.val; rw [hi.1]; omega
  | ⟨1, _⟩ => show win0_0.index t (1 : Fin 3) * 448 + 1 * s.val = s.val; rw [hi.2.1]; omega
  | ⟨2, _⟩ => show win0_0.index t (2 : Fin 3) * 1024 + 1 * d.val = d.val; rw [hi.2.2]; omega

/-- Window 1 of this region is the whole array `main_v18` at every point. -/
theorem iblk0_1_eq (c : Dev nD) (t : Fin cfg0.N) :
    (iblk0 V c 1 t : Vec Ideal S448x1024 .f32) = (V c main_v18 : S448x1024.Idx → EReal) := by
  funext y
  have hi := idx0_1 t
  unfold iblk0
  rw [View.read_apply]
  show V c main_v18 _ = V c main_v18 y
  congr 1
  funext a
  apply Fin.ext
  match a with
  | ⟨0, _⟩ => show win0_1.index t (0 : Fin 2) * 448 + 1 * (y 0).val = (y 0).val; rw [hi.1]; omega
  | ⟨1, _⟩ => show win0_1.index t (1 : Fin 2) * 1024 + 1 * (y 1).val = (y 1).val; rw [hi.2]; omega

/-- Window 2 of this region is the whole array `main_v1` at every point. -/
theorem iblk0_2_eq (c : Dev nD) (t : Fin cfg0.N) :
    (iblk0 V c 2 t : Vec Ideal S1024x1024 .bf16) = (V c main_v1 : S1024x1024.Idx → EReal) := by
  funext y
  have hi := idx0_2 t
  unfold iblk0
  rw [View.read_apply]
  show V c main_v1 _ = V c main_v1 y
  congr 1
  funext a
  apply Fin.ext
  match a with
  | ⟨0, _⟩ => show win0_2.index t (0 : Fin 2) * 1024 + 1 * (y 0).val = (y 0).val; rw [hi.1]; omega
  | ⟨1, _⟩ => show win0_2.index t (1 : Fin 2) * 1024 + 1 * (y 1).val = (y 1).val; rw [hi.2]; omega

/-- Window 3 of this region is the whole array `main_v12` at every point. -/
theorem iblk0_3_eq (c : Dev nD) (t : Fin cfg0.N) :
    (iblk0 V c 3 t : Vec Ideal S1x1024 .f32) = (V c main_v12 : S1x1024.Idx → EReal) := by
  funext y
  have hi := idx0_3 t
  unfold iblk0
  rw [View.read_apply]
  show V c main_v12 _ = V c main_v12 y
  congr 1
  funext a
  apply Fin.ext
  match a with
  | ⟨0, _⟩ => show win0_3.index t (0 : Fin 2) * 1 + 1 * (y 0).val = (y 0).val; rw [hi.1]; omega
  | ⟨1, _⟩ => show win0_3.index t (1 : Fin 2) * 1024 + 1 * (y 1).val = (y 1).val; rw [hi.2]; omega

/-- Window 4 of this region is the whole array `main_v3` at every point. -/
theorem iblk0_4_eq (c : Dev nD) (t : Fin cfg0.N) :
    (iblk0 V c 4 t : Vec Ideal S1024x1024 .bf16) = (V c main_v3 : S1024x1024.Idx → EReal) := by
  funext y
  have hi := idx0_4 t
  unfold iblk0
  rw [View.read_apply]
  show V c main_v3 _ = V c main_v3 y
  congr 1
  funext a
  apply Fin.ext
  match a with
  | ⟨0, _⟩ => show win0_4.index t (0 : Fin 2) * 1024 + 1 * (y 0).val = (y 0).val; rw [hi.1]; omega
  | ⟨1, _⟩ => show win0_4.index t (1 : Fin 2) * 1024 + 1 * (y 1).val = (y 1).val; rw [hi.2]; omega

/-- Window 5 of this region is the whole array `main_v13` at every point. -/
theorem iblk0_5_eq (c : Dev nD) (t : Fin cfg0.N) :
    (iblk0 V c 5 t : Vec Ideal S1x1024 .f32) = (V c main_v13 : S1x1024.Idx → EReal) := by
  funext y
  have hi := idx0_5 t
  unfold iblk0
  rw [View.read_apply]
  show V c main_v13 _ = V c main_v13 y
  congr 1
  funext a
  apply Fin.ext
  match a with
  | ⟨0, _⟩ => show win0_5.index t (0 : Fin 2) * 1 + 1 * (y 0).val = (y 0).val; rw [hi.1]; omega
  | ⟨1, _⟩ => show win0_5.index t (1 : Fin 2) * 1024 + 1 * (y 1).val = (y 1).val; rw [hi.2]; omega

/-- Window 6 of this region is the whole array `main_v5` at every point. -/
theorem iblk0_6_eq (c : Dev nD) (t : Fin cfg0.N) :
    (iblk0 V c 6 t : Vec Ideal S1024x1024 .bf16) = (V c main_v5 : S1024x1024.Idx → EReal) := by
  funext y
  have hi := idx0_6 t
  unfold iblk0
  rw [View.read_apply]
  show V c main_v5 _ = V c main_v5 y
  congr 1
  funext a
  apply Fin.ext
  match a with
  | ⟨0, _⟩ => show win0_6.index t (0 : Fin 2) * 1024 + 1 * (y 0).val = (y 0).val; rw [hi.1]; omega
  | ⟨1, _⟩ => show win0_6.index t (1 : Fin 2) * 1024 + 1 * (y 1).val = (y 1).val; rw [hi.2]; omega

/-- Window 7 of this region is the whole array `main_v14` at every point. -/
theorem iblk0_7_eq (c : Dev nD) (t : Fin cfg0.N) :
    (iblk0 V c 7 t : Vec Ideal S1x1024 .f32) = (V c main_v14 : S1x1024.Idx → EReal) := by
  funext y
  have hi := idx0_7 t
  unfold iblk0
  rw [View.read_apply]
  show V c main_v14 _ = V c main_v14 y
  congr 1
  funext a
  apply Fin.ext
  match a with
  | ⟨0, _⟩ => show win0_7.index t (0 : Fin 2) * 1 + 1 * (y 0).val = (y 0).val; rw [hi.1]; omega
  | ⟨1, _⟩ => show win0_7.index t (1 : Fin 2) * 1024 + 1 * (y 1).val = (y 1).val; rw [hi.2]; omega

/-- Window 8 of this region is the whole array `main_v7` at every point. -/
theorem iblk0_8_eq (c : Dev nD) (t : Fin cfg0.N) :
    (iblk0 V c 8 t : Vec Ideal S1024x1024 .bf16) = (V c main_v7 : S1024x1024.Idx → EReal) := by
  funext y
  have hi := idx0_8 t
  unfold iblk0
  rw [View.read_apply]
  show V c main_v7 _ = V c main_v7 y
  congr 1
  funext a
  apply Fin.ext
  match a with
  | ⟨0, _⟩ => show win0_8.index t (0 : Fin 2) * 1024 + 1 * (y 0).val = (y 0).val; rw [hi.1]; omega
  | ⟨1, _⟩ => show win0_8.index t (1 : Fin 2) * 1024 + 1 * (y 1).val = (y 1).val; rw [hi.2]; omega

/-- Window 9 of this region is the whole array `main_v15` at every point. -/
theorem iblk0_9_eq (c : Dev nD) (t : Fin cfg0.N) :
    (iblk0 V c 9 t : Vec Ideal S1x1024 .f32) = (V c main_v15 : S1x1024.Idx → EReal) := by
  funext y
  have hi := idx0_9 t
  unfold iblk0
  rw [View.read_apply]
  show V c main_v15 _ = V c main_v15 y
  congr 1
  funext a
  apply Fin.ext
  match a with
  | ⟨0, _⟩ => show win0_9.index t (0 : Fin 2) * 1 + 1 * (y 0).val = (y 0).val; rw [hi.1]; omega
  | ⟨1, _⟩ => show win0_9.index t (1 : Fin 2) * 1024 + 1 * (y 1).val = (y 1).val; rw [hi.2]; omega

/-- Window 10 of this region is the whole array `main_v9` at every point. -/
theorem iblk0_10_eq (c : Dev nD) (t : Fin cfg0.N) :
    (iblk0 V c 10 t : Vec Ideal S1024x1024 .bf16) = (V c main_v9 : S1024x1024.Idx → EReal) := by
  funext y
  have hi := idx0_10 t
  unfold iblk0
  rw [View.read_apply]
  show V c main_v9 _ = V c main_v9 y
  congr 1
  funext a
  apply Fin.ext
  match a with
  | ⟨0, _⟩ => show win0_10.index t (0 : Fin 2) * 1024 + 1 * (y 0).val = (y 0).val; rw [hi.1]; omega
  | ⟨1, _⟩ => show win0_10.index t (1 : Fin 2) * 1024 + 1 * (y 1).val = (y 1).val; rw [hi.2]; omega

/-- Window 11 of this region is the whole array `main_v16` at every point. -/
theorem iblk0_11_eq (c : Dev nD) (t : Fin cfg0.N) :
    (iblk0 V c 11 t : Vec Ideal S1x1024 .f32) = (V c main_v16 : S1x1024.Idx → EReal) := by
  funext y
  have hi := idx0_11 t
  unfold iblk0
  rw [View.read_apply]
  show V c main_v16 _ = V c main_v16 y
  congr 1
  funext a
  apply Fin.ext
  match a with
  | ⟨0, _⟩ => show win0_11.index t (0 : Fin 2) * 1 + 1 * (y 0).val = (y 0).val; rw [hi.1]; omega
  | ⟨1, _⟩ => show win0_11.index t (1 : Fin 2) * 1024 + 1 * (y 1).val = (y 1).val; rw [hi.2]; omega

/-- Window 12 of this region is the whole array `main_v11` at every point. -/
theorem iblk0_12_eq (c : Dev nD) (t : Fin cfg0.N) :
    (iblk0 V c 12 t : Vec Ideal S1024x1024 .bf16) = (V c main_v11 : S1024x1024.Idx → EReal) := by
  funext y
  have hi := idx0_12 t
  unfold iblk0
  rw [View.read_apply]
  show V c main_v11 _ = V c main_v11 y
  congr 1
  funext a
  apply Fin.ext
  match a with
  | ⟨0, _⟩ => show win0_12.index t (0 : Fin 2) * 1024 + 1 * (y 0).val = (y 0).val; rw [hi.1]; omega
  | ⟨1, _⟩ => show win0_12.index t (1 : Fin 2) * 1024 + 1 * (y 1).val = (y 1).val; rw [hi.2]; omega

/-- Window 13 of this region is the whole array `main_v17` at every point. -/
theorem iblk0_13_eq (c : Dev nD) (t : Fin cfg0.N) :
    (iblk0 V c 13 t : Vec Ideal S1x1024 .f32) = (V c main_v17 : S1x1024.Idx → EReal) := by
  funext y
  have hi := idx0_13 t
  unfold iblk0
  rw [View.read_apply]
  show V c main_v17 _ = V c main_v17 y
  congr 1
  funext a
  apply Fin.ext
  match a with
  | ⟨0, _⟩ => show win0_13.index t (0 : Fin 2) * 1 + 1 * (y 0).val = (y 0).val; rw [hi.1]; omega
  | ⟨1, _⟩ => show win0_13.index t (1 : Fin 2) * 1024 + 1 * (y 1).val = (y 1).val; rw [hi.2]; omega

/-! ## The two attentions of the whole batch, from the arrays as the region finds them -/

/-- The forward attention: entry `(b, q, h)` is `Attn.attn` of batch element `b`'s rows under the causal mask. -/
def attnFwArr (c : Dev nD) : S32x448x1024.Idx → EReal := fun i =>
  Attn.attn Attn.keepFw (fun s d => (V c main_arg0 : S32x448x1024.Idx → EReal) (ix3 (i 0) s d)) (fun s d => (V c main_v18 : S448x1024.Idx → EReal) (ix2 s d))
    (fun d j => (V c main_v1 : S1024x1024.Idx → EReal) (ix2 d j)) (fun j => (V c main_v12 : S1x1024.Idx → EReal) (ix2 (0 : Fin 1) j))
    (fun d j => (V c main_v3 : S1024x1024.Idx → EReal) (ix2 d j)) (fun j => (V c main_v13 : S1x1024.Idx → EReal) (ix2 (0 : Fin 1) j))
    (fun d j => (V c main_v5 : S1024x1024.Idx → EReal) (ix2 d j)) (fun j => (V c main_v14 : S1x1024.Idx → EReal) (ix2 (0 : Fin 1) j)) (i 1) (i 2)

/-- The backward attention: the same with the three backward projections and the transposed mask. -/
def attnBwArr (c : Dev nD) : S32x448x1024.Idx → EReal := fun i =>
  Attn.attn Attn.keepBw (fun s d => (V c main_arg0 : S32x448x1024.Idx → EReal) (ix3 (i 0) s d)) (fun s d => (V c main_v18 : S448x1024.Idx → EReal) (ix2 s d))
    (fun d j => (V c main_v7 : S1024x1024.Idx → EReal) (ix2 d j)) (fun j => (V c main_v15 : S1x1024.Idx → EReal) (ix2 (0 : Fin 1) j))
    (fun d j => (V c main_v9 : S1024x1024.Idx → EReal) (ix2 d j)) (fun j => (V c main_v16 : S1x1024.Idx → EReal) (ix2 (0 : Fin 1) j))
    (fun d j => (V c main_v11 : S1024x1024.Idx → EReal) (ix2 d j)) (fun j => (V c main_v17 : S1x1024.Idx → EReal) (ix2 (0 : Fin 1) j)) (i 1) (i 2)

/-- What the forward payload is, entry by entry (proved over the kernel body's pure terms in another module). -/
abbrev PayFw : Prop := ∀ (x0 : Vec Ideal S1x448x1024 .f32) (x1 : Vec Ideal S448x1024 .f32)
    (x2 : Vec Ideal S1024x1024 .bf16) (x3 : Vec Ideal S1x1024 .f32) (x4 : Vec Ideal S1024x1024 .bf16) (x5 : Vec Ideal S1x1024 .f32)
    (x6 : Vec Ideal S1024x1024 .bf16) (x7 : Vec Ideal S1x1024 .f32) (q : Fin 448) (h : Fin 1024),

    k0_pay7 (F := Ideal) k0_pay3 (k0_pay5 x0 x1 x6 x7) (k0_pay6 x0 x1 x2 x3 x4 x5)
        (Named.named κ "neg_big" 0xFF333332#32) (ix3 (0 : Fin 1) q h)
      = Attn.attn Attn.keepFw (fun s d => x0 (ix3 (0 : Fin 1) s d)) (fun s d => x1 (ix2 s d))
          (fun d j => x2 (ix2 d j)) (fun j => x3 (ix2 (0 : Fin 1) j))
          (fun d j => x4 (ix2 d j)) (fun j => x5 (ix2 (0 : Fin 1) j))
          (fun d j => x6 (ix2 d j)) (fun j => x7 (ix2 (0 : Fin 1) j)) q h

/-- What the backward payload is, entry by entry. -/
abbrev PayBw : Prop := ∀ (x0 : Vec Ideal S1x448x1024 .f32) (x1 : Vec Ideal S448x1024 .f32)
    (x8 : Vec Ideal S1024x1024 .bf16) (x9 : Vec Ideal S1x1024 .f32) (x10 : Vec Ideal S1024x1024 .bf16) (x11 : Vec Ideal S1x1024 .f32)
    (x12 : Vec Ideal S1024x1024 .bf16) (x13 : Vec Ideal S1x1024 .f32) (q : Fin 448) (h : Fin 1024),

    k0_pay1 (F := Ideal) k0_pay4 (k0_pay8 (k0_pay2 x0 x1) x8 x9) (k0_pay9 (k0_pay2 x0 x1) x10 x11)
        (k0_pay10 (k0_pay2 x0 x1) x12) x13 (ix3 (0 : Fin 1) q h)
      = Attn.attn Attn.keepBw (fun s d => x0 (ix3 (0 : Fin 1) s d)) (fun s d => x1 (ix2 s d))
          (fun d j => x8 (ix2 d j)) (fun j => x9 (ix2 (0 : Fin 1) j))
          (fun d j => x10 (ix2 d j)) (fun j => x11 (ix2 (0 : Fin 1) j))
          (fun d j => x12 (ix2 d j)) (fun j => x13 (ix2 (0 : Fin 1) j)) q h

/-- An output block's entry `(0, s, h)` at point `t` is the array's entry `(t, s, h)`. -/
theorem emb14 (t : Fin cfg0.N) (s : Fin 448) (h : Fin 1024) :
    ((cfg0.win 14).blk t).view.emb (ix3 (0 : Fin 1) s h : S1x448x1024.Idx) = (ix3 (bt0 t) s h : S32x448x1024.Idx) := by
  have hi := idx0_14 t
  funext a
  apply Fin.ext
  match a with
  | ⟨0, _⟩ => show win0_14.index t (0 : Fin 3) * 1 + 1 * 0 = t.val; rw [hi.1]; omega
  | ⟨1, _⟩ => show win0_14.index t (1 : Fin 3) * 448 + 1 * s.val = s.val; rw [hi.2.1]; omega
  | ⟨2, _⟩ => show win0_14.index t (2 : Fin 3) * 1024 + 1 * h.val = h.val; rw [hi.2.2]; omega

/-- WHAT POINT `t` WRITES BACK through window 14 is block `t` of the forward attention. -/
theorem flushed14 (hfw : PayFw) (c : Dev nD) (t : Fin cfg0.N) :
    (dat0 (F := Ideal) V c).flushed 14 t = ((cfg0.win 14).blk t).view.read (Elt Ideal) (attnFwArr V c) := by
  show (cfg0.win 14).cut (grid0.coords t) ((dat0 (F := Ideal) V c).after 14 t) = _
  rw [after0_14]
  unfold out0_14
  rw [View.canon_unit_zero hz3]
  simp only [View.ld_unit_zero (S := S1x448x1024) hz3, View.ld_unit_zero (S := S448x1024) hz2, View.ld_unit_zero (S := S1024x1024) hz2, View.ld_unit_zero (S := S1x1024) hz2]
  funext y
  obtain ⟨u, s, h, rfl⟩ : ∃ (u : Fin 1) (s : Fin 448) (h : Fin 1024), y = (ix3 u s h : S1x448x1024.Idx) := ⟨y 0, y 1, y 2, eq_ix3 y⟩
  obtain rfl : u = 0 := Subsingleton.elim _ _
  refine (hfw (iblk0 V c 0 t) (iblk0 V c 1 t) (iblk0 V c 2 t) (iblk0 V c 3 t) (iblk0 V c 4 t) (iblk0 V c 5 t) (iblk0 V c 6 t) (iblk0 V c 7 t) s h).trans ?_
  rw [View.read_apply]
  show _ = attnFwArr V c (((cfg0.win 14).blk t).view.emb (ix3 (0 : Fin 1) s h : S1x448x1024.Idx))
  rw [emb14 t s h]
  have e0 : (fun (s : Fin 448) (d : Fin 1024) => (iblk0 V c 0 t : Vec Ideal S1x448x1024 .f32) (ix3 (0 : Fin 1) s d))
      = fun s d => (V c main_arg0 : S32x448x1024.Idx → EReal) (ix3 (bt0 t) s d) := funext fun s => funext fun d => iblk0_0_apply V c t s d
  rw [e0, iblk0_1_eq V c t, iblk0_2_eq V c t, iblk0_3_eq V c t, iblk0_4_eq V c t, iblk0_5_eq V c t, iblk0_6_eq V c t, iblk0_7_eq V c t]
  rfl

/-- An output block's entry `(0, s, h)` at point `t` is the array's entry `(t, s, h)` (window 15). -/
theorem emb15 (t : Fin cfg0.N) (s : Fin 448) (h : Fin 1024) :
    ((cfg0.win 15).blk t).view.emb (ix3 (0 : Fin 1) s h : S1x448x1024.Idx) = (ix3 (bt0 t) s h : S32x448x1024.Idx) := by
  have hi := idx0_15 t
  funext a
  apply Fin.ext
  match a with
  | ⟨0, _⟩ => show win0_15.index t (0 : Fin 3) * 1 + 1 * 0 = t.val; rw [hi.1]; omega
  | ⟨1, _⟩ => show win0_15.index t (1 : Fin 3) * 448 + 1 * s.val = s.val; rw [hi.2.1]; omega
  | ⟨2, _⟩ => show win0_15.index t (2 : Fin 3) * 1024 + 1 * h.val = h.val; rw [hi.2.2]; omega

/-- WHAT POINT `t` WRITES BACK through window 15 is block `t` of the backward attention. -/
theorem flushed15 (hbw : PayBw) (c : Dev nD) (t : Fin cfg0.N) :
    (dat0 (F := Ideal) V c).flushed 15 t = ((cfg0.win 15).blk t).view.read (Elt Ideal) (attnBwArr V c) := by
  show (cfg0.win 15).cut (grid0.coords t) ((dat0 (F := Ideal) V c).after 15 t) = _
  rw [after0_15]
  unfold out0_15
  rw [View.canon_unit_zero hz3]
  simp only [View.ld_unit_zero (S := S1x448x1024) hz3, View.ld_unit_zero (S := S448x1024) hz2, View.ld_unit_zero (S := S1024x1024) hz2, View.ld_unit_zero (S := S1x1024) hz2]
  funext y
  obtain ⟨u, s, h, rfl⟩ : ∃ (u : Fin 1) (s : Fin 448) (h : Fin 1024), y = (ix3 u s h : S1x448x1024.Idx) := ⟨y 0, y 1, y 2, eq_ix3 y⟩
  obtain rfl : u = 0 := Subsingleton.elim _ _
  refine (hbw (iblk0 V c 0 t) (iblk0 V c 1 t) (iblk0 V c 8 t) (iblk0 V c 9 t) (iblk0 V c 10 t) (iblk0 V c 11 t) (iblk0 V c 12 t) (iblk0 V c 13 t) s h).trans ?_
  rw [View.read_apply]
  show _ = attnBwArr V c (((cfg0.win 15).blk t).view.emb (ix3 (0 : Fin 1) s h : S1x448x1024.Idx))
  rw [emb15 t s h]
  have e0 : (fun (s : Fin 448) (d : Fin 1024) => (iblk0 V c 0 t : Vec Ideal S1x448x1024 .f32) (ix3 (0 : Fin 1) s d))
      = fun s d => (V c main_arg0 : S32x448x1024.Idx → EReal) (ix3 (bt0 t) s d) := funext fun s => funext fun d => iblk0_0_apply V c t s d
  rw [e0, iblk0_1_eq V c t, iblk0_8_eq V c t, iblk0_9_eq V c t, iblk0_10_eq V c t, iblk0_11_eq V c t, iblk0_12_eq V c t, iblk0_13_eq V c t]
  rfl

/-- Every entry `(b, s, h)` of window 14's array is in the block of point `b`, which is written back. -/
theorem cover0_w14 (i : S32x448x1024.Idx) :
    ∃ t : Fin cfg0.N, (cfg0.win 14).flush t = true ∧ i ∈ ((cfg0.win 14).blk t).view.set := by
  have h0 : (i 0).val < 32 := (i 0).isLt
  have h1 : (i 1).val < 448 := (i 1).isLt
  have h2 : (i 2).val < 1024 := (i 2).isLt
  let t : Fin cfg0.N := ⟨(i 0).val, by show (i 0).val < grid0.N; rw [N_0]; exact h0⟩
  have hi := idx0_14 t
  refine ⟨t, flush0_14 t, ?_⟩
  show i ∈ ((View.whole main_v19_0).slice (win0_14.rect t)).set
  rw [View.set_slice_whole, Rect.mem_set_unit]
  intro a
  match a with
  | ⟨0, _⟩ => show win0_14.index t (0 : Fin 3) * 1 ≤ (i 0).val ∧ (i 0).val < win0_14.index t (0 : Fin 3) * 1 + 1; rw [hi.1]; show (i 0).val * 1 ≤ (i 0).val ∧ (i 0).val < (i 0).val * 1 + 1; omega
  | ⟨1, _⟩ => show win0_14.index t (1 : Fin 3) * 448 ≤ (i 1).val ∧ (i 1).val < win0_14.index t (1 : Fin 3) * 448 + 448; rw [hi.2.1]; omega
  | ⟨2, _⟩ => show win0_14.index t (2 : Fin 3) * 1024 ≤ (i 2).val ∧ (i 2).val < win0_14.index t (2 : Fin 3) * 1024 + 1024; rw [hi.2.2]; omega

/-- Every entry `(b, s, h)` of window 15's array is in the block of point `b`, which is written back. -/
theorem cover0_w15 (i : S32x448x1024.Idx) :
    ∃ t : Fin cfg0.N, (cfg0.win 15).flush t = true ∧ i ∈ ((cfg0.win 15).blk t).view.set := by
  have h0 : (i 0).val < 32 := (i 0).isLt
  have h1 : (i 1).val < 448 := (i 1).isLt
  have h2 : (i 2).val < 1024 := (i 2).isLt
  let t : Fin cfg0.N := ⟨(i 0).val, by show (i 0).val < grid0.N; rw [N_0]; exact h0⟩
  have hi := idx0_15 t
  refine ⟨t, flush0_15 t, ?_⟩
  show i ∈ ((View.whole main_v19_1).slice (win0_15.rect t)).set
  rw [View.set_slice_whole, Rect.mem_set_unit]
  intro a
  match a with
  | ⟨0, _⟩ => show win0_15.index t (0 : Fin 3) * 1 ≤ (i 0).val ∧ (i 0).val < win0_15.index t (0 : Fin 3) * 1 + 1; rw [hi.1]; show (i 0).val * 1 ≤ (i 0).val ∧ (i 0).val < (i 0).val * 1 + 1; omega
  | ⟨1, _⟩ => show win0_15.index t (1 : Fin 3) * 448 ≤ (i 1).val ∧ (i 1).val < win0_15.index t (1 : Fin 3) * 448 + 448; rw [hi.2.1]; omega
  | ⟨2, _⟩ => show win0_15.index t (2 : Fin 3) * 1024 ≤ (i 2).val ∧ (i 2).val < win0_15.index t (2 : Fin 3) * 1024 + 1024; rw [hi.2.2]; omega

/-- After the attention region, window 14's array holds the forward attention of the whole batch. -/
theorem final14 (hfw : PayFw) (c : Dev nD) : (dat0 (F := Ideal) V c).arrAt 14 cfg0.N = attnFwArr V c :=
  (dat0 (F := Ideal) V c).arrAt_eq_of_cover 14 (attnFwArr V c) (fun t _ => flushed14 V hfw c t) cover0_w14

/-- After the attention region, window 15's array holds the backward attention of the whole batch. -/
theorem final15 (hbw : PayBw) (c : Dev nD) : (dat0 (F := Ideal) V c).arrAt 15 cfg0.N = attnBwArr V c :=
  (dat0 (F := Ideal) V c).arrAt_eq_of_cover 15 (attnBwArr V c) (fun t _ => flushed15 V hbw c t) cover0_w15

end Cert.KernelIdeal.Arr
end
-- ==== Proof.KArr1.lean ====
/-
  The gate region, from blocks to arrays.

  One grid point per batch element.  At point `t` the first two input windows hold batch element `t` of the two
  attention arrays; the other five hold whole arrays (the two halves of the transposed gate weight, the gate bias
  row, the transposed output weight, the output bias row).  The token window writes its [1, 448, 1024] block back to
  batch element `t`; the utterance window writes its [1, 1, 1024] block back to row `t`.  Given what the body's two
  payloads are entry by entry, each output array after the region is one function of the arrays the region found:
  `Attn.token`, and `Attn.utter` of it.  Stated at a parameter `V`, the buffers' contents at the region's entry.
-/
import proofs.«181104_j38946763440234_1_alg».proof.Proof.Gen.KernelIdeal.Frame
import proofs.«181104_j38946763440234_1_alg».proof.Proof.Spec
import Idealize.ShloMosaic.Lib.Pipeline.Value
import Idealize.ShloMosaic.Lib.ValueIdx

set_option maxRecDepth 16384

noncomputable section

namespace Cert.KernelIdeal.Arr1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point of the gate region as a batch index. -/
abbrev bt1 (t : Fin cfg1.N) : Fin 32 := ⟨t.val, by have h : t.val < grid1.N := t.isLt; exact h.trans_eq N_1⟩

/-! ## The printed index maps, decided over the grid -/

theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx1_7 : ∀ t : Fin cfg1.N, win1_7.index t (0 : Fin 3) = t.val ∧ win1_7.index t (1 : Fin 3) = 0 ∧ win1_7.index t (2 : Fin 3) = 0 :=
  (by decide +kernel : ∀ t : Fin grid1.N, _)
theorem idx1_8 : ∀ t : Fin cfg1.N, win1_8.index t (0 : Fin 3) = t.val ∧ win1_8.index t (1 : Fin 3) = 0 ∧ win1_8.index t (2 : Fin 3) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)

/-! ## Each input window's block at a point, read off the array the region finds -/

/-- Window 0's block at point `t` is batch element `t` of `main_v19_0`. -/
theorem iblk1_0_apply (c : Dev nD) (t : Fin cfg1.N) (s : Fin 448) (d : Fin 1024) :
    (iblk1 V c 0 t : Vec Ideal S1x448x1024 .f32) (ix3 (0 : Fin 1) s d) = (V c main_v19_0 : S32x448x1024.Idx → EReal) (ix3 (bt1 t) s d) := by
  have hi := idx1_0 t
  unfold iblk1
  rw [View.read_apply]
  show V c main_v19_0 _ = V c main_v19_0 _
  congr 1
  funext a
  apply Fin.ext
  match a with
  | ⟨0, _⟩ => show win1_0.index t (0 : Fin 3) * 1 + 1 * 0 = t.val; rw [hi.1]; omega
  | ⟨1, _⟩ => show win1_0.index t (1 : Fin 3) * 448 + 1 * s.val = s.val; rw [hi.2.1]; omega
  | ⟨2, _⟩ => show win1_0.index t (2 : Fin 3) * 1024 + 1 * d.val = d.val; rw [hi.2.2]; omega

/-- Window 1's block at point `t` is batch element `t` of `main_v19_1`. -/
theorem iblk1_1_apply (c : Dev nD) (t : Fin cfg1.N) (s : Fin 448) (d : Fin 1024) :
    (iblk1 V c 1 t : Vec Ideal S1x448x1024 .f32) (ix3 (0 : Fin 1) s d) = (V c main_v19_1 : S32x448x1024.Idx → EReal) (ix3 (bt1 t) s d) := by
  have hi := idx1_1 t
  unfold iblk1
  rw [View.read_apply]
  show V c main_v19_1 _ = V c main_v19_1 _
  congr 1
  funext a
  apply Fin.ext
  match a with
  | ⟨0, _⟩ => show win1_1.index t (0 : Fin 3) * 1 + 1 * 0 = t.val; rw [hi.1]; omega
  | ⟨1, _⟩ => show win1_1.index t (1 : Fin 3) * 448 + 1 * s.val = s.val; rw [hi.2.1]; omega
  | ⟨2, _⟩ => show win1_1.index t (2 : Fin 3) * 1024 + 1 * d.val = d.val; rw [hi.2.2]; omega

/-- Window 2 of this region is the whole array `main_v22` at every point. -/
theorem iblk1_2_eq (c : Dev nD) (t : Fin cfg1.N) :
    (iblk1 V c 2 t : Vec Ideal S1024x1024 .bf16) = (V c main_v22 : S1024x1024.Idx → EReal) := by
  funext y
  have hi := idx1_2 t
  unfold iblk1
  rw [View.read_apply]
  show V c main_v22 _ = V c main_v22 y
  congr 1
  funext a
  apply Fin.ext
  match a with
  | ⟨0, _⟩ => show win1_2.index t (0 : Fin 2) * 1024 + 1 * (y 0).val = (y 0).val; rw [hi.1]; omega
  | ⟨1, _⟩ => show win1_2.index t (1 : Fin 2) * 1024 + 1 * (y 1).val = (y 1).val; rw [hi.2]; omega

/-- Window 3 of this region is the whole array `main_v23` at every point. -/
theorem iblk1_3_eq (c : Dev nD) (t : Fin cfg1.N) :
    (iblk1 V c 3 t : Vec Ideal S1024x1024 .bf16) = (V c main_v23 : S1024x1024.Idx → EReal) := by
  funext y
  have hi := idx1_3 t
  unfold iblk1
  rw [View.read_apply]
  show V c main_v23 _ = V c main_v23 y
  congr 1
  funext a
  apply Fin.ext
  match a with
  | ⟨0, _⟩ => show win1_3.index t (0 : Fin 2) * 1024 + 1 * (y 0).val = (y 0).val; rw [hi.1]; omega
  | ⟨1, _⟩ => show win1_3.index t (1 : Fin 2) * 1024 + 1 * (y 1).val = (y 1).val; rw [hi.2]; omega

/-- Window 4 of this region is the whole array `main_v24` at every point. -/
theorem iblk1_4_eq (c : Dev nD) (t : Fin cfg1.N) :
    (iblk1 V c 4 t : Vec Ideal S1x1024 .f32) = (V c main_v24 : S1x1024.Idx → EReal) := by
  funext y
  have hi := idx1_4 t
  unfold iblk1
  rw [View.read_apply]
  show V c main_v24 _ = V c main_v24 y
  congr 1
  funext a
  apply Fin.ext
  match a with
  | ⟨0, _⟩ => show win1_4.index t (0 : Fin 2) * 1 + 1 * (y 0).val = (y 0).val; rw [hi.1]; omega
  | ⟨1, _⟩ => show win1_4.index t (1 : Fin 2) * 1024 + 1 * (y 1).val = (y 1).val; rw [hi.2]; omega

/-- Window 5 of this region is the whole array `main_v26` at every point. -/
theorem iblk1_5_eq (c : Dev nD) (t : Fin cfg1.N) :
    (iblk1 V c 5 t : Vec Ideal S1024x1024 .bf16) = (V c main_v26 : S1024x1024.Idx → EReal) := by
  funext y
  have hi := idx1_5 t
  unfold iblk1
  rw [View.read_apply]
  show V c main_v26 _ = V c main_v26 y
  congr 1
  funext a
  apply Fin.ext
  match a with
  | ⟨0, _⟩ => show win1_5.index t (0 : Fin 2) * 1024 + 1 * (y 0).val = (y 0).val; rw [hi.1]; omega
  | ⟨1, _⟩ => show win1_5.index t (1 : Fin 2) * 1024 + 1 * (y 1).val = (y 1).val; rw [hi.2]; omega

/-- Window 6 of this region is the whole array `main_v27` at every point. -/
theorem iblk1_6_eq (c : Dev nD) (t : Fin cfg1.N) :
    (iblk1 V c 6 t : Vec Ideal S1x1024 .f32) = (V c main_v27 : S1x1024.Idx → EReal) := by
  funext y
  have hi := idx1_6 t
  unfold iblk1
  rw [View.read_apply]
  show V c main_v27 _ = V c main_v27 y
  congr 1
  funext a
  apply Fin.ext
  match a with
  | ⟨0, _⟩ => show win1_6.index t (0 : Fin 2) * 1 + 1 * (y 0).val = (y 0).val; rw [hi.1]; omega
  | ⟨1, _⟩ => show win1_6.index t (1 : Fin 2) * 1024 + 1 * (y 1).val = (y 1).val; rw [hi.2]; omega

/-! ## The tokens and the utterance vectors of the whole batch, from the arrays as the region finds them -/

/-- The token representations: entry `(b, s, h)` is `Attn.token` of batch element `b`'s two attentions. -/
def tokenArr (c : Dev nD) : S32x448x1024.Idx → EReal := fun i =>
  Attn.token (fun s f => (V c main_v19_0 : S32x448x1024.Idx → EReal) (ix3 (i 0) s f)) (fun s f => (V c main_v19_1 : S32x448x1024.Idx → EReal) (ix3 (i 0) s f))
      (fun f j => (V c main_v22 : S1024x1024.Idx → EReal) (ix2 f j)) (fun f j => (V c main_v23 : S1024x1024.Idx → EReal) (ix2 f j)) (fun j => (V c main_v24 : S1x1024.Idx → EReal) (ix2 (0 : Fin 1) j)) (i 1) (i 2)

/-- The utterance vectors, one row per batch element (kept with a unit middle axis, as the region writes them). -/
def utterArr (c : Dev nD) : S32x1x1024.Idx → EReal := fun i =>
  Attn.utter (Attn.token (fun s f => (V c main_v19_0 : S32x448x1024.Idx → EReal) (ix3 (i 0) s f)) (fun s f => (V c main_v19_1 : S32x448x1024.Idx → EReal) (ix3 (i 0) s f))
      (fun f j => (V c main_v22 : S1024x1024.Idx → EReal) (ix2 f j)) (fun f j => (V c main_v23 : S1024x1024.Idx → EReal) (ix2 f j)) (fun j => (V c main_v24 : S1x1024.Idx → EReal) (ix2 (0 : Fin 1) j)))
    (fun h j => (V c main_v26 : S1024x1024.Idx → EReal) (ix2 h j)) (fun j => (V c main_v27 : S1x1024.Idx → EReal) (ix2 (0 : Fin 1) j)) (i 2)

/-- What the token payload is, entry by entry (proved over the kernel body's pure terms in another module). -/
abbrev PayToken : Prop := ∀ (x0 x1 : Vec Ideal S1x448x1024 .f32) (x2 x3 : Vec Ideal S1024x1024 .bf16) (x4 : Vec Ideal S1x1024 .f32)
    (s : Fin 448) (h : Fin 1024),

    k1_pay3 (F := Ideal) x0 x1 x2 x3 x4 (ix3 (0 : Fin 1) s h)
      = Attn.token (fun s f => x0 (ix3 (0 : Fin 1) s f)) (fun s f => x1 (ix3 (0 : Fin 1) s f))
          (fun f j => x2 (ix2 f j)) (fun f j => x3 (ix2 f j)) (fun j => x4 (ix2 (0 : Fin 1) j)) s h

/-- What the utterance payload is, entry by entry. -/
abbrev PayUtter : Prop := ∀ (x0 x1 : Vec Ideal S1x448x1024 .f32) (x2 x3 : Vec Ideal S1024x1024 .bf16) (x4 : Vec Ideal S1x1024 .f32)
    (x5 : Vec Ideal S1024x1024 .bf16) (x6 : Vec Ideal S1x1024 .f32) (o : Fin 1024),

    k1_pay1 (F := Ideal) (k1_pay4 x0 x1 x2 x3 x4 x5) x6 (ix3 (0 : Fin 1) (0 : Fin 1) o)
      = Attn.utter (Attn.token (fun s f => x0 (ix3 (0 : Fin 1) s f)) (fun s f => x1 (ix3 (0 : Fin 1) s f))
          (fun f j => x2 (ix2 f j)) (fun f j => x3 (ix2 f j)) (fun j => x4 (ix2 (0 : Fin 1) j)))
          (fun h j => x5 (ix2 h j)) (fun j => x6 (ix2 (0 : Fin 1) j)) o

/-- An output block's entry `(0, s, h)` at point `t` is the array's entry `(t, s, h)`. -/
theorem emb7 (t : Fin cfg1.N) (s : Fin 448) (h : Fin 1024) :
    ((cfg1.win 7).blk t).view.emb (ix3 (0 : Fin 1) s h : S1x448x1024.Idx) = (ix3 (bt1 t) s h : S32x448x1024.Idx) := by
  have hi := idx1_7 t
  funext a
  apply Fin.ext
  match a with
  | ⟨0, _⟩ => show win1_7.index t (0 : Fin 3) * 1 + 1 * 0 = t.val; rw [hi.1]; omega
  | ⟨1, _⟩ => show win1_7.index t (1 : Fin 3) * 448 + 1 * s.val = s.val; rw [hi.2.1]; omega
  | ⟨2, _⟩ => show win1_7.index t (2 : Fin 3) * 1024 + 1 * h.val = h.val; rw [hi.2.2]; omega

/-- The utterance block's entry `(0, 0, o)` at point `t` is the array's entry `(t, 0, o)`. -/
theorem emb8 (t : Fin cfg1.N) (o : Fin 1024) :
    ((cfg1.win 8).blk t).view.emb (ix3 (0 : Fin 1) (0 : Fin 1) o : S1x1x1024.Idx) = (ix3 (bt1 t) (0 : Fin 1) o : S32x1x1024.Idx) := by
  have hi := idx1_8 t
  funext a
  apply Fin.ext
  match a with
  | ⟨0, _⟩ => show win1_8.index t (0 : Fin 3) * 1 + 1 * 0 = t.val; rw [hi.1]; omega
  | ⟨1, _⟩ => show win1_8.index t (1 : Fin 3) * 1 + 1 * 0 = 0; rw [hi.2.1]
  | ⟨2, _⟩ => show win1_8.index t (2 : Fin 3) * 1024 + 1 * o.val = o.val; rw [hi.2.2]; omega

/-- The two attention blocks at point `t`, entry by entry, are batch element `t` of the two attention arrays. -/
theorem blocks01 (c : Dev nD) (t : Fin cfg1.N) :
    (fun (s : Fin 448) (f : Fin 1024) => (iblk1 V c 0 t : Vec Ideal S1x448x1024 .f32) (ix3 (0 : Fin 1) s f))
        = (fun s f => (V c main_v19_0 : S32x448x1024.Idx → EReal) (ix3 (bt1 t) s f))
    ∧ (fun (s : Fin 448) (f : Fin 1024) => (iblk1 V c 1 t : Vec Ideal S1x448x1024 .f32) (ix3 (0 : Fin 1) s f))
        = (fun s f => (V c main_v19_1 : S32x448x1024.Idx → EReal) (ix3 (bt1 t) s f)) :=
  ⟨funext fun s => funext fun f => iblk1_0_apply V c t s f, funext fun s => funext fun f => iblk1_1_apply V c t s f⟩

/-- WHAT POINT `t` WRITES BACK through window 7 is block `t` of the tokens. -/
theorem flushed7 (htok : PayToken) (c : Dev nD) (t : Fin cfg1.N) :
    (dat1 (F := Ideal) V c).flushed 7 t = ((cfg1.win 7).blk t).view.read (Elt Ideal) (tokenArr V c) := by
  show (cfg1.win 7).cut (grid1.coords t) ((dat1 (F := Ideal) V c).after 7 t) = _
  rw [after1_7]
  unfold out1_7
  rw [View.canon_unit_zero hz3]
  simp only [View.ld_unit_zero (S := S1x448x1024) hz3, View.ld_unit_zero (S := S1024x1024) hz2, View.ld_unit_zero (S := S1x1024) hz2]
  funext y
  obtain ⟨u, s, h, rfl⟩ : ∃ (u : Fin 1) (s : Fin 448) (h : Fin 1024), y = (ix3 u s h : S1x448x1024.Idx) := ⟨y 0, y 1, y 2, eq_ix3 y⟩
  obtain rfl : u = 0 := Subsingleton.elim _ _
  refine (htok (iblk1 V c 0 t) (iblk1 V c 1 t) (iblk1 V c 2 t) (iblk1 V c 3 t) (iblk1 V c 4 t) s h).trans ?_
  rw [View.read_apply]
  show _ = tokenArr V c (((cfg1.win 7).blk t).view.emb (ix3 (0 : Fin 1) s h : S1x448x1024.Idx))
  rw [emb7 t s h]
  obtain ⟨e0, e1⟩ := blocks01 V c t
  rw [e0, e1, iblk1_2_eq V c t, iblk1_3_eq V c t, iblk1_4_eq V c t]
  rfl

/-- WHAT POINT `t` WRITES BACK through window 8 is block `t` of the utterance vectors. -/
theorem flushed8 (hutt : PayUtter) (c : Dev nD) (t : Fin cfg1.N) :
    (dat1 (F := Ideal) V c).flushed 8 t = ((cfg1.win 8).blk t).view.read (Elt Ideal) (utterArr V c) := by
  show (cfg1.win 8).cut (grid1.coords t) ((dat1 (F := Ideal) V c).after 8 t) = _
  rw [after1_8]
  unfold out1_8
  rw [View.canon_unit_zero hz3]
  simp only [View.ld_unit_zero (S := S1x448x1024) hz3, View.ld_unit_zero (S := S1024x1024) hz2, View.ld_unit_zero (S := S1x1024) hz2]
  funext y
  obtain ⟨u, v, o, rfl⟩ : ∃ (u : Fin 1) (v : Fin 1) (o : Fin 1024), y = (ix3 u v o : S1x1x1024.Idx) := ⟨y 0, y 1, y 2, eq_ix3 y⟩
  obtain rfl : u = 0 := Subsingleton.elim _ _
  obtain rfl : v = 0 := Subsingleton.elim _ _
  refine (hutt (iblk1 V c 0 t) (iblk1 V c 1 t) (iblk1 V c 2 t) (iblk1 V c 3 t) (iblk1 V c 4 t) (iblk1 V c 5 t) (iblk1 V c 6 t) o).trans ?_
  rw [View.read_apply]
  show _ = utterArr V c (((cfg1.win 8).blk t).view.emb (ix3 (0 : Fin 1) (0 : Fin 1) o : S1x1x1024.Idx))
  rw [emb8 t o]
  obtain ⟨e0, e1⟩ := blocks01 V c t
  rw [e0, e1, iblk1_2_eq V c t, iblk1_3_eq V c t, iblk1_4_eq V c t, iblk1_5_eq V c t, iblk1_6_eq V c t]
  rfl

/-- Every entry `(b, s, h)` of window 7's array is in the block of point `b`, which is written back. -/
theorem cover1_w7 (i : S32x448x1024.Idx) :
    ∃ t : Fin cfg1.N, (cfg1.win 7).flush t = true ∧ i ∈ ((cfg1.win 7).blk t).view.set := by
  have h0 : (i 0).val < 32 := (i 0).isLt
  have h1 : (i 1).val < 448 := (i 1).isLt
  have h2 : (i 2).val < 1024 := (i 2).isLt
  let t : Fin cfg1.N := ⟨(i 0).val, by show (i 0).val < grid1.N; rw [N_1]; exact h0⟩
  have hi := idx1_7 t
  refine ⟨t, flush1_7 t, ?_⟩
  show i ∈ ((View.whole main_v28_0).slice (win1_7.rect t)).set
  rw [View.set_slice_whole, Rect.mem_set_unit]
  intro a
  match a with
  | ⟨0, _⟩ => show win1_7.index t (0 : Fin 3) * 1 ≤ (i 0).val ∧ (i 0).val < win1_7.index t (0 : Fin 3) * 1 + 1; rw [hi.1]; show (i 0).val * 1 ≤ (i 0).val ∧ (i 0).val < (i 0).val * 1 + 1; omega
  | ⟨1, _⟩ => show win1_7.index t (1 : Fin 3) * 448 ≤ (i 1).val ∧ (i 1).val < win1_7.index t (1 : Fin 3) * 448 + 448; rw [hi.2.1]; omega
  | ⟨2, _⟩ => show win1_7.index t (2 : Fin 3) * 1024 ≤ (i 2).val ∧ (i 2).val < win1_7.index t (2 : Fin 3) * 1024 + 1024; rw [hi.2.2]; omega

/-- Every entry `(b, 0, o)` of window 8's array is in the block of point `b`, which is written back. -/
theorem cover1_w8 (i : S32x1x1024.Idx) :
    ∃ t : Fin cfg1.N, (cfg1.win 8).flush t = true ∧ i ∈ ((cfg1.win 8).blk t).view.set := by
  have h0 : (i 0).val < 32 := (i 0).isLt
  have h1 : (i 1).val < 1 := (i 1).isLt
  have h2 : (i 2).val < 1024 := (i 2).isLt
  let t : Fin cfg1.N := ⟨(i 0).val, by show (i 0).val < grid1.N; rw [N_1]; exact h0⟩
  have hi := idx1_8 t
  refine ⟨t, flush1_8 t, ?_⟩
  show i ∈ ((View.whole main_v28_1).slice (win1_8.rect t)).set
  rw [View.set_slice_whole, Rect.mem_set_unit]
  intro a
  match a with
  | ⟨0, _⟩ => show win1_8.index t (0 : Fin 3) * 1 ≤ (i 0).val ∧ (i 0).val < win1_8.index t (0 : Fin 3) * 1 + 1; rw [hi.1]; show (i 0).val * 1 ≤ (i 0).val ∧ (i 0).val < (i 0).val * 1 + 1; omega
  | ⟨1, _⟩ => show win1_8.index t (1 : Fin 3) * 1 ≤ (i 1).val ∧ (i 1).val < win1_8.index t (1 : Fin 3) * 1 + 1; rw [hi.2.1]; omega
  | ⟨2, _⟩ => show win1_8.index t (2 : Fin 3) * 1024 ≤ (i 2).val ∧ (i 2).val < win1_8.index t (2 : Fin 3) * 1024 + 1024; rw [hi.2.2]; omega

/-- After the gate region, window 7's array holds the tokens of the whole batch. -/
theorem final7 (htok : PayToken) (c : Dev nD) : (dat1 (F := Ideal) V c).arrAt 7 cfg1.N = tokenArr V c :=
  (dat1 (F := Ideal) V c).arrAt_eq_of_cover 7 (tokenArr V c) (fun t _ => flushed7 V htok c t) cover1_w7

/-- After the gate region, window 8's array holds the utterance vectors of the whole batch. -/
theorem final8 (hutt : PayUtter) (c : Dev nD) : (dat1 (F := Ideal) V c).arrAt 8 cfg1.N = utterArr V c :=
  (dat1 (F := Ideal) V c).arrAt_eq_of_cover 8 (utterArr V c) (fun t _ => flushed8 V hutt c t) cover1_w8

end Cert.KernelIdeal.Arr1
end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.KHost.lean ====
/-
  The idealized kernel's host operations, read back to the arguments.

  Before the attention region the host transposes the six projection weights (and changes their format, the
  identity on the extended reals), lays the six biases out as rows, and takes the first 448 positional rows; before
  the gate region it transposes the gate weight and cuts it into its two halves of 1024 rows, transposes the output
  weight, and lays two more biases out as rows; after the gate region it drops the unit middle axis of the utterance
  rows.  None of them writes an argument, and the regions write only their own outputs.  So each region's entry
  contents are these layout operations of the arguments, read here entry by entry, and each region's output arrays —
  `Attn.attn`, `Attn.token`, `Attn.utter` of its entry contents (the blocks-to-arrays modules) — become the
  whole-array functions `Attn.attnW`, `Attn.tokenW`, `Attn.utterW` of the eighteen arguments.
-/
import proofs.«181104_j38946763440234_1_alg».proof.Proof.Gen.KernelIdeal.Frame
import proofs.«181104_j38946763440234_1_alg».proof.Proof.Whole
import proofs.«181104_j38946763440234_1_alg».proof.Proof.KArr0
import proofs.«181104_j38946763440234_1_alg».proof.Proof.KArr1
import proofs.«181104_j38946763440234_1_alg».proof.Proof.LibDenseLayer
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

open Cert.KernelIdeal.Arr Cert.KernelIdeal.Arr1

/-! ## The attention region's entry contents, read back to the arguments -/

/-- The input array is as launched when the attention region is entered. -/
theorem V1_arg0 (c : Dev nD) : V1 m ρ c main_arg0 = (m ((c : Thread nD τ).loc main_arg0)) := by
  show StableHlo.after hostOps0 (W0 m ρ c) (Proc.devRef .tc main_arg0) = _
  exact (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The positional rows at the region's entry are the first 448 rows of the positional table. -/
theorem V1_v18 (c : Dev nD) (s : Fin 448) (d : Fin 1024) :
    (V1 m ρ c main_v18 : S448x1024.Idx → EReal) (ix2 s d) = ((m ((c : Thread nD τ).loc main_arg1)) : S500x1024.Idx → EReal) (ix2 (Attn.row500 s) d) := by
  have e : (V1 m ρ c main_v18 : S448x1024.Idx → EReal)
      = (extractStridedSlice S448x1024 ![0, 0] (m ((c : Thread nD τ).loc main_arg1)) slices_S500x1024_S448x1024_0_0 : S448x1024.Idx → EReal) := by
    show StableHlo.after hostOps0 (W0 m ρ c) (Proc.devRef .tc main_v18) = _
    after_results <;> rfl
  rw [e]
  exact slice2_axis0_apply 0 _ _ s d (Attn.row500 s) (Nat.zero_add _).symm

/-- `main_v1` at the region's entry is `main_arg2` transposed (the change of format is the identity). -/
theorem V1_v1 (c : Dev nD) (d j : Fin 1024) :
    (V1 m ρ c main_v1 : S1024x1024.Idx → EReal) (ix2 d j) = ((m ((c : Thread nD τ).loc main_arg2)) : S1024x1024.Idx → EReal) (ix2 j d) := by
  have e : (V1 m ρ c main_v1 : S1024x1024.Idx → EReal)
      = (truncf (F := Ideal) .bf16 (transpose S1024x1024 [1, 0] (m ((c : Thread nD τ).loc main_arg2)) transposes_S1024x1024_S1024x1024_1_0) bitsLt_bf16_f32 : S1024x1024.Idx → EReal) := by
    show StableHlo.after hostOps0 (W0 m ρ c) (Proc.devRef .tc main_v1) = _
    after_results <;> rfl
  rw [e]
  exact transpose_ix2_apply _ _ d j

/-- `main_v3` at the region's entry is `main_arg4` transposed (the change of format is the identity). -/
theorem V1_v3 (c : Dev nD) (d j : Fin 1024) :
    (V1 m ρ c main_v3 : S1024x1024.Idx → EReal) (ix2 d j) = ((m ((c : Thread nD τ).loc main_arg4)) : S1024x1024.Idx → EReal) (ix2 j d) := by
  have e : (V1 m ρ c main_v3 : S1024x1024.Idx → EReal)
      = (truncf (F := Ideal) .bf16 (transpose S1024x1024 [1, 0] (m ((c : Thread nD τ).loc main_arg4)) transposes_S1024x1024_S1024x1024_1_0) bitsLt_bf16_f32 : S1024x1024.Idx → EReal) := by
    show StableHlo.after hostOps0 (W0 m ρ c) (Proc.devRef .tc main_v3) = _
    after_results <;> rfl
  rw [e]
  exact transpose_ix2_apply _ _ d j

/-- `main_v5` at the region's entry is `main_arg6` transposed (the change of format is the identity). -/
theorem V1_v5 (c : Dev nD) (d j : Fin 1024) :
    (V1 m ρ c main_v5 : S1024x1024.Idx → EReal) (ix2 d j) = ((m ((c : Thread nD τ).loc main_arg6)) : S1024x1024.Idx → EReal) (ix2 j d) := by
  have e : (V1 m ρ c main_v5 : S1024x1024.Idx → EReal)
      = (truncf (F := Ideal) .bf16 (transpose S1024x1024 [1, 0] (m ((c : Thread nD τ).loc main_arg6)) transposes_S1024x1024_S1024x1024_1_0) bitsLt_bf16_f32 : S1024x1024.Idx → EReal) := by
    show StableHlo.after hostOps0 (W0 m ρ c) (Proc.devRef .tc main_v5) = _
    after_results <;> rfl
  rw [e]
  exact transpose_ix2_apply _ _ d j

/-- `main_v7` at the region's entry is `main_arg8` transposed (the change of format is the identity). -/
theorem V1_v7 (c : Dev nD) (d j : Fin 1024) :
    (V1 m ρ c main_v7 : S1024x1024.Idx → EReal) (ix2 d j) = ((m ((c : Thread nD τ).loc main_arg8)) : S1024x1024.Idx → EReal) (ix2 j d) := by
  have e : (V1 m ρ c main_v7 : S1024x1024.Idx → EReal)
      = (truncf (F := Ideal) .bf16 (transpose S1024x1024 [1, 0] (m ((c : Thread nD τ).loc main_arg8)) transposes_S1024x1024_S1024x1024_1_0) bitsLt_bf16_f32 : S1024x1024.Idx → EReal) := by
    show StableHlo.after hostOps0 (W0 m ρ c) (Proc.devRef .tc main_v7) = _
    after_results <;> rfl
  rw [e]
  exact transpose_ix2_apply _ _ d j

/-- `main_v9` at the region's entry is `main_arg10` transposed (the change of format is the identity). -/
theorem V1_v9 (c : Dev nD) (d j : Fin 1024) :
    (V1 m ρ c main_v9 : S1024x1024.Idx → EReal) (ix2 d j) = ((m ((c : Thread nD τ).loc main_arg10)) : S1024x1024.Idx → EReal) (ix2 j d) := by
  have e : (V1 m ρ c main_v9 : S1024x1024.Idx → EReal)
      = (truncf (F := Ideal) .bf16 (transpose S1024x1024 [1, 0] (m ((c : Thread nD τ).loc main_arg10)) transposes_S1024x1024_S1024x1024_1_0) bitsLt_bf16_f32 : S1024x1024.Idx → EReal) := by
    show StableHlo.after hostOps0 (W0 m ρ c) (Proc.devRef .tc main_v9) = _
    after_results <;> rfl
  rw [e]
  exact transpose_ix2_apply _ _ d j

/-- `main_v11` at the region's entry is `main_arg12` transposed (the change of format is the identity). -/
theorem V1_v11 (c : Dev nD) (d j : Fin 1024) :
    (V1 m ρ c main_v11 : S1024x1024.Idx → EReal) (ix2 d j) = ((m ((c : Thread nD τ).loc main_arg12)) : S1024x1024.Idx → EReal) (ix2 j d) := by
  have e : (V1 m ρ c main_v11 : S1024x1024.Idx → EReal)
      = (truncf (F := Ideal) .bf16 (transpose S1024x1024 [1, 0] (m ((c : Thread nD τ).loc main_arg12)) transposes_S1024x1024_S1024x1024_1_0) bitsLt_bf16_f32 : S1024x1024.Idx → EReal) := by
    show StableHlo.after hostOps0 (W0 m ρ c) (Proc.devRef .tc main_v11) = _
    after_results <;> rfl
  rw [e]
  exact transpose_ix2_apply _ _ d j

/-- `main_v12` at the region's entry is `main_arg3` as one row. -/
theorem V1_v12 (c : Dev nD) (j : Fin 1024) :
    (V1 m ρ c main_v12 : S1x1024.Idx → EReal) (ix2 (0 : Fin 1) j) = ((m ((c : Thread nD τ).loc main_arg3)) : S1024.Idx → EReal) (ix1 j) := by
  have e : (V1 m ρ c main_v12 : S1x1024.Idx → EReal)
      = (shapeCast S1x1024 (m ((c : Thread nD τ).loc main_arg3)) shapeCasts_S1024_S1x1024 : S1x1024.Idx → EReal) := by
    show StableHlo.after hostOps0 (W0 m ρ c) (Proc.devRef .tc main_v12) = _
    after_results <;> rfl
  rw [e]
  exact shapeCast_a_1a_apply _ _ (0 : Fin 1) j

/-- `main_v13` at the region's entry is `main_arg5` as one row. -/
theorem V1_v13 (c : Dev nD) (j : Fin 1024) :
    (V1 m ρ c main_v13 : S1x1024.Idx → EReal) (ix2 (0 : Fin 1) j) = ((m ((c : Thread nD τ).loc main_arg5)) : S1024.Idx → EReal) (ix1 j) := by
  have e : (V1 m ρ c main_v13 : S1x1024.Idx → EReal)
      = (shapeCast S1x1024 (m ((c : Thread nD τ).loc main_arg5)) shapeCasts_S1024_S1x1024 : S1x1024.Idx → EReal) := by
    show StableHlo.after hostOps0 (W0 m ρ c) (Proc.devRef .tc main_v13) = _
    after_results <;> rfl
  rw [e]
  exact shapeCast_a_1a_apply _ _ (0 : Fin 1) j

/-- `main_v14` at the region's entry is `main_arg7` as one row. -/
theorem V1_v14 (c : Dev nD) (j : Fin 1024) :
    (V1 m ρ c main_v14 : S1x1024.Idx → EReal) (ix2 (0 : Fin 1) j) = ((m ((c : Thread nD τ).loc main_arg7)) : S1024.Idx → EReal) (ix1 j) := by
  have e : (V1 m ρ c main_v14 : S1x1024.Idx → EReal)
      = (shapeCast S1x1024 (m ((c : Thread nD τ).loc main_arg7)) shapeCasts_S1024_S1x1024 : S1x1024.Idx → EReal) := by
    show StableHlo.after hostOps0 (W0 m ρ c) (Proc.devRef .tc main_v14) = _
    after_results <;> rfl
  rw [e]
  exact shapeCast_a_1a_apply _ _ (0 : Fin 1) j

/-- `main_v15` at the region's entry is `main_arg9` as one row. -/
theorem V1_v15 (c : Dev nD) (j : Fin 1024) :
    (V1 m ρ c main_v15 : S1x1024.Idx → EReal) (ix2 (0 : Fin 1) j) = ((m ((c : Thread nD τ).loc main_arg9)) : S1024.Idx → EReal) (ix1 j) := by
  have e : (V1 m ρ c main_v15 : S1x1024.Idx → EReal)
      = (shapeCast S1x1024 (m ((c : Thread nD τ).loc main_arg9)) shapeCasts_S1024_S1x1024 : S1x1024.Idx → EReal) := by
    show StableHlo.after hostOps0 (W0 m ρ c) (Proc.devRef .tc main_v15) = _
    after_results <;> rfl
  rw [e]
  exact shapeCast_a_1a_apply _ _ (0 : Fin 1) j

/-- `main_v16` at the region's entry is `main_arg11` as one row. -/
theorem V1_v16 (c : Dev nD) (j : Fin 1024) :
    (V1 m ρ c main_v16 : S1x1024.Idx → EReal) (ix2 (0 : Fin 1) j) = ((m ((c : Thread nD τ).loc main_arg11)) : S1024.Idx → EReal) (ix1 j) := by
  have e : (V1 m ρ c main_v16 : S1x1024.Idx → EReal)
      = (shapeCast S1x1024 (m ((c : Thread nD τ).loc main_arg11)) shapeCasts_S1024_S1x1024 : S1x1024.Idx → EReal) := by
    show StableHlo.after hostOps0 (W0 m ρ c) (Proc.devRef .tc main_v16) = _
    after_results <;> rfl
  rw [e]
  exact shapeCast_a_1a_apply _ _ (0 : Fin 1) j

/-- `main_v17` at the region's entry is `main_arg13` as one row. -/
theorem V1_v17 (c : Dev nD) (j : Fin 1024) :
    (V1 m ρ c main_v17 : S1x1024.Idx → EReal) (ix2 (0 : Fin 1) j) = ((m ((c : Thread nD τ).loc main_arg13)) : S1024.Idx → EReal) (ix1 j) := by
  have e : (V1 m ρ c main_v17 : S1x1024.Idx → EReal)
      = (shapeCast S1x1024 (m ((c : Thread nD τ).loc main_arg13)) shapeCasts_S1024_S1x1024 : S1x1024.Idx → EReal) := by
    show StableHlo.after hostOps0 (W0 m ρ c) (Proc.devRef .tc main_v17) = _
    after_results <;> rfl
  rw [e]
  exact shapeCast_a_1a_apply _ _ (0 : Fin 1) j

/-- The forward attention the region leaves, as a function of the arguments. -/
theorem attnFw_entry (c : Dev nD) :
    attnFwArr (V1 m ρ) c = Attn.attnW Attn.keepFw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  unfold attnFwArr Attn.attnW
  simp only [V1_arg0 m ρ c, V1_v18 m ρ c, V1_v1 m ρ c, V1_v12 m ρ c, V1_v3 m ρ c, V1_v13 m ρ c, V1_v5 m ρ c, V1_v14 m ρ c]

/-- The backward attention the region leaves, as a function of the arguments. -/
theorem attnBw_entry (c : Dev nD) :
    attnBwArr (V1 m ρ) c = Attn.attnW Attn.keepBw (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  unfold attnBwArr Attn.attnW
  simp only [V1_arg0 m ρ c, V1_v18 m ρ c, V1_v7 m ρ c, V1_v15 m ρ c, V1_v9 m ρ c, V1_v16 m ρ c, V1_v11 m ρ c, V1_v17 m ρ c]

/-! ## The gate region's entry contents -/

/-- `main_arg14` is as launched when the second stretch of host operations starts. -/
theorem W2_arg14 (c : Dev nD) : W2 m ρ c (Proc.devRef .tc main_arg14) = (m ((c : Thread nD τ).loc main_arg14)) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg14)) := rfl

/-- `main_arg15` is as launched when the second stretch of host operations starts. -/
theorem W2_arg15 (c : Dev nD) : W2 m ρ c (Proc.devRef .tc main_arg15) = (m ((c : Thread nD τ).loc main_arg15)) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg15)) := rfl

/-- `main_arg16` is as launched when the second stretch of host operations starts. -/
theorem W2_arg16 (c : Dev nD) : W2 m ρ c (Proc.devRef .tc main_arg16) = (m ((c : Thread nD τ).loc main_arg16)) :=
  calc W2 m ρ c (Proc.devRef .tc main_arg16)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg16)) := rfl

/-- `main_arg17` is as launched when the second stretch of host operations starts. -/
theorem W2_arg17 (c : Dev nD) : W2 m ρ c (Proc.devRef .tc main_arg17) = (m ((c : Thread nD τ).loc main_arg17)) :=
  calc W2 m ρ c (Proc.devRef .tc main_arg17)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (m ((c : Thread nD τ).loc main_arg17)) := rfl

/-- The first attention array at the gate region's entry is what the attention region left: the forward attention. -/
theorem V3_v19_0 (hfw : PayFw) (c : Dev nD) :
    V3 m ρ c main_v19_0 = Attn.attnW Attn.keepFw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v19_0) = _
  refine (StableHlo.after_of_forall_not_mem (b := Proc.devRef .tc main_v19_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (W2_arr m ρ c 14).trans ?_
  rw [final14 (V1 m ρ) hfw c]
  exact attnFw_entry m ρ c

/-- The second attention array at the gate region's entry is the backward attention. -/
theorem V3_v19_1 (hbw : PayBw) (c : Dev nD) :
    V3 m ρ c main_v19_1 = Attn.attnW Attn.keepBw (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps1 (W2 m ρ c) (Proc.devRef .tc main_v19_1) = _
  refine (StableHlo.after_of_forall_not_mem (b := Proc.devRef .tc main_v19_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (W2_arr m ρ c 15).trans ?_
  rw [final15 (V1 m ρ) hbw c]
  exact attnBw_entry m ρ c

/-- The first half of the transposed gate weight: row `f`, column `j` is the gate weight at `(j, f)`. -/
theorem V3_v22 (c : Dev nD) (f j : Fin 1024) :
    (V3 m ρ c main_v22 : S1024x1024.Idx → EReal) (ix2 f j) = ((m ((c : Thread nD τ).loc main_arg14)) : S1024x2048.Idx → EReal) (ix2 j (Attn.lo f)) := by
  have e : (V3 m ρ c main_v22 : S1024x1024.Idx → EReal)
      = (extractStridedSlice S1024x1024 ![0, 0] (truncf (F := Ideal) .bf16 (transpose S2048x1024 [1, 0] (m ((c : Thread nD τ).loc main_arg14)) transposes_S1024x2048_S2048x1024_1_0) bitsLt_bf16_f32) slices_S2048x1024_S1024x1024_0_0 : S1024x1024.Idx → EReal) := by
    show StableHlo.after hostOps1 (W2 m ρ c) (Proc.devRef .tc main_v22) = _
    rw [← W2_arg14 m ρ c]
    after_results <;> rfl
  rw [e]
  refine (slice2_axis0_apply 0 _ _ f j (Attn.lo f) (Nat.zero_add _).symm).trans ?_
  exact transpose_ix2_apply _ _ (Attn.lo f) j

/-- The second half of the transposed gate weight: row `f`, column `j` is the gate weight at `(j, 1024 + f)`. -/
theorem V3_v23 (c : Dev nD) (f j : Fin 1024) :
    (V3 m ρ c main_v23 : S1024x1024.Idx → EReal) (ix2 f j) = ((m ((c : Thread nD τ).loc main_arg14)) : S1024x2048.Idx → EReal) (ix2 j (Attn.hi f)) := by
  have e : (V3 m ρ c main_v23 : S1024x1024.Idx → EReal)
      = (extractStridedSlice S1024x1024 ![1024, 0] (truncf (F := Ideal) .bf16 (transpose S2048x1024 [1, 0] (m ((c : Thread nD τ).loc main_arg14)) transposes_S1024x2048_S2048x1024_1_0) bitsLt_bf16_f32) slices_S2048x1024_S1024x1024_1024_0 : S1024x1024.Idx → EReal) := by
    show StableHlo.after hostOps1 (W2 m ρ c) (Proc.devRef .tc main_v23) = _
    rw [← W2_arg14 m ρ c]
    after_results <;> rfl
  rw [e]
  refine (slice2_axis0_apply 1024 _ _ f j (Attn.hi f) rfl).trans ?_
  exact transpose_ix2_apply _ _ (Attn.hi f) j

/-- The gate bias row at the region's entry. -/
theorem V3_v24 (c : Dev nD) (j : Fin 1024) :
    (V3 m ρ c main_v24 : S1x1024.Idx → EReal) (ix2 (0 : Fin 1) j) = ((m ((c : Thread nD τ).loc main_arg15)) : S1024.Idx → EReal) (ix1 j) := by
  have e : (V3 m ρ c main_v24 : S1x1024.Idx → EReal)
      = (shapeCast S1x1024 (m ((c : Thread nD τ).loc main_arg15)) shapeCasts_S1024_S1x1024 : S1x1024.Idx → EReal) := by
    show StableHlo.after hostOps1 (W2 m ρ c) (Proc.devRef .tc main_v24) = _
    rw [← W2_arg15 m ρ c]
    after_results <;> rfl
  rw [e]
  exact shapeCast_a_1a_apply _ _ (0 : Fin 1) j

/-- The transposed output weight at the region's entry. -/
theorem V3_v26 (c : Dev nD) (h j : Fin 1024) :
    (V3 m ρ c main_v26 : S1024x1024.Idx → EReal) (ix2 h j) = ((m ((c : Thread nD τ).loc main_arg16)) : S1024x1024.Idx → EReal) (ix2 j h) := by
  have e : (V3 m ρ c main_v26 : S1024x1024.Idx → EReal)
      = (truncf (F := Ideal) .bf16 (transpose S1024x1024 [1, 0] (m ((c : Thread nD τ).loc main_arg16)) transposes_S1024x1024_S1024x1024_1_0) bitsLt_bf16_f32 : S1024x1024.Idx → EReal) := by
    show StableHlo.after hostOps1 (W2 m ρ c) (Proc.devRef .tc main_v26) = _
    rw [← W2_arg16 m ρ c]
    after_results <;> rfl
  rw [e]
  exact transpose_ix2_apply _ _ h j

/-- The output bias row at the region's entry. -/
theorem V3_v27 (c : Dev nD) (j : Fin 1024) :
    (V3 m ρ c main_v27 : S1x1024.Idx → EReal) (ix2 (0 : Fin 1) j) = ((m ((c : Thread nD τ).loc main_arg17)) : S1024.Idx → EReal) (ix1 j) := by
  have e : (V3 m ρ c main_v27 : S1x1024.Idx → EReal)
      = (shapeCast S1x1024 (m ((c : Thread nD τ).loc main_arg17)) shapeCasts_S1024_S1x1024 : S1x1024.Idx → EReal) := by
    show StableHlo.after hostOps1 (W2 m ρ c) (Proc.devRef .tc main_v27) = _
    rw [← W2_arg17 m ρ c]
    after_results <;> rfl
  rw [e]
  exact shapeCast_a_1a_apply _ _ (0 : Fin 1) j

/-- The tokens the gate region leaves, as a function of the arguments. -/
theorem token_entry (hfw : PayFw) (hbw : PayBw) (c : Dev nD) :
    tokenArr (V3 m ρ) c = Attn.tokenW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  unfold tokenArr Attn.tokenW Attn.tokenOf
  simp only [V3_v19_0 m ρ hfw c, V3_v19_1 m ρ hbw c, V3_v22 m ρ c, V3_v23 m ρ c, V3_v24 m ρ c]

/-- The utterance vectors the gate region leaves (with their unit middle axis), as a function of the arguments. -/
theorem utter_entry (hfw : PayFw) (hbw : PayBw) (c : Dev nD) (b : Fin 32) (o : Fin 1024) :
    utterArr (V3 m ρ) c (ix3 b (0 : Fin 1) o) = Attn.utterW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix2 b o) := by
  unfold utterArr Attn.utterW Attn.utterOf Attn.tokenW Attn.tokenOf
  simp only [V3_v19_0 m ρ hfw c, V3_v19_1 m ρ hbw c, V3_v22 m ρ c, V3_v23 m ρ c, V3_v24 m ρ c, V3_v26 m ρ c, V3_v27 m ρ c]

/-! ## The two result buffers at the return -/

/-- The token result buffer ends at the tokens as a function of the arguments. -/
theorem W5_tokens (hfw : PayFw) (hbw : PayBw) (htok : PayToken) (c : Dev nD) :
    W5 m ρ c (Proc.devRef .tc main_v28_0) = Attn.tokenW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps2 (W4 m ρ c) (Proc.devRef .tc main_v28_0) = _
  refine (StableHlo.after_of_forall_not_mem (b := Proc.devRef .tc main_v28_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_
  refine (W4_arr m ρ c 7).trans ?_
  rw [final7 (V3 m ρ) htok c]
  exact token_entry m ρ hfw hbw c

/-- The utterance result buffer ends at the utterance vectors as a function of the arguments: the last host
    operation drops the unit middle axis of what the gate region wrote. -/
theorem W5_utter (hfw : PayFw) (hbw : PayBw) (hutt : PayUtter) (c : Dev nD) :
    (W5 m ρ c (Proc.devRef .tc main_v29) : S32x1024.Idx → EReal) = Attn.utterW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have e : (W5 m ρ c (Proc.devRef .tc main_v29) : S32x1024.Idx → EReal)
      = (shapeCast S32x1024 (utterArr (V3 m ρ) c) shapeCasts_S32x1x1024_S32x1024 : S32x1024.Idx → EReal) := by
    show StableHlo.after hostOps2 (W4 m ρ c) (Proc.devRef .tc main_v29) = _
    rw [← final8 (V3 m ρ) hutt c, ← W4_arr m ρ c 8]
    after_results <;> rfl
  rw [e]
  funext i
  obtain ⟨b, o, rfl⟩ : ∃ (b : Fin 32) (o : Fin 1024), i = (ix2 b o : S32x1024.Idx) := ⟨i 0, i 1, eq_ix2 i⟩
  refine (Cert.Lib.DenseLayer.shapeCast_a1b_ab_apply _ _ b o).trans ?_
  exact utter_entry m ρ hfw hbw c b o

end Cert.KernelIdeal.Host
end
-- ==== Proof.LibHostLine.lean ====
/-
  A straight line of host operations, each writing one buffer of its own: what a buffer holds at the end of the line.

  The buffers' contents after a line is the fold of the operations' results over the contents before it, so a line
  cut in two folds the second part over what the first leaves.  Suppose every operation of the line writes exactly
  one reference, and cut the line at one operation.  A reference that is none of those the part after the cut writes
  is written by none of its operations, so at the end of the line its buffer holds what it held right after the
  operation at the cut.  For the operation's own result this is the operation's function of what its operands'
  buffers held right before it; and when the operands too are written by nothing from the cut on (in particular are
  not the result), what they held right before the cut is what they hold at the end.  So at the END of the line

      result = f (operand₁ at the end) (operand₂ at the end) …

  for a constant, a one-, a two- and a three-operand operation.  A program in which every value has a buffer of its
  own, written once and after its operands, satisfies the conditions at every operation, and its buffers' final
  contents then follow one operation at a time, each from the earlier ones.
-/
import Idealize.ShloMosaic.Lib.StableHlo.Run

noncomputable section

namespace Cert.Lib.HostLine

open Idealize.ShloMosaic Idealize.ShloMosaic.StableHlo

variable {τ : Topo} {sig : RefSig} {Val : EltTy → Type}

variable {τ : Topo} {sig : RefSig} {Val : EltTy → Type}

/-- Operation by operation, the one reference each operation of a line writes. -/
abbrev WritesOne (l : List (HloOp τ sig Val)) (w : List (Ref sig .tc)) : Prop :=
  List.Forall₂ (fun op r => op.writes = {Proc.devRef (τ := τ) .tc r}) l w

/-- Two lines run one after the other: the second folds over what the first leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference that is none of those a line writes is written by none of its operations. -/
theorem not_written {l : List (HloOp τ sig Val)} {w : List (Ref sig .tc)} (h : WritesOne l w) :
    ∀ {r : Ref sig .tc}, r ∉ w → ∀ op ∈ l, Proc.devRef (τ := τ) .tc r ∉ op.writes := by
  induction h with
  | nil => intro r _ op hop; cases hop
  | @cons op' r' l' w' hab _ ih =>
    intro r hr op hop
    rcases List.mem_cons.mp hop with rfl | hop
    · rw [hab, Finset.mem_singleton]
      exact devRef_ne_of_ne fun e => hr (e ▸ List.mem_cons_self)
    · exact ih (fun hm => hr (List.mem_cons_of_mem _ hm)) op hop

/-- A buffer the rest of the line does not write holds at the end what it held after the operation at the cut. -/
theorem after_cut {l pre post : List (HloOp τ sig Val)} {op : HloOp τ sig Val} {wpost : List (Ref sig .tc)}
    (e : l = pre ++ op :: post) (hpost : WritesOne post wpost) (V : Valuation τ sig Val)
    {r : Ref sig .tc} (hr : r ∉ wpost) :
    after l V (Proc.devRef .tc r) = op.result (after pre V) (Proc.devRef .tc r) := by
  subst e
  rw [after_app, after_cons]
  exact after_of_forall_not_mem post _ (not_written hpost hr)

/-- A constant's buffer, not written again, holds the constant at the end. -/
theorem fin_nullary {l pre post : List (HloOp τ sig Val)} {wpost : List (Ref sig .tc)} (V : Valuation τ sig Val)
    (y : Ref sig .tc) (v : y.ty.Contents Val) (hy)
    (e : l = pre ++ nullary y v hy :: post) (hpost : WritesOne post wpost) (hy' : y ∉ wpost) :
    after l V (Proc.devRef .tc y) = v := by
  rw [after_cut e hpost V hy', nullary_result]

/-- A one-operand operation's buffer, not written again, holds at the end the operation's function of what the
    operand's buffer holds at the end, when nothing from the operation on writes the operand. -/
theorem fin_unary {l pre post : List (HloOp τ sig Val)} {wpost : List (Ref sig .tc)} (V : Valuation τ sig Val)
    (x y : Ref sig .tc) (f : x.ty.Contents Val → y.ty.Contents Val) (hx hy)
    (e : l = pre ++ unary x y f hx hy :: post) (hpost : WritesOne post wpost)
    (hy' : y ∉ wpost) (hx' : x ∉ y :: wpost) :
    after l V (Proc.devRef .tc y) = f (after l V (Proc.devRef .tc x)) := by
  have nx : x ≠ y := fun h => hx' (by rw [h]; exact List.mem_cons_self)
  rw [after_cut e hpost V hy', after_cut e hpost V (fun h => hx' (List.mem_cons_of_mem _ h)), unary_result,
    unary_result_ne x y f hx hy _ nx]

/-- The same for two operands. -/
theorem fin_binary {l pre post : List (HloOp τ sig Val)} {wpost : List (Ref sig .tc)} (V : Valuation τ sig Val)
    (a b y : Ref sig .tc) (f : a.ty.Contents Val → b.ty.Contents Val → y.ty.Contents Val) (ha hb hy)
    (e : l = pre ++ binary a b y f ha hb hy :: post) (hpost : WritesOne post wpost)
    (hy' : y ∉ wpost) (ha' : a ∉ y :: wpost) (hb' : b ∉ y :: wpost) :
    after l V (Proc.devRef .tc y) = f (after l V (Proc.devRef .tc a)) (after l V (Proc.devRef .tc b)) := by
  have na : a ≠ y := fun h => ha' (by rw [h]; exact List.mem_cons_self)
  have nb : b ≠ y := fun h => hb' (by rw [h]; exact List.mem_cons_self)
  rw [after_cut e hpost V hy', after_cut e hpost V (fun h => ha' (List.mem_cons_of_mem _ h)),
    after_cut e hpost V (fun h => hb' (List.mem_cons_of_mem _ h)), binary_result,
    binary_result_ne a b y f ha hb hy _ na, binary_result_ne a b y f ha hb hy _ nb]

/-- The same for three operands. -/
theorem fin_ternary {l pre post : List (HloOp τ sig Val)} {wpost : List (Ref sig .tc)} (V : Valuation τ sig Val)
    (c a b y : Ref sig .tc) (f : c.ty.Contents Val → a.ty.Contents Val → b.ty.Contents Val → y.ty.Contents Val) (hc ha hb hy)
    (e : l = pre ++ ternary c a b y f hc ha hb hy :: post) (hpost : WritesOne post wpost)
    (hy' : y ∉ wpost) (hc' : c ∉ y :: wpost) (ha' : a ∉ y :: wpost) (hb' : b ∉ y :: wpost) :
    after l V (Proc.devRef .tc y)
      = f (after l V (Proc.devRef .tc c)) (after l V (Proc.devRef .tc a)) (after l V (Proc.devRef .tc b)) := by
  have nc : c ≠ y := fun h => hc' (by rw [h]; exact List.mem_cons_self)
  have na : a ≠ y := fun h => ha' (by rw [h]; exact List.mem_cons_self)
  have nb : b ≠ y := fun h => hb' (by rw [h]; exact List.mem_cons_self)
  rw [after_cut e hpost V hy', after_cut e hpost V (fun h => hc' (List.mem_cons_of_mem _ h)),
    after_cut e hpost V (fun h => ha' (List.mem_cons_of_mem _ h)),
    after_cut e hpost V (fun h => hb' (List.mem_cons_of_mem _ h)), ternary_result,
    ternary_result_ne a b c y f hc ha hb hy _ nc, ternary_result_ne a b c y f hc ha hb hy _ na,
    ternary_result_ne a b c y f hc ha hb hy _ nb]

end Cert.Lib.HostLine

end
-- ==== Proof.RRun.lean ====
/-
  The reference's run, one operation at a time.

  The reference is a straight line of 121 operations, and every operation writes one buffer of its own, which no
  later operation writes again.  By the general facts about such a line, at the END of the line each buffer holds
  its operation's function of what the operands' buffers hold at the END of the line, and an argument's buffer,
  which no operation writes, holds what it held at the start.  Going through the operations in program order, each
  buffer's final contents is therefore the value the operation computes from the earlier values — the reference's
  value function of the arguments for that buffer — by substituting the operands' facts and one unfolding of the
  value function's definition.  The run's statement reads the two results and the eighteen arguments off these facts.
-/
import proofs.«181104_j38946763440234_1_alg».proof.Proof.RefOps
import proofs.«181104_j38946763440234_1_alg».proof.Proof.RefRead
import proofs.«181104_j38946763440234_1_alg».proof.Proof.LibHostLine

noncomputable section

namespace Cert.ReferenceIdeal.Ref

open Cert.ReferenceIdeal Cert.ReferenceIdeal.Gen Idealize.ShloMosaic Idealize.ShloMosaic.TcCoe Idealize.SL.Sem Idealize.ShloMosaic.StableHlo
open Cert.Lib.HostLine

/-! ## The reference's line -/

/-- The buffer each of the 121 operations writes, in program order. -/
abbrev wl : List (Ref sig .tc) :=
  [main_v0, main_v1, main_v2, main_v3, main_c, main_v4, main_call0_v0, main_call0_c, main_call0_v1, main_call0_v2, main_call0_v3, main_call0_v4, main_call0_c_0, main_call0_v5, main_v5, main_v6, main_v7, main_v8, main_v9, main_v10, main_v11, main_v12, main_v13, main_v14, main_v15, main_v16, main_v17, main_v18, main_cst, main_v19, main_v20, main_v21, main_v22, main_cst_0, main_call1_v0, main_call1_v1, main_call1_v2, main_v23, main_cst_1, main_v24, main_cst_2, main_v25, main_v26, main_v27, main_v28, main_v29, main_v30, main_cst_3, main_v31, main_v32, main_v33, main_v34, main_v35, main_v36, main_v37, main_v38, main_v39, main_v40, main_v41, main_v42, main_v43, main_v44, main_v45, main_v46, main_v47, main_v48, main_v49, main_cst_4, main_v50, main_v51, main_v52, main_v53, main_cst_5, main_call2_v0, main_call2_v1, main_call2_v2, main_v54, main_cst_6, main_v55, main_cst_7, main_v56, main_v57, main_v58, main_v59, main_v60, main_v61, main_cst_8, main_v62, main_v63, main_v64, main_v65, main_v66, main_v67, main_v68, main_v69, main_v70, main_v71, main_v72, main_v73, main_cst_9, main_v74, main_v75, main_cst_10, main_v76, main_v77, main_v78, main_cst_11, main_v79, main_v80, main_v81, main_v82, main_cst_12, main_v83, main_cst_13, main_v84, main_v85, main_v86, main_v87, main_v88, main_v89, main_v90]

theorem writesOne : WritesOne (τ := τ) (ValueP.ops (F := Ideal)) wl := by
  repeat (first | exact List.Forall₂.nil | refine List.Forall₂.cons rfl ?_)

variable (V : Valuation τ sig (Elt Ideal))

theorem r_main_arg0 : after ValueP.ops V (Proc.devRef .tc main_arg0) = V (Proc.devRef .tc main_arg0) :=
  after_of_forall_not_mem _ V (not_written writesOne (by decide))
theorem r_main_arg1 : after ValueP.ops V (Proc.devRef .tc main_arg1) = V (Proc.devRef .tc main_arg1) :=
  after_of_forall_not_mem _ V (not_written writesOne (by decide))
theorem r_main_arg2 : after ValueP.ops V (Proc.devRef .tc main_arg2) = V (Proc.devRef .tc main_arg2) :=
  after_of_forall_not_mem _ V (not_written writesOne (by decide))
theorem r_main_arg3 : after ValueP.ops V (Proc.devRef .tc main_arg3) = V (Proc.devRef .tc main_arg3) :=
  after_of_forall_not_mem _ V (not_written writesOne (by decide))
theorem r_main_arg4 : after ValueP.ops V (Proc.devRef .tc main_arg4) = V (Proc.devRef .tc main_arg4) :=
  after_of_forall_not_mem _ V (not_written writesOne (by decide))
theorem r_main_arg5 : after ValueP.ops V (Proc.devRef .tc main_arg5) = V (Proc.devRef .tc main_arg5) :=
  after_of_forall_not_mem _ V (not_written writesOne (by decide))
theorem r_main_arg6 : after ValueP.ops V (Proc.devRef .tc main_arg6) = V (Proc.devRef .tc main_arg6) :=
  after_of_forall_not_mem _ V (not_written writesOne (by decide))
theorem r_main_arg7 : after ValueP.ops V (Proc.devRef .tc main_arg7) = V (Proc.devRef .tc main_arg7) :=
  after_of_forall_not_mem _ V (not_written writesOne (by decide))
theorem r_main_arg8 : after ValueP.ops V (Proc.devRef .tc main_arg8) = V (Proc.devRef .tc main_arg8) :=
  after_of_forall_not_mem _ V (not_written writesOne (by decide))
theorem r_main_arg9 : after ValueP.ops V (Proc.devRef .tc main_arg9) = V (Proc.devRef .tc main_arg9) :=
  after_of_forall_not_mem _ V (not_written writesOne (by decide))
theorem r_main_arg10 : after ValueP.ops V (Proc.devRef .tc main_arg10) = V (Proc.devRef .tc main_arg10) :=
  after_of_forall_not_mem _ V (not_written writesOne (by decide))
theorem r_main_arg11 : after ValueP.ops V (Proc.devRef .tc main_arg11) = V (Proc.devRef .tc main_arg11) :=
  after_of_forall_not_mem _ V (not_written writesOne (by decide))
theorem r_main_arg12 : after ValueP.ops V (Proc.devRef .tc main_arg12) = V (Proc.devRef .tc main_arg12) :=
  after_of_forall_not_mem _ V (not_written writesOne (by decide))
theorem r_main_arg13 : after ValueP.ops V (Proc.devRef .tc main_arg13) = V (Proc.devRef .tc main_arg13) :=
  after_of_forall_not_mem _ V (not_written writesOne (by decide))
theorem r_main_arg14 : after ValueP.ops V (Proc.devRef .tc main_arg14) = V (Proc.devRef .tc main_arg14) :=
  after_of_forall_not_mem _ V (not_written writesOne (by decide))
theorem r_main_arg15 : after ValueP.ops V (Proc.devRef .tc main_arg15) = V (Proc.devRef .tc main_arg15) :=
  after_of_forall_not_mem _ V (not_written writesOne (by decide))
theorem r_main_arg16 : after ValueP.ops V (Proc.devRef .tc main_arg16) = V (Proc.devRef .tc main_arg16) :=
  after_of_forall_not_mem _ V (not_written writesOne (by decide))
theorem r_main_arg17 : after ValueP.ops V (Proc.devRef .tc main_arg17) = V (Proc.devRef .tc main_arg17) :=
  after_of_forall_not_mem _ V (not_written writesOne (by decide))
theorem r_main_v0 : after ValueP.ops V (Proc.devRef .tc main_v0) = ReadP.val_main_v0 (F := Ideal) (V (Proc.devRef .tc main_arg1)) :=
  (fin_unary (l := ValueP.ops) (pre := ValueP.ops.take 0) (post := ValueP.ops.drop 1) V main_arg1 main_v0 _ _ _ rfl
    (List.forall₂_drop 1 writesOne) (by decide) (by decide)).trans (by rw [r_main_arg1 V]; rfl)
theorem r_main_v1 : after ValueP.ops V (Proc.devRef .tc main_v1) = ReadP.val_main_v1 (F := Ideal) (V (Proc.devRef .tc main_arg1)) :=
  (fin_unary (l := ValueP.ops) (pre := ValueP.ops.take 1) (post := ValueP.ops.drop 2) V main_v0 main_v1 _ _ _ rfl
    (List.forall₂_drop 2 writesOne) (by decide) (by decide)).trans (by rw [r_main_v0 V]; rfl)
theorem r_main_v2 : after ValueP.ops V (Proc.devRef .tc main_v2) = ReadP.val_main_v2 (F := Ideal) (V (Proc.devRef .tc main_arg1)) :=
  (fin_unary (l := ValueP.ops) (pre := ValueP.ops.take 2) (post := ValueP.ops.drop 3) V main_v1 main_v2 _ _ _ rfl
    (List.forall₂_drop 3 writesOne) (by decide) (by decide)).trans (by rw [r_main_v1 V]; rfl)
theorem r_main_v3 : after ValueP.ops V (Proc.devRef .tc main_v3) = ReadP.val_main_v3 (F := Ideal) (V (Proc.devRef .tc main_arg0)) (V (Proc.devRef .tc main_arg1)) :=
  (fin_binary (l := ValueP.ops) (pre := ValueP.ops.take 3) (post := ValueP.ops.drop 4) V main_arg0 main_v2 main_v3 _ _ _ _ rfl
    (List.forall₂_drop 4 writesOne) (by decide) (by decide) (by decide)).trans (by rw [r_main_arg0 V, r_main_v2 V]; rfl)
theorem r_main_c : after ValueP.ops V (Proc.devRef .tc main_c) = ReadP.val_main_c (F := Ideal) :=
  (fin_nullary (l := ValueP.ops) (pre := ValueP.ops.take 4) (post := ValueP.ops.drop 5) V main_c _ _ rfl
    (List.forall₂_drop 5 writesOne) (by decide)).trans rfl
theorem r_main_v4 : after ValueP.ops V (Proc.devRef .tc main_v4) = ReadP.val_main_v4 (F := Ideal) :=
  (fin_unary (l := ValueP.ops) (pre := ValueP.ops.take 5) (post := ValueP.ops.drop 6) V main_c main_v4 _ _ _ rfl
    (List.forall₂_drop 6 writesOne) (by decide) (by decide)).trans (by rw [r_main_c V]; rfl)
theorem r_main_call0_v0 : after ValueP.ops V (Proc.devRef .tc main_call0_v0) = ReadP.val_main_call0_v0 (F := Ideal) :=
  (fin_nullary (l := ValueP.ops) (pre := ValueP.ops.take 6) (post := ValueP.ops.drop 7) V main_call0_v0 _ _ rfl
    (List.forall₂_drop 7 writesOne) (by decide)).trans rfl
theorem r_main_call0_c : after ValueP.ops V (Proc.devRef .tc main_call0_c) = ReadP.val_main_call0_c (F := Ideal) :=
  (fin_nullary (l := ValueP.ops) (pre := ValueP.ops.take 7) (post := ValueP.ops.drop 8) V main_call0_c _ _ rfl
    (List.forall₂_drop 8 writesOne) (by decide)).trans rfl
theorem r_main_call0_v1 : after ValueP.ops V (Proc.devRef .tc main_call0_v1) = ReadP.val_main_call0_v1 (F := Ideal) :=
  (fin_unary (l := ValueP.ops) (pre := ValueP.ops.take 8) (post := ValueP.ops.drop 9) V main_call0_c main_call0_v1 _ _ _ rfl
    (List.forall₂_drop 9 writesOne) (by decide) (by decide)).trans (by rw [r_main_call0_c V]; rfl)
theorem r_main_call0_v2 : after ValueP.ops V (Proc.devRef .tc main_call0_v2) = ReadP.val_main_call0_v2 (F := Ideal) :=
  (fin_binary (l := ValueP.ops) (pre := ValueP.ops.take 9) (post := ValueP.ops.drop 10) V main_call0_v0 main_call0_v1 main_call0_v2 _ _ _ _ rfl
    (List.forall₂_drop 10 writesOne) (by decide) (by decide) (by decide)).trans (by rw [r_main_call0_v0 V, r_main_call0_v1 V]; rfl)
theorem r_main_call0_v3 : after ValueP.ops V (Proc.devRef .tc main_call0_v3) = ReadP.val_main_call0_v3 (F := Ideal) :=
  (fin_nullary (l := ValueP.ops) (pre := ValueP.ops.take 10) (post := ValueP.ops.drop 11) V main_call0_v3 _ _ rfl
    (List.forall₂_drop 11 writesOne) (by decide)).trans rfl
theorem r_main_call0_v4 : after ValueP.ops V (Proc.devRef .tc main_call0_v4) = ReadP.val_main_call0_v4 (F := Ideal) :=
  (fin_binary (l := ValueP.ops) (pre := ValueP.ops.take 11) (post := ValueP.ops.drop 12) V main_call0_v2 main_call0_v3 main_call0_v4 _ _ _ _ rfl
    (List.forall₂_drop 12 writesOne) (by decide) (by decide) (by decide)).trans (by rw [r_main_call0_v2 V, r_main_call0_v3 V]; rfl)
theorem r_main_call0_c_0 : after ValueP.ops V (Proc.devRef .tc main_call0_c_0) = ReadP.val_main_call0_c_0 (F := Ideal) :=
  (fin_nullary (l := ValueP.ops) (pre := ValueP.ops.take 12) (post := ValueP.ops.drop 13) V main_call0_c_0 _ _ rfl
    (List.forall₂_drop 13 writesOne) (by decide)).trans rfl
theorem r_main_call0_v5 : after ValueP.ops V (Proc.devRef .tc main_call0_v5) = ReadP.val_main_call0_v5 (F := Ideal) :=
  (fin_unary (l := ValueP.ops) (pre := ValueP.ops.take 13) (post := ValueP.ops.drop 14) V main_call0_c_0 main_call0_v5 _ _ _ rfl
    (List.forall₂_drop 14 writesOne) (by decide) (by decide)).trans (by rw [r_main_call0_c_0 V]; rfl)
theorem r_main_v5 : after ValueP.ops V (Proc.devRef .tc main_v5) = ReadP.val_main_v5 (F := Ideal) :=
  (fin_ternary (l := ValueP.ops) (pre := ValueP.ops.take 14) (post := ValueP.ops.drop 15) V main_call0_v4 main_v4 main_call0_v5 main_v5 _ _ _ _ _ rfl
    (List.forall₂_drop 15 writesOne) (by decide) (by decide) (by decide) (by decide)).trans (by rw [r_main_call0_v4 V, r_main_v4 V, r_main_call0_v5 V]; rfl)
theorem r_main_v6 : after ValueP.ops V (Proc.devRef .tc main_v6) = ReadP.val_main_v6 (F := Ideal) (V (Proc.devRef .tc main_arg0)) (V (Proc.devRef .tc main_arg1)) (V (Proc.devRef .tc main_arg2)) :=
  (fin_binary (l := ValueP.ops) (pre := ValueP.ops.take 15) (post := ValueP.ops.drop 16) V main_v3 main_arg2 main_v6 _ _ _ _ rfl
    (List.forall₂_drop 16 writesOne) (by decide) (by decide) (by decide)).trans (by rw [r_main_v3 V, r_main_arg2 V]; rfl)
theorem r_main_v7 : after ValueP.ops V (Proc.devRef .tc main_v7) = ReadP.val_main_v7 (F := Ideal) (V (Proc.devRef .tc main_arg3)) :=
  (fin_unary (l := ValueP.ops) (pre := ValueP.ops.take 16) (post := ValueP.ops.drop 17) V main_arg3 main_v7 _ _ _ rfl
    (List.forall₂_drop 17 writesOne) (by decide) (by decide)).trans (by rw [r_main_arg3 V]; rfl)
theorem r_main_v8 : after ValueP.ops V (Proc.devRef .tc main_v8) = ReadP.val_main_v8 (F := Ideal) (V (Proc.devRef .tc main_arg3)) :=
  (fin_unary (l := ValueP.ops) (pre := ValueP.ops.take 17) (post := ValueP.ops.drop 18) V main_v7 main_v8 _ _ _ rfl
    (List.forall₂_drop 18 writesOne) (by decide) (by decide)).trans (by rw [r_main_v7 V]; rfl)
theorem r_main_v9 : after ValueP.ops V (Proc.devRef .tc main_v9) = ReadP.val_main_v9 (F := Ideal) (V (Proc.devRef .tc main_arg0)) (V (Proc.devRef .tc main_arg1)) (V (Proc.devRef .tc main_arg2)) (V (Proc.devRef .tc main_arg3)) :=
  (fin_binary (l := ValueP.ops) (pre := ValueP.ops.take 18) (post := ValueP.ops.drop 19) V main_v6 main_v8 main_v9 _ _ _ _ rfl
    (List.forall₂_drop 19 writesOne) (by decide) (by decide) (by decide)).trans (by rw [r_main_v6 V, r_main_v8 V]; rfl)
theorem r_main_v10 : after ValueP.ops V (Proc.devRef .tc main_v10) = ReadP.val_main_v10 (F := Ideal) (V (Proc.devRef .tc main_arg0)) (V (Proc.devRef .tc main_arg1)) (V (Proc.devRef .tc main_arg4)) :=
  (fin_binary (l := ValueP.ops) (pre := ValueP.ops.take 19) (post := ValueP.ops.drop 20) V main_v3 main_arg4 main_v10 _ _ _ _ rfl
    (List.forall₂_drop 20 writesOne) (by decide) (by decide) (by decide)).trans (by rw [r_main_v3 V, r_main_arg4 V]; rfl)
theorem r_main_v11 : after ValueP.ops V (Proc.devRef .tc main_v11) = ReadP.val_main_v11 (F := Ideal) (V (Proc.devRef .tc main_arg5)) :=
  (fin_unary (l := ValueP.ops) (pre := ValueP.ops.take 20) (post := ValueP.ops.drop 21) V main_arg5 main_v11 _ _ _ rfl
    (List.forall₂_drop 21 writesOne) (by decide) (by decide)).trans (by rw [r_main_arg5 V]; rfl)
theorem r_main_v12 : after ValueP.ops V (Proc.devRef .tc main_v12) = ReadP.val_main_v12 (F := Ideal) (V (Proc.devRef .tc main_arg5)) :=
  (fin_unary (l := ValueP.ops) (pre := ValueP.ops.take 21) (post := ValueP.ops.drop 22) V main_v11 main_v12 _ _ _ rfl
    (List.forall₂_drop 22 writesOne) (by decide) (by decide)).trans (by rw [r_main_v11 V]; rfl)
theorem r_main_v13 : after ValueP.ops V (Proc.devRef .tc main_v13) = ReadP.val_main_v13 (F := Ideal) (V (Proc.devRef .tc main_arg0)) (V (Proc.devRef .tc main_arg1)) (V (Proc.devRef .tc main_arg4)) (V (Proc.devRef .tc main_arg5)) :=
  (fin_binary (l := ValueP.ops) (pre := ValueP.ops.take 22) (post := ValueP.ops.drop 23) V main_v10 main_v12 main_v13 _ _ _ _ rfl
    (List.forall₂_drop 23 writesOne) (by decide) (by decide) (by decide)).trans (by rw [r_main_v10 V, r_main_v12 V]; rfl)
theorem r_main_v14 : after ValueP.ops V (Proc.devRef .tc main_v14) = ReadP.val_main_v14 (F := Ideal) (V (Proc.devRef .tc main_arg0)) (V (Proc.devRef .tc main_arg1)) (V (Proc.devRef .tc main_arg6)) :=
  (fin_binary (l := ValueP.ops) (pre := ValueP.ops.take 23) (post := ValueP.ops.drop 24) V main_v3 main_arg6 main_v14 _ _ _ _ rfl
    (List.forall₂_drop 24 writesOne) (by decide) (by decide) (by decide)).trans (by rw [r_main_v3 V, r_main_arg6 V]; rfl)
theorem r_main_v15 : after ValueP.ops V (Proc.devRef .tc main_v15) = ReadP.val_main_v15 (F := Ideal) (V (Proc.devRef .tc main_arg7)) :=
  (fin_unary (l := ValueP.ops) (pre := ValueP.ops.take 24) (post := ValueP.ops.drop 25) V main_arg7 main_v15 _ _ _ rfl
    (List.forall₂_drop 25 writesOne) (by decide) (by decide)).trans (by rw [r_main_arg7 V]; rfl)
theorem r_main_v16 : after ValueP.ops V (Proc.devRef .tc main_v16) = ReadP.val_main_v16 (F := Ideal) (V (Proc.devRef .tc main_arg7)) :=
  (fin_unary (l := ValueP.ops) (pre := ValueP.ops.take 25) (post := ValueP.ops.drop 26) V main_v15 main_v16 _ _ _ rfl
    (List.forall₂_drop 26 writesOne) (by decide) (by decide)).trans (by rw [r_main_v15 V]; rfl)
theorem r_main_v17 : after ValueP.ops V (Proc.devRef .tc main_v17) = ReadP.val_main_v17 (F := Ideal) (V (Proc.devRef .tc main_arg0)) (V (Proc.devRef .tc main_arg1)) (V (Proc.devRef .tc main_arg6)) (V (Proc.devRef .tc main_arg7)) :=
  (fin_binary (l := ValueP.ops) (pre := ValueP.ops.take 26) (post := ValueP.ops.drop 27) V main_v14 main_v16 main_v17 _ _ _ _ rfl
    (List.forall₂_drop 27 writesOne) (by decide) (by decide) (by decide)).trans (by rw [r_main_v14 V, r_main_v16 V]; rfl)
theorem r_main_v18 : after ValueP.ops V (Proc.devRef .tc main_v18) = ReadP.val_main_v18 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_binary (l := ValueP.ops) (pre := ValueP.ops.take 27) (post := ValueP.ops.drop 28) V main_v9 main_v13 main_v18 _ _ _ _ rfl
    (List.forall₂_drop 28 writesOne) (by decide) (by decide) (by decide)).trans (by rw [r_main_v9 V, r_main_v13 V]; rfl)
theorem r_main_cst : after ValueP.ops V (Proc.devRef .tc main_cst) = ReadP.val_main_cst (F := Ideal) :=
  (fin_nullary (l := ValueP.ops) (pre := ValueP.ops.take 28) (post := ValueP.ops.drop 29) V main_cst _ _ rfl
    (List.forall₂_drop 29 writesOne) (by decide)).trans rfl
theorem r_main_v19 : after ValueP.ops V (Proc.devRef .tc main_v19) = ReadP.val_main_v19 (F := Ideal) :=
  (fin_unary (l := ValueP.ops) (pre := ValueP.ops.take 29) (post := ValueP.ops.drop 30) V main_cst main_v19 _ _ _ rfl
    (List.forall₂_drop 30 writesOne) (by decide) (by decide)).trans (by rw [r_main_cst V]; rfl)
theorem r_main_v20 : after ValueP.ops V (Proc.devRef .tc main_v20) = ReadP.val_main_v20 (F := Ideal) :=
  (fin_unary (l := ValueP.ops) (pre := ValueP.ops.take 30) (post := ValueP.ops.drop 31) V main_v19 main_v20 _ _ _ rfl
    (List.forall₂_drop 31 writesOne) (by decide) (by decide)).trans (by rw [r_main_v19 V]; rfl)
theorem r_main_v21 : after ValueP.ops V (Proc.devRef .tc main_v21) = ReadP.val_main_v21 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_binary (l := ValueP.ops) (pre := ValueP.ops.take 31) (post := ValueP.ops.drop 32) V main_v18 main_v20 main_v21 _ _ _ _ rfl
    (List.forall₂_drop 32 writesOne) (by decide) (by decide) (by decide)).trans (by rw [r_main_v18 V, r_main_v20 V]; rfl)
theorem r_main_v22 : after ValueP.ops V (Proc.devRef .tc main_v22) = ReadP.val_main_v22 (F := Ideal) :=
  (fin_unary (l := ValueP.ops) (pre := ValueP.ops.take 32) (post := ValueP.ops.drop 33) V main_v5 main_v22 _ _ _ rfl
    (List.forall₂_drop 33 writesOne) (by decide) (by decide)).trans (by rw [r_main_v5 V]; rfl)
theorem r_main_cst_0 : after ValueP.ops V (Proc.devRef .tc main_cst_0) = ReadP.val_main_cst_0 (F := Ideal) :=
  (fin_nullary (l := ValueP.ops) (pre := ValueP.ops.take 33) (post := ValueP.ops.drop 34) V main_cst_0 _ _ rfl
    (List.forall₂_drop 34 writesOne) (by decide)).trans rfl
theorem r_main_call1_v0 : after ValueP.ops V (Proc.devRef .tc main_call1_v0) = ReadP.val_main_call1_v0 (F := Ideal) :=
  (fin_unary (l := ValueP.ops) (pre := ValueP.ops.take 34) (post := ValueP.ops.drop 35) V main_cst_0 main_call1_v0 _ _ _ rfl
    (List.forall₂_drop 35 writesOne) (by decide) (by decide)).trans (by rw [r_main_cst_0 V]; rfl)
theorem r_main_call1_v1 : after ValueP.ops V (Proc.devRef .tc main_call1_v1) = ReadP.val_main_call1_v1 (F := Ideal) :=
  (fin_unary (l := ValueP.ops) (pre := ValueP.ops.take 35) (post := ValueP.ops.drop 36) V main_v22 main_call1_v1 _ _ _ rfl
    (List.forall₂_drop 36 writesOne) (by decide) (by decide)).trans (by rw [r_main_v22 V]; rfl)
theorem r_main_call1_v2 : after ValueP.ops V (Proc.devRef .tc main_call1_v2) = ReadP.val_main_call1_v2 (F := Ideal) :=
  (fin_unary (l := ValueP.ops) (pre := ValueP.ops.take 36) (post := ValueP.ops.drop 37) V main_call1_v0 main_call1_v2 _ _ _ rfl
    (List.forall₂_drop 37 writesOne) (by decide) (by decide)).trans (by rw [r_main_call1_v0 V]; rfl)
theorem r_main_v23 : after ValueP.ops V (Proc.devRef .tc main_v23) = ReadP.val_main_v23 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_ternary (l := ValueP.ops) (pre := ValueP.ops.take 37) (post := ValueP.ops.drop 38) V main_call1_v1 main_v21 main_call1_v2 main_v23 _ _ _ _ _ rfl
    (List.forall₂_drop 38 writesOne) (by decide) (by decide) (by decide) (by decide)).trans (by rw [r_main_call1_v1 V, r_main_v21 V, r_main_call1_v2 V]; rfl)
theorem r_main_cst_1 : after ValueP.ops V (Proc.devRef .tc main_cst_1) = ReadP.val_main_cst_1 (F := Ideal) :=
  (fin_nullary (l := ValueP.ops) (pre := ValueP.ops.take 38) (post := ValueP.ops.drop 39) V main_cst_1 _ _ rfl
    (List.forall₂_drop 39 writesOne) (by decide)).trans rfl
theorem r_main_v24 : after ValueP.ops V (Proc.devRef .tc main_v24) = ReadP.val_main_v24 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_binary (l := ValueP.ops) (pre := ValueP.ops.take 39) (post := ValueP.ops.drop 40) V main_v23 main_cst_1 main_v24 _ _ _ _ rfl
    (List.forall₂_drop 40 writesOne) (by decide) (by decide) (by decide)).trans (by rw [r_main_v23 V, r_main_cst_1 V]; rfl)
theorem r_main_cst_2 : after ValueP.ops V (Proc.devRef .tc main_cst_2) = ReadP.val_main_cst_2 (F := Ideal) :=
  (fin_nullary (l := ValueP.ops) (pre := ValueP.ops.take 40) (post := ValueP.ops.drop 41) V main_cst_2 _ _ rfl
    (List.forall₂_drop 41 writesOne) (by decide)).trans rfl
theorem r_main_v25 : after ValueP.ops V (Proc.devRef .tc main_v25) = ReadP.val_main_v25 (F := Ideal) :=
  (fin_unary (l := ValueP.ops) (pre := ValueP.ops.take 41) (post := ValueP.ops.drop 42) V main_cst_2 main_v25 _ _ _ rfl
    (List.forall₂_drop 42 writesOne) (by decide) (by decide)).trans (by rw [r_main_cst_2 V]; rfl)
theorem r_main_v26 : after ValueP.ops V (Proc.devRef .tc main_v26) = ReadP.val_main_v26 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_binary (l := ValueP.ops) (pre := ValueP.ops.take 42) (post := ValueP.ops.drop 43) V main_v25 main_v24 main_v26 _ _ _ _ rfl
    (List.forall₂_drop 43 writesOne) (by decide) (by decide) (by decide)).trans (by rw [r_main_v25 V, r_main_v24 V]; rfl)
theorem r_main_v27 : after ValueP.ops V (Proc.devRef .tc main_v27) = ReadP.val_main_v27 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_unary (l := ValueP.ops) (pre := ValueP.ops.take 43) (post := ValueP.ops.drop 44) V main_v26 main_v27 _ _ _ rfl
    (List.forall₂_drop 44 writesOne) (by decide) (by decide)).trans (by rw [r_main_v26 V]; rfl)
theorem r_main_v28 : after ValueP.ops V (Proc.devRef .tc main_v28) = ReadP.val_main_v28 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_unary (l := ValueP.ops) (pre := ValueP.ops.take 44) (post := ValueP.ops.drop 45) V main_v27 main_v28 _ _ _ rfl
    (List.forall₂_drop 45 writesOne) (by decide) (by decide)).trans (by rw [r_main_v27 V]; rfl)
theorem r_main_v29 : after ValueP.ops V (Proc.devRef .tc main_v29) = ReadP.val_main_v29 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_binary (l := ValueP.ops) (pre := ValueP.ops.take 45) (post := ValueP.ops.drop 46) V main_v23 main_v28 main_v29 _ _ _ _ rfl
    (List.forall₂_drop 46 writesOne) (by decide) (by decide) (by decide)).trans (by rw [r_main_v23 V, r_main_v28 V]; rfl)
theorem r_main_v30 : after ValueP.ops V (Proc.devRef .tc main_v30) = ReadP.val_main_v30 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_unary (l := ValueP.ops) (pre := ValueP.ops.take 46) (post := ValueP.ops.drop 47) V main_v29 main_v30 _ _ _ rfl
    (List.forall₂_drop 47 writesOne) (by decide) (by decide)).trans (by rw [r_main_v29 V]; rfl)
theorem r_main_cst_3 : after ValueP.ops V (Proc.devRef .tc main_cst_3) = ReadP.val_main_cst_3 (F := Ideal) :=
  (fin_nullary (l := ValueP.ops) (pre := ValueP.ops.take 47) (post := ValueP.ops.drop 48) V main_cst_3 _ _ rfl
    (List.forall₂_drop 48 writesOne) (by decide)).trans rfl
theorem r_main_v31 : after ValueP.ops V (Proc.devRef .tc main_v31) = ReadP.val_main_v31 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_binary (l := ValueP.ops) (pre := ValueP.ops.take 48) (post := ValueP.ops.drop 49) V main_v30 main_cst_3 main_v31 _ _ _ _ rfl
    (List.forall₂_drop 49 writesOne) (by decide) (by decide) (by decide)).trans (by rw [r_main_v30 V, r_main_cst_3 V]; rfl)
theorem r_main_v32 : after ValueP.ops V (Proc.devRef .tc main_v32) = ReadP.val_main_v32 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_unary (l := ValueP.ops) (pre := ValueP.ops.take 49) (post := ValueP.ops.drop 50) V main_v31 main_v32 _ _ _ rfl
    (List.forall₂_drop 50 writesOne) (by decide) (by decide)).trans (by rw [r_main_v31 V]; rfl)
theorem r_main_v33 : after ValueP.ops V (Proc.devRef .tc main_v33) = ReadP.val_main_v33 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_unary (l := ValueP.ops) (pre := ValueP.ops.take 50) (post := ValueP.ops.drop 51) V main_v32 main_v33 _ _ _ rfl
    (List.forall₂_drop 51 writesOne) (by decide) (by decide)).trans (by rw [r_main_v32 V]; rfl)
theorem r_main_v34 : after ValueP.ops V (Proc.devRef .tc main_v34) = ReadP.val_main_v34 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (fin_binary (l := ValueP.ops) (pre := ValueP.ops.take 51) (post := ValueP.ops.drop 52) V main_v30 main_v33 main_v34 _ _ _ _ rfl
    (List.forall₂_drop 52 writesOne) (by decide) (by decide) (by decide)).trans (by rw [r_main_v30 V, r_main_v33 V]; rfl)
theorem r_main_v35 : after ValueP.ops V (Proc.devRef .tc main_v35) = ReadP.val_main_v35 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (fin_binary (l := ValueP.ops) (pre := ValueP.ops.take 52) (post := ValueP.ops.drop 53) V main_v34 main_v17 main_v35 _ _ _ _ rfl
    (List.forall₂_drop 53 writesOne) (by decide) (by decide) (by decide)).trans (by rw [r_main_v34 V, r_main_v17 V]; rfl)
theorem r_main_v36 : after ValueP.ops V (Proc.devRef .tc main_v36) = ReadP.val_main_v36 (F := Ideal) :=
  (fin_unary (l := ValueP.ops) (pre := ValueP.ops.take 53) (post := ValueP.ops.drop 54) V main_v5 main_v36 _ _ _ rfl
    (List.forall₂_drop 54 writesOne) (by decide) (by decide)).trans (by rw [r_main_v5 V]; rfl)
theorem r_main_v37 : after ValueP.ops V (Proc.devRef .tc main_v37) = ReadP.val_main_v37 (F := Ideal) (V (Proc.devRef .tc main_arg0)) (V (Proc.devRef .tc main_arg1)) (V (Proc.devRef .tc main_arg8)) :=
  (fin_binary (l := ValueP.ops) (pre := ValueP.ops.take 54) (post := ValueP.ops.drop 55) V main_v3 main_arg8 main_v37 _ _ _ _ rfl
    (List.forall₂_drop 55 writesOne) (by decide) (by decide) (by decide)).trans (by rw [r_main_v3 V, r_main_arg8 V]; rfl)
theorem r_main_v38 : after ValueP.ops V (Proc.devRef .tc main_v38) = ReadP.val_main_v38 (F := Ideal) (V (Proc.devRef .tc main_arg9)) :=
  (fin_unary (l := ValueP.ops) (pre := ValueP.ops.take 55) (post := ValueP.ops.drop 56) V main_arg9 main_v38 _ _ _ rfl
    (List.forall₂_drop 56 writesOne) (by decide) (by decide)).trans (by rw [r_main_arg9 V]; rfl)
theorem r_main_v39 : after ValueP.ops V (Proc.devRef .tc main_v39) = ReadP.val_main_v39 (F := Ideal) (V (Proc.devRef .tc main_arg9)) :=
  (fin_unary (l := ValueP.ops) (pre := ValueP.ops.take 56) (post := ValueP.ops.drop 57) V main_v38 main_v39 _ _ _ rfl
    (List.forall₂_drop 57 writesOne) (by decide) (by decide)).trans (by rw [r_main_v38 V]; rfl)
theorem r_main_v40 : after ValueP.ops V (Proc.devRef .tc main_v40) = ReadP.val_main_v40 (F := Ideal) (V (Proc.devRef .tc main_arg0)) (V (Proc.devRef .tc main_arg1)) (V (Proc.devRef .tc main_arg8)) (V (Proc.devRef .tc main_arg9)) :=
  (fin_binary (l := ValueP.ops) (pre := ValueP.ops.take 57) (post := ValueP.ops.drop 58) V main_v37 main_v39 main_v40 _ _ _ _ rfl
    (List.forall₂_drop 58 writesOne) (by decide) (by decide) (by decide)).trans (by rw [r_main_v37 V, r_main_v39 V]; rfl)
theorem r_main_v41 : after ValueP.ops V (Proc.devRef .tc main_v41) = ReadP.val_main_v41 (F := Ideal) (V (Proc.devRef .tc main_arg0)) (V (Proc.devRef .tc main_arg1)) (V (Proc.devRef .tc main_arg10)) :=
  (fin_binary (l := ValueP.ops) (pre := ValueP.ops.take 58) (post := ValueP.ops.drop 59) V main_v3 main_arg10 main_v41 _ _ _ _ rfl
    (List.forall₂_drop 59 writesOne) (by decide) (by decide) (by decide)).trans (by rw [r_main_v3 V, r_main_arg10 V]; rfl)
theorem r_main_v42 : after ValueP.ops V (Proc.devRef .tc main_v42) = ReadP.val_main_v42 (F := Ideal) (V (Proc.devRef .tc main_arg11)) :=
  (fin_unary (l := ValueP.ops) (pre := ValueP.ops.take 59) (post := ValueP.ops.drop 60) V main_arg11 main_v42 _ _ _ rfl
    (List.forall₂_drop 60 writesOne) (by decide) (by decide)).trans (by rw [r_main_arg11 V]; rfl)
theorem r_main_v43 : after ValueP.ops V (Proc.devRef .tc main_v43) = ReadP.val_main_v43 (F := Ideal) (V (Proc.devRef .tc main_arg11)) :=
  (fin_unary (l := ValueP.ops) (pre := ValueP.ops.take 60) (post := ValueP.ops.drop 61) V main_v42 main_v43 _ _ _ rfl
    (List.forall₂_drop 61 writesOne) (by decide) (by decide)).trans (by rw [r_main_v42 V]; rfl)
theorem r_main_v44 : after ValueP.ops V (Proc.devRef .tc main_v44) = ReadP.val_main_v44 (F := Ideal) (V (Proc.devRef .tc main_arg0)) (V (Proc.devRef .tc main_arg1)) (V (Proc.devRef .tc main_arg10)) (V (Proc.devRef .tc main_arg11)) :=
  (fin_binary (l := ValueP.ops) (pre := ValueP.ops.take 61) (post := ValueP.ops.drop 62) V main_v41 main_v43 main_v44 _ _ _ _ rfl
    (List.forall₂_drop 62 writesOne) (by decide) (by decide) (by decide)).trans (by rw [r_main_v41 V, r_main_v43 V]; rfl)
theorem r_main_v45 : after ValueP.ops V (Proc.devRef .tc main_v45) = ReadP.val_main_v45 (F := Ideal) (V (Proc.devRef .tc main_arg0)) (V (Proc.devRef .tc main_arg1)) (V (Proc.devRef .tc main_arg12)) :=
  (fin_binary (l := ValueP.ops) (pre := ValueP.ops.take 62) (post := ValueP.ops.drop 63) V main_v3 main_arg12 main_v45 _ _ _ _ rfl
    (List.forall₂_drop 63 writesOne) (by decide) (by decide) (by decide)).trans (by rw [r_main_v3 V, r_main_arg12 V]; rfl)
theorem r_main_v46 : after ValueP.ops V (Proc.devRef .tc main_v46) = ReadP.val_main_v46 (F := Ideal) (V (Proc.devRef .tc main_arg13)) :=
  (fin_unary (l := ValueP.ops) (pre := ValueP.ops.take 63) (post := ValueP.ops.drop 64) V main_arg13 main_v46 _ _ _ rfl
    (List.forall₂_drop 64 writesOne) (by decide) (by decide)).trans (by rw [r_main_arg13 V]; rfl)
theorem r_main_v47 : after ValueP.ops V (Proc.devRef .tc main_v47) = ReadP.val_main_v47 (F := Ideal) (V (Proc.devRef .tc main_arg13)) :=
  (fin_unary (l := ValueP.ops) (pre := ValueP.ops.take 64) (post := ValueP.ops.drop 65) V main_v46 main_v47 _ _ _ rfl
    (List.forall₂_drop 65 writesOne) (by decide) (by decide)).trans (by rw [r_main_v46 V]; rfl)
theorem r_main_v48 : after ValueP.ops V (Proc.devRef .tc main_v48) = ReadP.val_main_v48 (F := Ideal) (V (Proc.devRef .tc main_arg0)) (V (Proc.devRef .tc main_arg1)) (V (Proc.devRef .tc main_arg12)) (V (Proc.devRef .tc main_arg13)) :=
  (fin_binary (l := ValueP.ops) (pre := ValueP.ops.take 65) (post := ValueP.ops.drop 66) V main_v45 main_v47 main_v48 _ _ _ _ rfl
    (List.forall₂_drop 66 writesOne) (by decide) (by decide) (by decide)).trans (by rw [r_main_v45 V, r_main_v47 V]; rfl)
theorem r_main_v49 : after ValueP.ops V (Proc.devRef .tc main_v49) = ReadP.val_main_v49 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_binary (l := ValueP.ops) (pre := ValueP.ops.take 66) (post := ValueP.ops.drop 67) V main_v40 main_v44 main_v49 _ _ _ _ rfl
    (List.forall₂_drop 67 writesOne) (by decide) (by decide) (by decide)).trans (by rw [r_main_v40 V, r_main_v44 V]; rfl)
theorem r_main_cst_4 : after ValueP.ops V (Proc.devRef .tc main_cst_4) = ReadP.val_main_cst_4 (F := Ideal) :=
  (fin_nullary (l := ValueP.ops) (pre := ValueP.ops.take 67) (post := ValueP.ops.drop 68) V main_cst_4 _ _ rfl
    (List.forall₂_drop 68 writesOne) (by decide)).trans rfl
theorem r_main_v50 : after ValueP.ops V (Proc.devRef .tc main_v50) = ReadP.val_main_v50 (F := Ideal) :=
  (fin_unary (l := ValueP.ops) (pre := ValueP.ops.take 68) (post := ValueP.ops.drop 69) V main_cst_4 main_v50 _ _ _ rfl
    (List.forall₂_drop 69 writesOne) (by decide) (by decide)).trans (by rw [r_main_cst_4 V]; rfl)
theorem r_main_v51 : after ValueP.ops V (Proc.devRef .tc main_v51) = ReadP.val_main_v51 (F := Ideal) :=
  (fin_unary (l := ValueP.ops) (pre := ValueP.ops.take 69) (post := ValueP.ops.drop 70) V main_v50 main_v51 _ _ _ rfl
    (List.forall₂_drop 70 writesOne) (by decide) (by decide)).trans (by rw [r_main_v50 V]; rfl)
theorem r_main_v52 : after ValueP.ops V (Proc.devRef .tc main_v52) = ReadP.val_main_v52 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_binary (l := ValueP.ops) (pre := ValueP.ops.take 70) (post := ValueP.ops.drop 71) V main_v49 main_v51 main_v52 _ _ _ _ rfl
    (List.forall₂_drop 71 writesOne) (by decide) (by decide) (by decide)).trans (by rw [r_main_v49 V, r_main_v51 V]; rfl)
theorem r_main_v53 : after ValueP.ops V (Proc.devRef .tc main_v53) = ReadP.val_main_v53 (F := Ideal) :=
  (fin_unary (l := ValueP.ops) (pre := ValueP.ops.take 71) (post := ValueP.ops.drop 72) V main_v36 main_v53 _ _ _ rfl
    (List.forall₂_drop 72 writesOne) (by decide) (by decide)).trans (by rw [r_main_v36 V]; rfl)
theorem r_main_cst_5 : after ValueP.ops V (Proc.devRef .tc main_cst_5) = ReadP.val_main_cst_5 (F := Ideal) :=
  (fin_nullary (l := ValueP.ops) (pre := ValueP.ops.take 72) (post := ValueP.ops.drop 73) V main_cst_5 _ _ rfl
    (List.forall₂_drop 73 writesOne) (by decide)).trans rfl
theorem r_main_call2_v0 : after ValueP.ops V (Proc.devRef .tc main_call2_v0) = ReadP.val_main_call2_v0 (F := Ideal) :=
  (fin_unary (l := ValueP.ops) (pre := ValueP.ops.take 73) (post := ValueP.ops.drop 74) V main_cst_5 main_call2_v0 _ _ _ rfl
    (List.forall₂_drop 74 writesOne) (by decide) (by decide)).trans (by rw [r_main_cst_5 V]; rfl)
theorem r_main_call2_v1 : after ValueP.ops V (Proc.devRef .tc main_call2_v1) = ReadP.val_main_call2_v1 (F := Ideal) :=
  (fin_unary (l := ValueP.ops) (pre := ValueP.ops.take 74) (post := ValueP.ops.drop 75) V main_v53 main_call2_v1 _ _ _ rfl
    (List.forall₂_drop 75 writesOne) (by decide) (by decide)).trans (by rw [r_main_v53 V]; rfl)
theorem r_main_call2_v2 : after ValueP.ops V (Proc.devRef .tc main_call2_v2) = ReadP.val_main_call2_v2 (F := Ideal) :=
  (fin_unary (l := ValueP.ops) (pre := ValueP.ops.take 75) (post := ValueP.ops.drop 76) V main_call2_v0 main_call2_v2 _ _ _ rfl
    (List.forall₂_drop 76 writesOne) (by decide) (by decide)).trans (by rw [r_main_call2_v0 V]; rfl)
theorem r_main_v54 : after ValueP.ops V (Proc.devRef .tc main_v54) = ReadP.val_main_v54 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_ternary (l := ValueP.ops) (pre := ValueP.ops.take 76) (post := ValueP.ops.drop 77) V main_call2_v1 main_v52 main_call2_v2 main_v54 _ _ _ _ _ rfl
    (List.forall₂_drop 77 writesOne) (by decide) (by decide) (by decide) (by decide)).trans (by rw [r_main_call2_v1 V, r_main_v52 V, r_main_call2_v2 V]; rfl)
theorem r_main_cst_6 : after ValueP.ops V (Proc.devRef .tc main_cst_6) = ReadP.val_main_cst_6 (F := Ideal) :=
  (fin_nullary (l := ValueP.ops) (pre := ValueP.ops.take 77) (post := ValueP.ops.drop 78) V main_cst_6 _ _ rfl
    (List.forall₂_drop 78 writesOne) (by decide)).trans rfl
theorem r_main_v55 : after ValueP.ops V (Proc.devRef .tc main_v55) = ReadP.val_main_v55 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_binary (l := ValueP.ops) (pre := ValueP.ops.take 78) (post := ValueP.ops.drop 79) V main_v54 main_cst_6 main_v55 _ _ _ _ rfl
    (List.forall₂_drop 79 writesOne) (by decide) (by decide) (by decide)).trans (by rw [r_main_v54 V, r_main_cst_6 V]; rfl)
theorem r_main_cst_7 : after ValueP.ops V (Proc.devRef .tc main_cst_7) = ReadP.val_main_cst_7 (F := Ideal) :=
  (fin_nullary (l := ValueP.ops) (pre := ValueP.ops.take 79) (post := ValueP.ops.drop 80) V main_cst_7 _ _ rfl
    (List.forall₂_drop 80 writesOne) (by decide)).trans rfl
theorem r_main_v56 : after ValueP.ops V (Proc.devRef .tc main_v56) = ReadP.val_main_v56 (F := Ideal) :=
  (fin_unary (l := ValueP.ops) (pre := ValueP.ops.take 80) (post := ValueP.ops.drop 81) V main_cst_7 main_v56 _ _ _ rfl
    (List.forall₂_drop 81 writesOne) (by decide) (by decide)).trans (by rw [r_main_cst_7 V]; rfl)
theorem r_main_v57 : after ValueP.ops V (Proc.devRef .tc main_v57) = ReadP.val_main_v57 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_binary (l := ValueP.ops) (pre := ValueP.ops.take 81) (post := ValueP.ops.drop 82) V main_v56 main_v55 main_v57 _ _ _ _ rfl
    (List.forall₂_drop 82 writesOne) (by decide) (by decide) (by decide)).trans (by rw [r_main_v56 V, r_main_v55 V]; rfl)
theorem r_main_v58 : after ValueP.ops V (Proc.devRef .tc main_v58) = ReadP.val_main_v58 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_unary (l := ValueP.ops) (pre := ValueP.ops.take 82) (post := ValueP.ops.drop 83) V main_v57 main_v58 _ _ _ rfl
    (List.forall₂_drop 83 writesOne) (by decide) (by decide)).trans (by rw [r_main_v57 V]; rfl)
theorem r_main_v59 : after ValueP.ops V (Proc.devRef .tc main_v59) = ReadP.val_main_v59 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_unary (l := ValueP.ops) (pre := ValueP.ops.take 83) (post := ValueP.ops.drop 84) V main_v58 main_v59 _ _ _ rfl
    (List.forall₂_drop 84 writesOne) (by decide) (by decide)).trans (by rw [r_main_v58 V]; rfl)
theorem r_main_v60 : after ValueP.ops V (Proc.devRef .tc main_v60) = ReadP.val_main_v60 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_binary (l := ValueP.ops) (pre := ValueP.ops.take 84) (post := ValueP.ops.drop 85) V main_v54 main_v59 main_v60 _ _ _ _ rfl
    (List.forall₂_drop 85 writesOne) (by decide) (by decide) (by decide)).trans (by rw [r_main_v54 V, r_main_v59 V]; rfl)
theorem r_main_v61 : after ValueP.ops V (Proc.devRef .tc main_v61) = ReadP.val_main_v61 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_unary (l := ValueP.ops) (pre := ValueP.ops.take 85) (post := ValueP.ops.drop 86) V main_v60 main_v61 _ _ _ rfl
    (List.forall₂_drop 86 writesOne) (by decide) (by decide)).trans (by rw [r_main_v60 V]; rfl)
theorem r_main_cst_8 : after ValueP.ops V (Proc.devRef .tc main_cst_8) = ReadP.val_main_cst_8 (F := Ideal) :=
  (fin_nullary (l := ValueP.ops) (pre := ValueP.ops.take 86) (post := ValueP.ops.drop 87) V main_cst_8 _ _ rfl
    (List.forall₂_drop 87 writesOne) (by decide)).trans rfl
theorem r_main_v62 : after ValueP.ops V (Proc.devRef .tc main_v62) = ReadP.val_main_v62 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_binary (l := ValueP.ops) (pre := ValueP.ops.take 87) (post := ValueP.ops.drop 88) V main_v61 main_cst_8 main_v62 _ _ _ _ rfl
    (List.forall₂_drop 88 writesOne) (by decide) (by decide) (by decide)).trans (by rw [r_main_v61 V, r_main_cst_8 V]; rfl)
theorem r_main_v63 : after ValueP.ops V (Proc.devRef .tc main_v63) = ReadP.val_main_v63 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_unary (l := ValueP.ops) (pre := ValueP.ops.take 88) (post := ValueP.ops.drop 89) V main_v62 main_v63 _ _ _ rfl
    (List.forall₂_drop 89 writesOne) (by decide) (by decide)).trans (by rw [r_main_v62 V]; rfl)
theorem r_main_v64 : after ValueP.ops V (Proc.devRef .tc main_v64) = ReadP.val_main_v64 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_unary (l := ValueP.ops) (pre := ValueP.ops.take 89) (post := ValueP.ops.drop 90) V main_v63 main_v64 _ _ _ rfl
    (List.forall₂_drop 90 writesOne) (by decide) (by decide)).trans (by rw [r_main_v63 V]; rfl)
theorem r_main_v65 : after ValueP.ops V (Proc.devRef .tc main_v65) = ReadP.val_main_v65 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) :=
  (fin_binary (l := ValueP.ops) (pre := ValueP.ops.take 90) (post := ValueP.ops.drop 91) V main_v61 main_v64 main_v65 _ _ _ _ rfl
    (List.forall₂_drop 91 writesOne) (by decide) (by decide) (by decide)).trans (by rw [r_main_v61 V, r_main_v64 V]; rfl)
theorem r_main_v66 : after ValueP.ops V (Proc.devRef .tc main_v66) = ReadP.val_main_v66 (F := Ideal) (V (Proc.devRef .tc main_arg0)) (V (Proc.devRef .tc main_arg1)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  (fin_binary (l := ValueP.ops) (pre := ValueP.ops.take 91) (post := ValueP.ops.drop 92) V main_v65 main_v48 main_v66 _ _ _ _ rfl
    (List.forall₂_drop 92 writesOne) (by decide) (by decide) (by decide)).trans (by rw [r_main_v65 V, r_main_v48 V]; rfl)
theorem r_main_v67 : after ValueP.ops V (Proc.devRef .tc main_v67) = ReadP.val_main_v67 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  (fin_binary (l := ValueP.ops) (pre := ValueP.ops.take 92) (post := ValueP.ops.drop 93) V main_v35 main_v66 main_v67 _ _ _ _ rfl
    (List.forall₂_drop 93 writesOne) (by decide) (by decide) (by decide)).trans (by rw [r_main_v35 V, r_main_v66 V]; rfl)
theorem r_main_v68 : after ValueP.ops V (Proc.devRef .tc main_v68) = ReadP.val_main_v68 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) :=
  (fin_binary (l := ValueP.ops) (pre := ValueP.ops.take 93) (post := ValueP.ops.drop 94) V main_v67 main_arg14 main_v68 _ _ _ _ rfl
    (List.forall₂_drop 94 writesOne) (by decide) (by decide) (by decide)).trans (by rw [r_main_v67 V, r_main_arg14 V]; rfl)
theorem r_main_v69 : after ValueP.ops V (Proc.devRef .tc main_v69) = ReadP.val_main_v69 (F := Ideal) (V (Proc.devRef .tc main_arg15)) :=
  (fin_unary (l := ValueP.ops) (pre := ValueP.ops.take 94) (post := ValueP.ops.drop 95) V main_arg15 main_v69 _ _ _ rfl
    (List.forall₂_drop 95 writesOne) (by decide) (by decide)).trans (by rw [r_main_arg15 V]; rfl)
theorem r_main_v70 : after ValueP.ops V (Proc.devRef .tc main_v70) = ReadP.val_main_v70 (F := Ideal) (V (Proc.devRef .tc main_arg15)) :=
  (fin_unary (l := ValueP.ops) (pre := ValueP.ops.take 95) (post := ValueP.ops.drop 96) V main_v69 main_v70 _ _ _ rfl
    (List.forall₂_drop 96 writesOne) (by decide) (by decide)).trans (by rw [r_main_v69 V]; rfl)
theorem r_main_v71 : after ValueP.ops V (Proc.devRef .tc main_v71) = ReadP.val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 96) (post := ValueP.ops.drop 97) V main_v68 main_v70 main_v71 _ _ _ _ rfl
    (List.forall₂_drop 97 writesOne) (by decide) (by decide) (by decide)).trans (by rw [r_main_v68 V, r_main_v70 V]; rfl)
theorem r_main_v72 : after ValueP.ops V (Proc.devRef .tc main_v72) = ReadP.val_main_v72 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_unary (l := ValueP.ops) (pre := ValueP.ops.take 97) (post := ValueP.ops.drop 98) V main_v71 main_v72 _ _ _ rfl
    (List.forall₂_drop 98 writesOne) (by decide) (by decide)).trans (by rw [r_main_v71 V]; rfl)
theorem r_main_v73 : after ValueP.ops V (Proc.devRef .tc main_v73) = ReadP.val_main_v73 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_unary (l := ValueP.ops) (pre := ValueP.ops.take 98) (post := ValueP.ops.drop 99) V main_v72 main_v73 _ _ _ rfl
    (List.forall₂_drop 99 writesOne) (by decide) (by decide)).trans (by rw [r_main_v72 V]; rfl)
theorem r_main_cst_9 : after ValueP.ops V (Proc.devRef .tc main_cst_9) = ReadP.val_main_cst_9 (F := Ideal) :=
  (fin_nullary (l := ValueP.ops) (pre := ValueP.ops.take 99) (post := ValueP.ops.drop 100) V main_cst_9 _ _ rfl
    (List.forall₂_drop 100 writesOne) (by decide)).trans rfl
theorem r_main_v74 : after ValueP.ops V (Proc.devRef .tc main_v74) = ReadP.val_main_v74 (F := Ideal) :=
  (fin_unary (l := ValueP.ops) (pre := ValueP.ops.take 100) (post := ValueP.ops.drop 101) V main_cst_9 main_v74 _ _ _ rfl
    (List.forall₂_drop 101 writesOne) (by decide) (by decide)).trans (by rw [r_main_cst_9 V]; rfl)
theorem r_main_v75 : after ValueP.ops V (Proc.devRef .tc main_v75) = ReadP.val_main_v75 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 101) (post := ValueP.ops.drop 102) V main_v74 main_v73 main_v75 _ _ _ _ rfl
    (List.forall₂_drop 102 writesOne) (by decide) (by decide) (by decide)).trans (by rw [r_main_v74 V, r_main_v73 V]; rfl)
theorem r_main_cst_10 : after ValueP.ops V (Proc.devRef .tc main_cst_10) = ReadP.val_main_cst_10 (F := Ideal) :=
  (fin_nullary (l := ValueP.ops) (pre := ValueP.ops.take 102) (post := ValueP.ops.drop 103) V main_cst_10 _ _ rfl
    (List.forall₂_drop 103 writesOne) (by decide)).trans rfl
theorem r_main_v76 : after ValueP.ops V (Proc.devRef .tc main_v76) = ReadP.val_main_v76 (F := Ideal) :=
  (fin_unary (l := ValueP.ops) (pre := ValueP.ops.take 103) (post := ValueP.ops.drop 104) V main_cst_10 main_v76 _ _ _ rfl
    (List.forall₂_drop 104 writesOne) (by decide) (by decide)).trans (by rw [r_main_cst_10 V]; rfl)
theorem r_main_v77 : after ValueP.ops V (Proc.devRef .tc main_v77) = ReadP.val_main_v77 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 104) (post := ValueP.ops.drop 105) V main_v76 main_v75 main_v77 _ _ _ _ rfl
    (List.forall₂_drop 105 writesOne) (by decide) (by decide) (by decide)).trans (by rw [r_main_v76 V, r_main_v75 V]; rfl)
theorem r_main_v78 : after ValueP.ops V (Proc.devRef .tc main_v78) = ReadP.val_main_v78 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 105) (post := ValueP.ops.drop 106) V main_v77 main_v35 main_v78 _ _ _ _ rfl
    (List.forall₂_drop 106 writesOne) (by decide) (by decide) (by decide)).trans (by rw [r_main_v77 V, r_main_v35 V]; rfl)
theorem r_main_cst_11 : after ValueP.ops V (Proc.devRef .tc main_cst_11) = ReadP.val_main_cst_11 (F := Ideal) :=
  (fin_nullary (l := ValueP.ops) (pre := ValueP.ops.take 106) (post := ValueP.ops.drop 107) V main_cst_11 _ _ rfl
    (List.forall₂_drop 107 writesOne) (by decide)).trans rfl
theorem r_main_v79 : after ValueP.ops V (Proc.devRef .tc main_v79) = ReadP.val_main_v79 (F := Ideal) :=
  (fin_unary (l := ValueP.ops) (pre := ValueP.ops.take 107) (post := ValueP.ops.drop 108) V main_cst_11 main_v79 _ _ _ rfl
    (List.forall₂_drop 108 writesOne) (by decide) (by decide)).trans (by rw [r_main_cst_11 V]; rfl)
theorem r_main_v80 : after ValueP.ops V (Proc.devRef .tc main_v80) = ReadP.val_main_v80 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 108) (post := ValueP.ops.drop 109) V main_v79 main_v77 main_v80 _ _ _ _ rfl
    (List.forall₂_drop 109 writesOne) (by decide) (by decide) (by decide)).trans (by rw [r_main_v79 V, r_main_v77 V]; rfl)
theorem r_main_v81 : after ValueP.ops V (Proc.devRef .tc main_v81) = ReadP.val_main_v81 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 109) (post := ValueP.ops.drop 110) V main_v80 main_v66 main_v81 _ _ _ _ rfl
    (List.forall₂_drop 110 writesOne) (by decide) (by decide) (by decide)).trans (by rw [r_main_v80 V, r_main_v66 V]; rfl)
theorem r_main_v82 : after ValueP.ops V (Proc.devRef .tc main_v82) = ReadP.val_main_v82 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 110) (post := ValueP.ops.drop 111) V main_v78 main_v81 main_v82 _ _ _ _ rfl
    (List.forall₂_drop 111 writesOne) (by decide) (by decide) (by decide)).trans (by rw [r_main_v78 V, r_main_v81 V]; rfl)
theorem r_main_cst_12 : after ValueP.ops V (Proc.devRef .tc main_cst_12) = ReadP.val_main_cst_12 (F := Ideal) :=
  (fin_nullary (l := ValueP.ops) (pre := ValueP.ops.take 111) (post := ValueP.ops.drop 112) V main_cst_12 _ _ rfl
    (List.forall₂_drop 112 writesOne) (by decide)).trans rfl
theorem r_main_v83 : after ValueP.ops V (Proc.devRef .tc main_v83) = ReadP.val_main_v83 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 112) (post := ValueP.ops.drop 113) V main_v82 main_cst_12 main_v83 _ _ _ _ rfl
    (List.forall₂_drop 113 writesOne) (by decide) (by decide) (by decide)).trans (by rw [r_main_v82 V, r_main_cst_12 V]; rfl)
theorem r_main_cst_13 : after ValueP.ops V (Proc.devRef .tc main_cst_13) = ReadP.val_main_cst_13 (F := Ideal) :=
  (fin_nullary (l := ValueP.ops) (pre := ValueP.ops.take 113) (post := ValueP.ops.drop 114) V main_cst_13 _ _ rfl
    (List.forall₂_drop 114 writesOne) (by decide)).trans rfl
theorem r_main_v84 : after ValueP.ops V (Proc.devRef .tc main_v84) = ReadP.val_main_v84 (F := Ideal) :=
  (fin_unary (l := ValueP.ops) (pre := ValueP.ops.take 114) (post := ValueP.ops.drop 115) V main_cst_13 main_v84 _ _ _ rfl
    (List.forall₂_drop 115 writesOne) (by decide) (by decide)).trans (by rw [r_main_cst_13 V]; rfl)
theorem r_main_v85 : after ValueP.ops V (Proc.devRef .tc main_v85) = ReadP.val_main_v85 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (fin_binary (l := ValueP.ops) (pre := ValueP.ops.take 115) (post := ValueP.ops.drop 116) V main_v83 main_v84 main_v85 _ _ _ _ rfl
    (List.forall₂_drop 116 writesOne) (by decide) (by decide) (by decide)).trans (by rw [r_main_v83 V, r_main_v84 V]; rfl)
theorem r_main_v86 : after ValueP.ops V (Proc.devRef .tc main_v86) = ReadP.val_main_v86 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (fin_binary (l := ValueP.ops) (pre := ValueP.ops.take 116) (post := ValueP.ops.drop 117) V main_v85 main_arg16 main_v86 _ _ _ _ rfl
    (List.forall₂_drop 117 writesOne) (by decide) (by decide) (by decide)).trans (by rw [r_main_v85 V, r_main_arg16 V]; rfl)
theorem r_main_v87 : after ValueP.ops V (Proc.devRef .tc main_v87) = ReadP.val_main_v87 (F := Ideal) (V (Proc.devRef .tc main_arg17)) :=
  (fin_unary (l := ValueP.ops) (pre := ValueP.ops.take 117) (post := ValueP.ops.drop 118) V main_arg17 main_v87 _ _ _ rfl
    (List.forall₂_drop 118 writesOne) (by decide) (by decide)).trans (by rw [r_main_arg17 V]; rfl)
theorem r_main_v88 : after ValueP.ops V (Proc.devRef .tc main_v88) = ReadP.val_main_v88 (F := Ideal) (V (Proc.devRef .tc main_arg17)) :=
  (fin_unary (l := ValueP.ops) (pre := ValueP.ops.take 118) (post := ValueP.ops.drop 119) V main_v87 main_v88 _ _ _ rfl
    (List.forall₂_drop 119 writesOne) (by decide) (by decide)).trans (by rw [r_main_v87 V]; rfl)
theorem r_main_v89 : after ValueP.ops V (Proc.devRef .tc main_v89) = ReadP.val_main_v89 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  (fin_binary (l := ValueP.ops) (pre := ValueP.ops.take 119) (post := ValueP.ops.drop 120) V main_v86 main_v88 main_v89 _ _ _ _ rfl
    (List.forall₂_drop 120 writesOne) (by decide) (by decide) (by decide)).trans (by rw [r_main_v86 V, r_main_v88 V]; rfl)
theorem r_main_v90 : after ValueP.ops V (Proc.devRef .tc main_v90) = ReadP.val_main_v90 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  (fin_unary (l := ValueP.ops) (pre := ValueP.ops.take 120) (post := ValueP.ops.drop 121) V main_v89 main_v90 _ _ _ rfl
    (List.forall₂_drop 121 writesOne) (by decide) (by decide)).trans (by rw [r_main_v89 V]; rfl)

/-! ## The run -/

/-- On every device, from any memory with zero counters: every weakly fair execution of the reference terminates
    with the two results at their value functions of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v82) = ReadP.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v90).trans (r_main_v90 _),
      (h c main_v82).trans (r_main_v82 _),
      (h c main_arg0).trans (r_main_arg0 _),
      (h c main_arg1).trans (r_main_arg1 _),
      (h c main_arg2).trans (r_main_arg2 _),
      (h c main_arg3).trans (r_main_arg3 _),
      (h c main_arg4).trans (r_main_arg4 _),
      (h c main_arg5).trans (r_main_arg5 _),
      (h c main_arg6).trans (r_main_arg6 _),
      (h c main_arg7).trans (r_main_arg7 _),
      (h c main_arg8).trans (r_main_arg8 _),
      (h c main_arg9).trans (r_main_arg9 _),
      (h c main_arg10).trans (r_main_arg10 _),
      (h c main_arg11).trans (r_main_arg11 _),
      (h c main_arg12).trans (r_main_arg12 _),
      (h c main_arg13).trans (r_main_arg13 _),
      (h c main_arg14).trans (r_main_arg14 _),
      (h c main_arg15).trans (r_main_arg15 _),
      (h c main_arg16).trans (r_main_arg16 _),
      (h c main_arg17).trans (r_main_arg17 _)⟩)
    (run_seq ValueP.scopedRefs_eq ValueP.scopedSems_eq defs main (fun _ => ValueP.ops) ValueP.main_eq (fun _ => ValueP.ops_sub) m ρ)

end Cert.ReferenceIdeal.Ref

end
-- ==== Proof.RAttnBase.lean ====
/-
  What the two directions of the idealized reference's attention share.

  Three float words are evaluated once: 1024.0 and its square root 32, the word of 2⁻⁵, and the word of −∞.  Dividing an
  extended real by √1024 is multiplying it by 2⁻⁵.  The triangular mask, read at (q, k), is the one-bit word of k ≤ q:
  two naturals below 448 compare as signed 32-bit words as they do as naturals.  A maximum-reduction over the last axis
  of an [a, b, c] array, at (n, m), is the fold of max from the initial value over the entries (n, m, j).  An affine
  projection read at an entry is the sum over the contracted coordinate plus the bias entry.
-/
import proofs.«181104_j38946763440234_1_alg».proof.Proof.RefRead
import proofs.«181104_j38946763440234_1_alg».proof.Proof.Spec
import Idealize.ShloMosaic.Lib.WordArith
import Idealize.ShloMosaic.Lib.Affine
import Idealize.ShloMosaic.PureOps.Reduce

noncomputable section

namespace Cert.ReferenceIdeal.Ref

open Idealize.ShloMosaic Idealize.ShloMosaic.ValueIdx Cert.ReferenceIdeal

/-! ## The float words -/

/-- The word of 1024.0 denotes the real 1024. -/
theorem word_1024 : Ideal.ofBits .f32 0x44800000#32 = ((1024 : ℝ) : EReal) := by
  simp [Ideal.ofBits, Ideal.ieee, -EReal.coe_mul]; norm_num

/-- The word of 2⁻⁵ denotes the real 1/32. -/
theorem word_inv32 : Ideal.ofBits .f32 0x3D000000#32 = (((1 / 32 : ℝ)) : EReal) := by
  simp [Ideal.ofBits, Ideal.ieee, -EReal.coe_mul]; norm_num

/-- The word of −∞ denotes ⊥. -/
theorem word_negInf : Ideal.ofBits .f32 0xFF800000#32 = ⊥ := by
  simp [Ideal.ofBits, Ideal.ieee]

/-- √1024 = 32. -/
theorem sqrt_1024 : Real.sqrt 1024 = 32 := by
  rw [show (1024 : ℝ) = 32 ^ 2 by norm_num]; exact Real.sqrt_sq (by norm_num)

/-- Dividing by √1024 is multiplying by 2⁻⁵, on every extended real. -/
theorem div_sqrt_word (s : EReal) :
    Ideal.div s (Ideal.sqrt (Ideal.ofBits .f32 0x44800000#32)) = s * Ideal.ofBits .f32 0x3D000000#32 := by
  rw [word_1024, word_inv32, Ideal.sqrt_coe, if_neg (by norm_num), sqrt_1024, Ideal.div_coe (by norm_num)]

/-! ## The triangular mask -/

/-- Two naturals below 448 compare as signed 32-bit words as they do as naturals. -/
theorem sge_ofNat_iff (q k : Fin 448) :
    IntOp.cmpi .sge (IntOp.addi (BitVec.ofNat 32 q.val) 0#32) (BitVec.ofNat 32 k.val) = 1#1 ↔ k ≤ q := by
  rw [IntOp.cmpi_sge, IntOp.addi, BitVec.add_zero,
    WordArith.toInt_ofNat_small k.val (by have := k.isLt; omega),
    WordArith.toInt_ofNat_small q.val (by have := q.isLt; omega)]
  exact ⟨fun h => Fin.le_def.mpr (Int.ofNat_le.mp h), fun h => Int.ofNat_le.mpr (Fin.le_def.mp h)⟩

/-- The lower-triangular mask at (q, k): the one-bit word of k ≤ q. -/
theorem tril_apply (q k : Fin 448) :
    ReadP.val_main_v5 (F := Ideal) (ix2 q k) = if k ≤ q then 1#1 else 0#1 := by
  rw [ReadP.val_main_v5_apply, ReadP.val_main_call0_v4_apply, ReadP.val_main_call0_v2_apply, ReadP.val_main_call0_v0_apply,
    ReadP.val_main_call0_v1_apply, ReadP.val_main_call0_c_apply, ReadP.val_main_call0_v3_apply, ReadP.val_main_v4_apply,
    ReadP.val_main_c_apply, ReadP.val_main_call0_v5_apply, ReadP.val_main_call0_c_0_apply]
  show Scalar.select (IntOp.cmpi .sge (IntOp.addi (BitVec.ofNat 32 q.val) 0#32) (BitVec.ofNat 32 k.val)) 1#1 0#1 = _
  by_cases h : k ≤ q
  · rw [if_pos h, (sge_ofNat_iff q k).mpr h, select_one]
  · rw [if_neg h, eq_zero_of_ne_one (fun e => h ((sge_ofNat_iff q k).mp e)), select_zero]

/-- The transposed mask at (q, k): the one-bit word of q ≤ k. -/
theorem triu_apply (q k : Fin 448) :
    ReadP.val_main_v36 (F := Ideal) (ix2 q k) = if q ≤ k then 1#1 else 0#1 := by
  rw [ReadP.val_main_v36_apply]
  have e : ReadP.idx_main_v36 (ix2 q k) = ix2 k q :=
    funext fun a => Fin.ext (by match a with | ⟨0, _⟩ => rfl | ⟨1, _⟩ => rfl)
  rw [e, tril_apply]

/-! ## A maximum over the last axis -/

/-- In an [a, b, c] array reduced over its last axis, the reduced index (n, m) with coordinate j put back is (n, m, j). -/
theorem lift_last {a b c : ℕ} (h : (⟨3, ![a, b, c]⟩ : Shape).Reduces [2] (⟨2, ![a, b]⟩ : Shape)) (n : Fin a) (m : Fin b)
    (j : Fin ((⟨3, ![a, b, c]⟩ : Shape).size 2)) : h.lift (ix2 n m) j = ix3 n m (⟨j.val, j.isLt⟩ : Fin c) := by
  funext d; apply Fin.ext
  fin_cases d <;> rfl

/-- A reduce with a maximum body over the last axis of an [a, b, c] array, at (n, m): the fold of max from the initial
    value's element over the entries (n, m, j). -/
theorem hostReduce_max_last {φ : FTy} {u : Shape} {a b c : ℕ} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (n : Fin a) (m : Fin b) :
    Host.reduce FloatOps.maximumf x init h' hu (ix2 n m)
      = (Finset.univ : Finset (Fin c)).fold max (init (Shape.Idx.first hu)) fun j => x (ix3 n m j) := by
  rw [Host.reduce_eq_fold_single FloatOps.maximumf x init h' h hu]
  refine congrArg (fun f => Finset.fold max (init (Shape.Idx.first hu)) f (Finset.univ : Finset (Fin c))) ?_
  funext j
  exact congrArg x (lift_last h n m j)

/-! ## An affine projection at an entry -/

/-- The sum over the contracted coordinate of the rows times the weight, plus the bias entry, is the projection of
    the rows by the weight read contraction index first. -/
theorem proj_core (u : S32x448x1024.Idx → EReal) (W : S1024x1024.Idx → EReal) (bias : S1024.Idx → EReal)
    (U : Fin 448 → Fin 1024 → EReal) (b : Fin 32) (s : Fin 448) (h : Fin 1024) (hu : ∀ d, u (ix3 b s d) = U s d) :
    (∑ k : Fin 1024, u (ix3 b s k) * W (ix2 h k)) + bias (ix1 h)
      = Attn.proj U (fun d j => W (ix2 j d)) (fun j => bias (ix1 j)) s h := by
  unfold Attn.proj
  simp only [hu]

end Cert.ReferenceIdeal.Ref

end
-- ==== Proof.RAttn.lean ====
/-
  The idealized reference's two attentions read at one entry.

  Each direction is read stage by stage at an entry of batch element b.  The shifted input is the row block plus the
  positional rows.  A projection is the sum over the contracted coordinate of the shifted rows times the weight, plus
  the bias entry.  A logit is the inner product of a query row and a key row divided by √1024, which is the product
  with 2⁻⁵, where the triangular mask's bit is set, and the word of −∞, which is ⊥, elsewhere.  The row's maximum is
  the fold of max over the last axis from the word of −∞, met once more with that word.  The softmax row subtracts it,
  exponentiates, and divides by the row's sum, whose initial word is 0.  The attention is the sum over the keys of the
  softmax row times the value rows.  The backward direction is the same with the transposed mask.
-/
import proofs.«181104_j38946763440234_1_alg».proof.Proof.RAttnBase

noncomputable section

namespace Cert.ReferenceIdeal.Ref

open Idealize.ShloMosaic Idealize.ShloMosaic.ValueIdx Cert.ReferenceIdeal

/-- The row block of batch element b. -/
abbrev rowsOf (x0 : (⟨S32x448x1024, .f32⟩ : BufTy).Contents (Elt Ideal)) (b : Fin 32) : Fin 448 → Fin 1024 → EReal :=
  fun s d => x0 (ix3 b s d)
/-- The first 448 positional rows. -/
abbrev posOf (x1 : (⟨S500x1024, .f32⟩ : BufTy).Contents (Elt Ideal)) : Fin 448 → Fin 1024 → EReal :=
  fun s d => x1 (ix2 (Attn.row500 s) d)
/-- A weight read contraction index first. -/
abbrev wtOf (w : (⟨S1024x1024, .f32⟩ : BufTy).Contents (Elt Ideal)) : Fin 1024 → Fin 1024 → EReal :=
  fun d j => w (ix2 j d)
/-- A bias vector by its coordinate. -/
abbrev biasOf (v : (⟨S1024, .f32⟩ : BufTy).Contents (Elt Ideal)) : Fin 1024 → EReal :=
  fun j => v (ix1 j)
/-- A projection of batch element b's shifted input. -/
abbrev projOf (x0 : (⟨S32x448x1024, .f32⟩ : BufTy).Contents (Elt Ideal)) (x1 : (⟨S500x1024, .f32⟩ : BufTy).Contents (Elt Ideal))
    (w : (⟨S1024x1024, .f32⟩ : BufTy).Contents (Elt Ideal)) (v : (⟨S1024, .f32⟩ : BufTy).Contents (Elt Ideal)) (b : Fin 32) :
    Fin 448 → Fin 1024 → EReal :=
  Attn.proj (Attn.shifted (rowsOf x0 b) (posOf x1)) (wtOf w) (biasOf v)

/-! ## The shifted input -/

/-- The shifted input at (b, s, d): the row block's entry plus the positional row's. -/
theorem v3_at (x0 : (⟨S32x448x1024, .f32⟩ : BufTy).Contents (Elt Ideal)) (x1 : (⟨S500x1024, .f32⟩ : BufTy).Contents (Elt Ideal))
    (b : Fin 32) (s : Fin 448) (d : Fin 1024) :
    ReadP.val_main_v3 (F := Ideal) x0 x1 (ix3 b s d) = Attn.shifted (rowsOf x0 b) (posOf x1) s d := by
  rw [ReadP.val_main_v3_apply, ReadP.val_main_v2_apply, ReadP.val_main_v1_apply, ReadP.val_main_v0_apply]
  have e : ReadP.idx_main_v0 (ReadP.idx_main_v1 (ReadP.idx_main_v2 (ix3 b s d))) = ix2 (Attn.row500 s) d :=
    funext fun a => Fin.ext (by match a with | ⟨0, _⟩ => rfl | ⟨1, _⟩ => rfl)
  rw [e]
  rfl

/-! ## The forward direction -/

section Forward

variable (x0 : (⟨S32x448x1024, .f32⟩ : BufTy).Contents (Elt Ideal)) (x1 : (⟨S500x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-- The query projection at (b, s, h). -/
theorem v9_at (b : Fin 32) (s : Fin 448) (h : Fin 1024) :
    ReadP.val_main_v9 (F := Ideal) x0 x1 x2 x3 (ix3 b s h) = projOf x0 x1 x2 x3 b s h := by
  rw [ReadP.val_main_v9_apply, ReadP.val_main_v6_apply, ReadP.val_main_v8_apply, ReadP.val_main_v7_apply]
  have el : ReadP.lidx_main_v6 (ix3 b s h) = fun k => ix3 b s k := funext fun k =>
    funext fun a => Fin.ext (by match a with | ⟨0, _⟩ => rfl | ⟨1, _⟩ => rfl | ⟨2, _⟩ => rfl)
  have er : ReadP.ridx_main_v6 (ix3 b s h) = fun k => ix2 h k := funext fun k =>
    funext fun a => Fin.ext (by match a with | ⟨0, _⟩ => rfl | ⟨1, _⟩ => rfl)
  have eb : ReadP.idx_main_v7 (ReadP.idx_main_v8 (ix3 b s h)) = ix1 h :=
    funext fun a => Fin.ext (by match a with | ⟨0, _⟩ => rfl)
  rw [el, er, eb]
  exact proj_core (ReadP.val_main_v3 (F := Ideal) x0 x1) x2 x3 _ b s h (fun d => v3_at x0 x1 b s d)

/-- The key projection at (b, s, h). -/
theorem v13_at (b : Fin 32) (s : Fin 448) (h : Fin 1024) :
    ReadP.val_main_v13 (F := Ideal) x0 x1 x4 x5 (ix3 b s h) = projOf x0 x1 x4 x5 b s h := by
  rw [ReadP.val_main_v13_apply, ReadP.val_main_v10_apply, ReadP.val_main_v12_apply, ReadP.val_main_v11_apply]
  have el : ReadP.lidx_main_v10 (ix3 b s h) = fun k => ix3 b s k := funext fun k =>
    funext fun a => Fin.ext (by match a with | ⟨0, _⟩ => rfl | ⟨1, _⟩ => rfl | ⟨2, _⟩ => rfl)
  have er : ReadP.ridx_main_v10 (ix3 b s h) = fun k => ix2 h k := funext fun k =>
    funext fun a => Fin.ext (by match a with | ⟨0, _⟩ => rfl | ⟨1, _⟩ => rfl)
  have eb : ReadP.idx_main_v11 (ReadP.idx_main_v12 (ix3 b s h)) = ix1 h :=
    funext fun a => Fin.ext (by match a with | ⟨0, _⟩ => rfl)
  rw [el, er, eb]
  exact proj_core (ReadP.val_main_v3 (F := Ideal) x0 x1) x4 x5 _ b s h (fun d => v3_at x0 x1 b s d)

/-- The value projection at (b, s, h). -/
theorem v17_at (b : Fin 32) (s : Fin 448) (h : Fin 1024) :
    ReadP.val_main_v17 (F := Ideal) x0 x1 x6 x7 (ix3 b s h) = projOf x0 x1 x6 x7 b s h := by
  rw [ReadP.val_main_v17_apply, ReadP.val_main_v14_apply, ReadP.val_main_v16_apply, ReadP.val_main_v15_apply]
  have el : ReadP.lidx_main_v14 (ix3 b s h) = fun k => ix3 b s k := funext fun k =>
    funext fun a => Fin.ext (by match a with | ⟨0, _⟩ => rfl | ⟨1, _⟩ => rfl | ⟨2, _⟩ => rfl)
  have er : ReadP.ridx_main_v14 (ix3 b s h) = fun k => ix2 h k := funext fun k =>
    funext fun a => Fin.ext (by match a with | ⟨0, _⟩ => rfl | ⟨1, _⟩ => rfl)
  have eb : ReadP.idx_main_v15 (ReadP.idx_main_v16 (ix3 b s h)) = ix1 h :=
    funext fun a => Fin.ext (by match a with | ⟨0, _⟩ => rfl)
  rw [el, er, eb]
  exact proj_core (ReadP.val_main_v3 (F := Ideal) x0 x1) x6 x7 _ b s h (fun d => v3_at x0 x1 b s d)

/-- The scores at (b, q, k): the inner product of query row q and key row k. -/
theorem v18_at (b : Fin 32) (q k : Fin 448) :
    ReadP.val_main_v18 (F := Ideal) x0 x1 x2 x3 x4 x5 (ix3 b q k)
      = ∑ h : Fin 1024, projOf x0 x1 x2 x3 b q h * projOf x0 x1 x4 x5 b k h := by
  rw [ReadP.val_main_v18_apply]
  have el : ReadP.lidx_main_v18 (ix3 b q k) = fun h => ix3 b q h := funext fun h =>
    funext fun a => Fin.ext (by match a with | ⟨0, _⟩ => rfl | ⟨1, _⟩ => rfl | ⟨2, _⟩ => rfl)
  have er : ReadP.ridx_main_v18 (ix3 b q k) = fun h => ix3 b k h := funext fun h =>
    funext fun a => Fin.ext (by match a with | ⟨0, _⟩ => rfl | ⟨1, _⟩ => rfl | ⟨2, _⟩ => rfl)
  rw [el, er]
  refine Finset.sum_congr rfl fun h _ => ?_
  rw [v9_at, v13_at]

/-- The masked, scaled logits at (b, q, k). -/
theorem v23_at (b : Fin 32) (q k : Fin 448) :
    ReadP.val_main_v23 (F := Ideal) x0 x1 x2 x3 x4 x5 (ix3 b q k)
      = Attn.logits Attn.keepFw (projOf x0 x1 x2 x3 b) (projOf x0 x1 x4 x5 b) q k := by
  rw [ReadP.val_main_v23_apply, ReadP.val_main_call1_v1_apply, ReadP.val_main_v22_apply, ReadP.val_main_v21_apply,
    ReadP.val_main_v20_apply, ReadP.val_main_v19_apply, ReadP.val_main_cst_apply, ReadP.val_main_call1_v2_apply,
    ReadP.val_main_call1_v0_apply, ReadP.val_main_cst_0_apply]
  have em : ReadP.idx_main_v22 (ReadP.idx_main_call1_v1 (ix3 b q k)) = ix2 q k :=
    funext fun a => Fin.ext (by match a with | ⟨0, _⟩ => rfl | ⟨1, _⟩ => rfl)
  rw [em, tril_apply, v18_at]
  unfold Attn.logits
  by_cases hk : k ≤ q
  · have hk' : Attn.keepFw q k := hk
    rw [if_pos hk, select_one, if_pos hk']
    exact div_sqrt_word _
  · have hk' : ¬ Attn.keepFw q k := hk
    rw [if_neg hk, select_zero, if_neg hk']
    exact word_negInf

/-- The row's maximum-reduction at (b, q): the fold of max over the row from the word of −∞. -/
theorem v24_at (b : Fin 32) (q : Fin 448) :
    ReadP.val_main_v24 (F := Ideal) x0 x1 x2 x3 x4 x5 (ix2 b q)
      = (Finset.univ : Finset (Fin 448)).fold max Attn.negInf
          fun k => ReadP.val_main_v23 (F := Ideal) x0 x1 x2 x3 x4 x5 (ix3 b q k) := by
  unfold ReadP.val_main_v24
  generalize ReadP.val_main_v23 (F := Ideal) x0 x1 x2 x3 x4 x5 = y
  exact hostReduce_max_last y _ Gen.reducesTo_S32x448x448_S32x448_d2 (by decide) Gen.h_S_ b q

/-- The row's maximum at (b, q), met once more with the word of −∞. -/
theorem v26_at (b : Fin 32) (q : Fin 448) :
    ReadP.val_main_v26 (F := Ideal) x0 x1 x2 x3 x4 x5 (ix2 b q)
      = Attn.rowMax fun k => ReadP.val_main_v23 (F := Ideal) x0 x1 x2 x3 x4 x5 (ix3 b q k) := by
  rw [ReadP.val_main_v26_apply, ReadP.val_main_v25_apply, ReadP.val_main_cst_2_apply, v24_at]
  rfl

/-- The exponential of the logit less the row's maximum at (b, q, k). -/
theorem v30_at (b : Fin 32) (q k : Fin 448) :
    ReadP.val_main_v30 (F := Ideal) x0 x1 x2 x3 x4 x5 (ix3 b q k)
      = Ideal.exp (ReadP.val_main_v23 (F := Ideal) x0 x1 x2 x3 x4 x5 (ix3 b q k)
          - Attn.rowMax fun j => ReadP.val_main_v23 (F := Ideal) x0 x1 x2 x3 x4 x5 (ix3 b q j)) := by
  rw [ReadP.val_main_v30_apply, ReadP.val_main_v29_apply, ReadP.val_main_v28_apply, ReadP.val_main_v27_apply]
  have e : ReadP.idx_main_v27 (ReadP.idx_main_v28 (ix3 b q k)) = ix2 b q :=
    funext fun a => Fin.ext (by match a with | ⟨0, _⟩ => rfl | ⟨1, _⟩ => rfl)
  rw [e, v26_at]
  rfl

/-- The softmax row at (b, q, k). -/
theorem v34_at (b : Fin 32) (q k : Fin 448) :
    ReadP.val_main_v34 (F := Ideal) x0 x1 x2 x3 x4 x5 (ix3 b q k)
      = Attn.softmaxRow (fun k' => ReadP.val_main_v23 (F := Ideal) x0 x1 x2 x3 x4 x5 (ix3 b q k')) k := by
  rw [ReadP.val_main_v34_apply, ReadP.val_main_v33_apply, ReadP.val_main_v32_apply, ReadP.val_main_v31_apply,
    ReadP.val_main_cst_3_apply]
  have e : ReadP.idx_main_v32 (ReadP.idx_main_v33 (ix3 b q k)) = ix2 b q :=
    funext fun a => Fin.ext (by match a with | ⟨0, _⟩ => rfl | ⟨1, _⟩ => rfl)
  have es : ReadP.idx_main_v31 (ix2 b q) = fun j => ix3 b q j := funext fun j =>
    funext fun a => Fin.ext (by match a with | ⟨0, _⟩ => rfl | ⟨1, _⟩ => rfl | ⟨2, _⟩ => rfl)
  rw [e, es, Ideal.hostDivf_def]
  unfold Attn.softmaxRow
  refine congrArg₂ Ideal.div (v30_at x0 x1 x2 x3 x4 x5 b q k) ?_
  refine (congrArg₂ (· + ·) Ideal.ofBits_zero_f32 (Finset.sum_congr rfl fun j _ => v30_at x0 x1 x2 x3 x4 x5 b q j)).trans ?_
  exact zero_add _

/-- The forward attention at (b, q, h). -/
theorem v35_at (b : Fin 32) (q : Fin 448) (h : Fin 1024) :
    ReadP.val_main_v35 (F := Ideal) x0 x1 x2 x3 x4 x5 x6 x7 (ix3 b q h)
      = Attn.attn Attn.keepFw (rowsOf x0 b) (posOf x1) (wtOf x2) (biasOf x3) (wtOf x4) (biasOf x5) (wtOf x6) (biasOf x7) q h := by
  rw [ReadP.val_main_v35_apply]
  have el : ReadP.lidx_main_v35 (ix3 b q h) = fun k => ix3 b q k := funext fun k =>
    funext fun a => Fin.ext (by match a with | ⟨0, _⟩ => rfl | ⟨1, _⟩ => rfl | ⟨2, _⟩ => rfl)
  have er : ReadP.ridx_main_v35 (ix3 b q h) = fun k => ix3 b k h := funext fun k =>
    funext fun a => Fin.ext (by match a with | ⟨0, _⟩ => rfl | ⟨1, _⟩ => rfl | ⟨2, _⟩ => rfl)
  have eL : (fun k' => ReadP.val_main_v23 (F := Ideal) x0 x1 x2 x3 x4 x5 (ix3 b q k'))
      = Attn.logits Attn.keepFw (projOf x0 x1 x2 x3 b) (projOf x0 x1 x4 x5 b) q :=
    funext fun k' => v23_at x0 x1 x2 x3 x4 x5 b q k'
  rw [el, er]
  unfold Attn.attn Attn.attend
  refine Finset.sum_congr rfl fun k _ => ?_
  rw [v34_at, v17_at, eL]

end Forward

theorem refAttnFw (x0 : (⟨S32x448x1024, .f32⟩ : BufTy).Contents (Elt Ideal)) (x1 : (⟨S500x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 32) (q : Fin 448) (h : Fin 1024) :
    ReadP.val_main_v35 (F := Ideal) x0 x1 x2 x3 x4 x5 x6 x7 (ix3 b q h)
      = Attn.attn Attn.keepFw (fun s d => x0 (ix3 b s d)) (fun s d => x1 (ix2 (Attn.row500 s) d))
          (fun d j => x2 (ix2 j d)) (fun j => x3 (ix1 j))
          (fun d j => x4 (ix2 j d)) (fun j => x5 (ix1 j))
          (fun d j => x6 (ix2 j d)) (fun j => x7 (ix1 j)) q h :=
  v35_at x0 x1 x2 x3 x4 x5 x6 x7 b q h

/-! ## The backward direction -/

section Backward

variable (x0 : (⟨S32x448x1024, .f32⟩ : BufTy).Contents (Elt Ideal)) (x1 : (⟨S500x1024, .f32⟩ : BufTy).Contents (Elt Ideal))
  (x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 : (⟨S1024, .f32⟩ : BufTy).Contents (Elt Ideal))
  (x12 : (⟨S1024x1024, .f32⟩ : BufTy).Contents (Elt Ideal)) (x13 : (⟨S1024, .f32⟩ : BufTy).Contents (Elt Ideal))

/-- The query projection at (b, s, h). -/
theorem v40_at (b : Fin 32) (s : Fin 448) (h : Fin 1024) :
    ReadP.val_main_v40 (F := Ideal) x0 x1 x8 x9 (ix3 b s h) = projOf x0 x1 x8 x9 b s h := by
  rw [ReadP.val_main_v40_apply, ReadP.val_main_v37_apply, ReadP.val_main_v39_apply, ReadP.val_main_v38_apply]
  have el : ReadP.lidx_main_v37 (ix3 b s h) = fun k => ix3 b s k := funext fun k =>
    funext fun a => Fin.ext (by match a with | ⟨0, _⟩ => rfl | ⟨1, _⟩ => rfl | ⟨2, _⟩ => rfl)
  have er : ReadP.ridx_main_v37 (ix3 b s h) = fun k => ix2 h k := funext fun k =>
    funext fun a => Fin.ext (by match a with | ⟨0, _⟩ => rfl | ⟨1, _⟩ => rfl)
  have eb : ReadP.idx_main_v38 (ReadP.idx_main_v39 (ix3 b s h)) = ix1 h :=
    funext fun a => Fin.ext (by match a with | ⟨0, _⟩ => rfl)
  rw [el, er, eb]
  exact proj_core (ReadP.val_main_v3 (F := Ideal) x0 x1) x8 x9 _ b s h (fun d => v3_at x0 x1 b s d)

/-- The key projection at (b, s, h). -/
theorem v44_at (b : Fin 32) (s : Fin 448) (h : Fin 1024) :
    ReadP.val_main_v44 (F := Ideal) x0 x1 x10 x11 (ix3 b s h) = projOf x0 x1 x10 x11 b s h := by
  rw [ReadP.val_main_v44_apply, ReadP.val_main_v41_apply, ReadP.val_main_v43_apply, ReadP.val_main_v42_apply]
  have el : ReadP.lidx_main_v41 (ix3 b s h) = fun k => ix3 b s k := funext fun k =>
    funext fun a => Fin.ext (by match a with | ⟨0, _⟩ => rfl | ⟨1, _⟩ => rfl | ⟨2, _⟩ => rfl)
  have er : ReadP.ridx_main_v41 (ix3 b s h) = fun k => ix2 h k := funext fun k =>
    funext fun a => Fin.ext (by match a with | ⟨0, _⟩ => rfl | ⟨1, _⟩ => rfl)
  have eb : ReadP.idx_main_v42 (ReadP.idx_main_v43 (ix3 b s h)) = ix1 h :=
    funext fun a => Fin.ext (by match a with | ⟨0, _⟩ => rfl)
  rw [el, er, eb]
  exact proj_core (ReadP.val_main_v3 (F := Ideal) x0 x1) x10 x11 _ b s h (fun d => v3_at x0 x1 b s d)

/-- The value projection at (b, s, h). -/
theorem v48_at (b : Fin 32) (s : Fin 448) (h : Fin 1024) :
    ReadP.val_main_v48 (F := Ideal) x0 x1 x12 x13 (ix3 b s h) = projOf x0 x1 x12 x13 b s h := by
  rw [ReadP.val_main_v48_apply, ReadP.val_main_v45_apply, ReadP.val_main_v47_apply, ReadP.val_main_v46_apply]
  have el : ReadP.lidx_main_v45 (ix3 b s h) = fun k => ix3 b s k := funext fun k =>
    funext fun a => Fin.ext (by match a with | ⟨0, _⟩ => rfl | ⟨1, _⟩ => rfl | ⟨2, _⟩ => rfl)
  have er : ReadP.ridx_main_v45 (ix3 b s h) = fun k => ix2 h k := funext fun k =>
    funext fun a => Fin.ext (by match a with | ⟨0, _⟩ => rfl | ⟨1, _⟩ => rfl)
  have eb : ReadP.idx_main_v46 (ReadP.idx_main_v47 (ix3 b s h)) = ix1 h :=
    funext fun a => Fin.ext (by match a with | ⟨0, _⟩ => rfl)
  rw [el, er, eb]
  exact proj_core (ReadP.val_main_v3 (F := Ideal) x0 x1) x12 x13 _ b s h (fun d => v3_at x0 x1 b s d)

/-- The scores at (b, q, k): the inner product of query row q and key row k. -/
theorem v49_at (b : Fin 32) (q k : Fin 448) :
    ReadP.val_main_v49 (F := Ideal) x0 x1 x8 x9 x10 x11 (ix3 b q k)
      = ∑ h : Fin 1024, projOf x0 x1 x8 x9 b q h * projOf x0 x1 x10 x11 b k h := by
  rw [ReadP.val_main_v49_apply]
  have el : ReadP.lidx_main_v49 (ix3 b q k) = fun h => ix3 b q h := funext fun h =>
    funext fun a => Fin.ext (by match a with | ⟨0, _⟩ => rfl | ⟨1, _⟩ => rfl | ⟨2, _⟩ => rfl)
  have er : ReadP.ridx_main_v49 (ix3 b q k) = fun h => ix3 b k h := funext fun h =>
    funext fun a => Fin.ext (by match a with | ⟨0, _⟩ => rfl | ⟨1, _⟩ => rfl | ⟨2, _⟩ => rfl)
  rw [el, er]
  refine Finset.sum_congr rfl fun h _ => ?_
  rw [v40_at, v44_at]

/-- The masked, scaled logits at (b, q, k), under the transposed mask. -/
theorem v54_at (b : Fin 32) (q k : Fin 448) :
    ReadP.val_main_v54 (F := Ideal) x0 x1 x8 x9 x10 x11 (ix3 b q k)
      = Attn.logits Attn.keepBw (projOf x0 x1 x8 x9 b) (projOf x0 x1 x10 x11 b) q k := by
  rw [ReadP.val_main_v54_apply, ReadP.val_main_call2_v1_apply, ReadP.val_main_v53_apply, ReadP.val_main_v52_apply,
    ReadP.val_main_v51_apply, ReadP.val_main_v50_apply, ReadP.val_main_cst_4_apply, ReadP.val_main_call2_v2_apply,
    ReadP.val_main_call2_v0_apply, ReadP.val_main_cst_5_apply]
  have em : ReadP.idx_main_v53 (ReadP.idx_main_call2_v1 (ix3 b q k)) = ix2 q k :=
    funext fun a => Fin.ext (by match a with | ⟨0, _⟩ => rfl | ⟨1, _⟩ => rfl)
  rw [em, triu_apply, v49_at]
  unfold Attn.logits
  by_cases hk : q ≤ k
  · have hk' : Attn.keepBw q k := hk
    rw [if_pos hk, select_one, if_pos hk']
    exact div_sqrt_word _
  · have hk' : ¬ Attn.keepBw q k := hk
    rw [if_neg hk, select_zero, if_neg hk']
    exact word_negInf

/-- The row's maximum-reduction at (b, q): the fold of max over the row from the word of −∞. -/
theorem v55_at (b : Fin 32) (q : Fin 448) :
    ReadP.val_main_v55 (F := Ideal) x0 x1 x8 x9 x10 x11 (ix2 b q)
      = (Finset.univ : Finset (Fin 448)).fold max Attn.negInf
          fun k => ReadP.val_main_v54 (F := Ideal) x0 x1 x8 x9 x10 x11 (ix3 b q k) := by
  unfold ReadP.val_main_v55
  generalize ReadP.val_main_v54 (F := Ideal) x0 x1 x8 x9 x10 x11 = y
  exact hostReduce_max_last y _ Gen.reducesTo_S32x448x448_S32x448_d2 (by decide) Gen.h_S_ b q

/-- The row's maximum at (b, q), met once more with the word of −∞. -/
theorem v57_at (b : Fin 32) (q : Fin 448) :
    ReadP.val_main_v57 (F := Ideal) x0 x1 x8 x9 x10 x11 (ix2 b q)
      = Attn.rowMax fun k => ReadP.val_main_v54 (F := Ideal) x0 x1 x8 x9 x10 x11 (ix3 b q k) := by
  rw [ReadP.val_main_v57_apply, ReadP.val_main_v56_apply, ReadP.val_main_cst_7_apply, v55_at]
  rfl

/-- The exponential of the logit less the row's maximum at (b, q, k). -/
theorem v61_at (b : Fin 32) (q k : Fin 448) :
    ReadP.val_main_v61 (F := Ideal) x0 x1 x8 x9 x10 x11 (ix3 b q k)
      = Ideal.exp (ReadP.val_main_v54 (F := Ideal) x0 x1 x8 x9 x10 x11 (ix3 b q k)
          - Attn.rowMax fun j => ReadP.val_main_v54 (F := Ideal) x0 x1 x8 x9 x10 x11 (ix3 b q j)) := by
  rw [ReadP.val_main_v61_apply, ReadP.val_main_v60_apply, ReadP.val_main_v59_apply, ReadP.val_main_v58_apply]
  have e : ReadP.idx_main_v58 (ReadP.idx_main_v59 (ix3 b q k)) = ix2 b q :=
    funext fun a => Fin.ext (by match a with | ⟨0, _⟩ => rfl | ⟨1, _⟩ => rfl)
  rw [e, v57_at]
  rfl

/-- The softmax row at (b, q, k). -/
theorem v65_at (b : Fin 32) (q k : Fin 448) :
    ReadP.val_main_v65 (F := Ideal) x0 x1 x8 x9 x10 x11 (ix3 b q k)
      = Attn.softmaxRow (fun k' => ReadP.val_main_v54 (F := Ideal) x0 x1 x8 x9 x10 x11 (ix3 b q k')) k := by
  rw [ReadP.val_main_v65_apply, ReadP.val_main_v64_apply, ReadP.val_main_v63_apply, ReadP.val_main_v62_apply,
    ReadP.val_main_cst_8_apply]
  have e : ReadP.idx_main_v63 (ReadP.idx_main_v64 (ix3 b q k)) = ix2 b q :=
    funext fun a => Fin.ext (by match a with | ⟨0, _⟩ => rfl | ⟨1, _⟩ => rfl)
  have es : ReadP.idx_main_v62 (ix2 b q) = fun j => ix3 b q j := funext fun j =>
    funext fun a => Fin.ext (by match a with | ⟨0, _⟩ => rfl | ⟨1, _⟩ => rfl | ⟨2, _⟩ => rfl)
  rw [e, es, Ideal.hostDivf_def]
  unfold Attn.softmaxRow
  refine congrArg₂ Ideal.div (v61_at x0 x1 x8 x9 x10 x11 b q k) ?_
  refine (congrArg₂ (· + ·) Ideal.ofBits_zero_f32 (Finset.sum_congr rfl fun j _ => v61_at x0 x1 x8 x9 x10 x11 b q j)).trans ?_
  exact zero_add _

/-- The backward attention at (b, q, h). -/
theorem v66_at (b : Fin 32) (q : Fin 448) (h : Fin 1024) :
    ReadP.val_main_v66 (F := Ideal) x0 x1 x8 x9 x10 x11 x12 x13 (ix3 b q h)
      = Attn.attn Attn.keepBw (rowsOf x0 b) (posOf x1) (wtOf x8) (biasOf x9) (wtOf x10) (biasOf x11) (wtOf x12) (biasOf x13) q h := by
  rw [ReadP.val_main_v66_apply]
  have el : ReadP.lidx_main_v66 (ix3 b q h) = fun k => ix3 b q k := funext fun k =>
    funext fun a => Fin.ext (by match a with | ⟨0, _⟩ => rfl | ⟨1, _⟩ => rfl | ⟨2, _⟩ => rfl)
  have er : ReadP.ridx_main_v66 (ix3 b q h) = fun k => ix3 b k h := funext fun k =>
    funext fun a => Fin.ext (by match a with | ⟨0, _⟩ => rfl | ⟨1, _⟩ => rfl | ⟨2, _⟩ => rfl)
  have eL : (fun k' => ReadP.val_main_v54 (F := Ideal) x0 x1 x8 x9 x10 x11 (ix3 b q k'))
      = Attn.logits Attn.keepBw (projOf x0 x1 x8 x9 b) (projOf x0 x1 x10 x11 b) q :=
    funext fun k' => v54_at x0 x1 x8 x9 x10 x11 b q k'
  rw [el, er]
  unfold Attn.attn Attn.attend
  refine Finset.sum_congr rfl fun k _ => ?_
  rw [v65_at, v48_at, eL]

end Backward

theorem refAttnBw (x0 : (⟨S32x448x1024, .f32⟩ : BufTy).Contents (Elt Ideal)) (x1 : (⟨S500x1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal))
    (b : Fin 32) (q : Fin 448) (h : Fin 1024) :
    ReadP.val_main_v66 (F := Ideal) x0 x1 x8 x9 x10 x11 x12 x13 (ix3 b q h)
      = Attn.attn Attn.keepBw (fun s d => x0 (ix3 b s d)) (fun s d => x1 (ix2 (Attn.row500 s) d))
          (fun d j => x8 (ix2 j d)) (fun j => x9 (ix1 j))
          (fun d j => x10 (ix2 j d)) (fun j => x11 (ix1 j))
          (fun d j => x12 (ix2 j d)) (fun j => x13 (ix1 j)) q h :=
  v66_at x0 x1 x8 x9 x10 x11 x12 x13 b q h

end Cert.ReferenceIdeal.Ref

end
-- ==== Proof.RGate.lean ====
/-
  The reference's gate, token and utterance stages read at one entry, with the two attentions carried as opaque
  functions.

  The gate's affine map contracts the 2048 joined columns; the joined array is the first attention on the columns
  below 1024 and the second on the columns from 1024 on, so the sum over the 2048 columns is the sum over the first
  half plus the sum over the second half (commutativity and associativity of + only).  The reference spells the
  logistic as 1 / (1 + exp (−x)) with the word of 1.0, which is the logistic by definition once that word is read as 1;
  in the mix the same word stays a word.  The mean is the sum from the zero word (0 + x = x) divided by the word of 448.
-/
import proofs.«181104_j38946763440234_1_alg».proof.Proof.RefRead
import proofs.«181104_j38946763440234_1_alg».proof.Proof.Spec
import Idealize.ShloMosaic.Lib.IdealHost
import Idealize.ShloMosaic.Lib.Pipeline.Value

noncomputable section

namespace Cert.ReferenceIdeal.Ref

open Idealize.ShloMosaic Idealize.ShloMosaic.ValueIdx Cert.ReferenceIdeal

/-- A sum over the 2048 joined columns is the sum over the first 1024 plus the sum over the last 1024. -/
theorem sum_fin2048_split {M : Type*} [AddCommMonoid M] (g : Fin 2048 → M) :
    ∑ k : Fin 2048, g k = (∑ f : Fin 1024, g (Attn.lo f)) + ∑ f : Fin 1024, g (Attn.hi f) := by
  have e : ∑ k : Fin 2048, g k = ∑ k : Fin (1024 + 1024), g k := rfl
  rw [e, Fin.sum_univ_add]
  rfl

/-- The reference's spelling of the logistic, with the word of 1.0, is the logistic. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

/-- The joined array on a column of the first half is the first operand there. -/
theorem concat_lo (A B : (⟨S32x448x1024, .f32⟩ : BufTy).Contents (Elt Ideal)) (b : Fin 32) (s : Fin 448) (f : Fin 1024) :
    concatenate S32x448x2048 2 [⟨S32x448x1024, A⟩, ⟨S32x448x1024, B⟩] Facts₀.concatenates_S32x448x1024_S32x448x1024_S32x448x2048_d2
        (ix3 b s (Attn.lo f)) = A (ix3 b s f) :=
  concatenate_pair_apply_left 2 A B _ (ix3 b s (Attn.lo f)) rfl (ix3 b s f)
    (fun a => match a with | ⟨0, _⟩ => rfl | ⟨1, _⟩ => rfl | ⟨2, _⟩ => rfl)

/-- The joined array on a column of the second half is the second operand at the column 1024 less. -/
theorem concat_hi (A B : (⟨S32x448x1024, .f32⟩ : BufTy).Contents (Elt Ideal)) (b : Fin 32) (s : Fin 448) (f : Fin 1024) :
    concatenate S32x448x2048 2 [⟨S32x448x1024, A⟩, ⟨S32x448x1024, B⟩] Facts₀.concatenates_S32x448x1024_S32x448x1024_S32x448x2048_d2
        (ix3 b s (Attn.hi f)) = B (ix3 b s f) :=
  concatenate_pair_apply_right 2 A B _ (ix3 b s (Attn.hi f)) rfl rfl (ix3 b s f)
    (fun a => match a with | ⟨0, _⟩ => fun _ => rfl | ⟨1, _⟩ => fun _ => rfl | ⟨2, _⟩ => fun hne => absurd rfl hne)
    (show f.val + 1024 = 1024 + f.val from Nat.add_comm _ _)

/-- The gate's pre-activation: the contraction over the joined columns is the two attentions' contractions, each
    against its half of the gate weight. -/
theorem refGateSum (x0 : (⟨S32x448x1024, .f32⟩ : BufTy).Contents (Elt Ideal)) (x1 : (⟨S500x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S1024x2048, .f32⟩ : BufTy).Contents (Elt Ideal))
    (b : Fin 32) (s : Fin 448) (h : Fin 1024) :
    ReadP.val_main_v68 (F := Ideal) x0 x1 x2 x3 x4 x5 x6 x7 x8 x9 x10 x11 x12 x13 x14 (ix3 b s h)
      = (∑ f : Fin 1024, ReadP.val_main_v35 (F := Ideal) x0 x1 x2 x3 x4 x5 x6 x7 (ix3 b s f) * x14 (ix2 h (Attn.lo f)))
        + ∑ f : Fin 1024, ReadP.val_main_v66 (F := Ideal) x0 x1 x8 x9 x10 x11 x12 x13 (ix3 b s f) * x14 (ix2 h (Attn.hi f)) := by
  rw [ReadP.val_main_v68_apply]
  unfold ReadP.val_main_v67
  generalize ReadP.val_main_v35 (F := Ideal) x0 x1 x2 x3 x4 x5 x6 x7 = A
  generalize ReadP.val_main_v66 (F := Ideal) x0 x1 x8 x9 x10 x11 x12 x13 = B
  have el : ∀ k : Fin 2048, ReadP.lidx_main_v68 (ix3 b s h) k = ix3 b s k := fun k =>
    funext fun a => Fin.ext (by match a with | ⟨0, _⟩ => rfl | ⟨1, _⟩ => rfl | ⟨2, _⟩ => rfl)
  have er : ∀ k : Fin 2048, ReadP.ridx_main_v68 (ix3 b s h) k = ix2 h k := fun k =>
    funext fun a => Fin.ext (by match a with | ⟨0, _⟩ => rfl | ⟨1, _⟩ => rfl)
  have e2 : ∀ C : S32x448x2048.Idx → EReal,
      (∑ k : Fin 2048, C (ReadP.lidx_main_v68 (ix3 b s h) k) * x14 (ReadP.ridx_main_v68 (ix3 b s h) k))
        = ∑ k : Fin 2048, C (ix3 b s k) * x14 (ix2 h k) :=
    fun C => Finset.sum_congr rfl fun k _ => by rw [el k, er k]
  rw [e2, sum_fin2048_split]
  exact congrArg₂ (· + ·)
    (Finset.sum_congr rfl fun f _ => congrArg (· * x14 (ix2 h (Attn.lo f))) (concat_lo A B b s f))
    (Finset.sum_congr rfl fun f _ => congrArg (· * x14 (ix2 h (Attn.hi f))) (concat_hi A B b s f))

theorem refToken (x0 : (⟨S32x448x1024, .f32⟩ : BufTy).Contents (Elt Ideal)) (x1 : (⟨S500x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S1024x2048, .f32⟩ : BufTy).Contents (Elt Ideal)) (x15 : (⟨S1024, .f32⟩ : BufTy).Contents (Elt Ideal))
    (b : Fin 32) (s : Fin 448) (h : Fin 1024) :
    ReadP.val_main_v82 (F := Ideal) x0 x1 x2 x3 x4 x5 x6 x7 x8 x9 x10 x11 x12 x13 x14 x15 (ix3 b s h)
      = Attn.token (fun s f => ReadP.val_main_v35 (F := Ideal) x0 x1 x2 x3 x4 x5 x6 x7 (ix3 b s f))
          (fun s f => ReadP.val_main_v66 (F := Ideal) x0 x1 x8 x9 x10 x11 x12 x13 (ix3 b s f))
          (fun f j => x14 (ix2 j (Attn.lo f))) (fun f j => x14 (ix2 j (Attn.hi f))) (fun j => x15 (ix1 j)) s h := by
  have eb : ReadP.idx_main_v69 (ReadP.idx_main_v70 (ix3 b s h)) = ix1 h :=
    funext fun a => Fin.ext (by match a with | ⟨0, _⟩ => rfl)
  rw [ReadP.val_main_v82_apply, ReadP.val_main_v78_apply, ReadP.val_main_v81_apply, ReadP.val_main_v80_apply,
    ReadP.val_main_v79_apply, ReadP.val_main_cst_11_apply, ReadP.val_main_v77_apply, ReadP.val_main_v76_apply,
    ReadP.val_main_cst_10_apply, ReadP.val_main_v75_apply, ReadP.val_main_v74_apply, ReadP.val_main_cst_9_apply,
    ReadP.val_main_v73_apply, ReadP.val_main_v72_apply, ReadP.val_main_v71_apply, ReadP.val_main_v70_apply,
    ReadP.val_main_v69_apply, eb, refGateSum]
  simp only [Ideal.addf_def, Ideal.mulf_def, Ideal.subf_def, Ideal.hostDivf_def, Ideal.hostUnary_exp_def,
    Ideal.hostNegf_def, Ideal.negf_def, Ideal.ofBits_def]
  rw [logistic_spelt]
  rfl

/-- The mean over the sequence: the sum from the zero word is the plain sum, divided by the word of 448. -/
theorem refMean (x0 : (⟨S32x448x1024, .f32⟩ : BufTy).Contents (Elt Ideal)) (x1 : (⟨S500x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S1024x2048, .f32⟩ : BufTy).Contents (Elt Ideal)) (x15 : (⟨S1024, .f32⟩ : BufTy).Contents (Elt Ideal))
    (b : Fin 32) (h : Fin 1024) :
    ReadP.val_main_v85 (F := Ideal) x0 x1 x2 x3 x4 x5 x6 x7 x8 x9 x10 x11 x12 x13 x14 x15 (ix2 b h)
      = Ideal.div (∑ s : Fin 448, ReadP.val_main_v82 (F := Ideal) x0 x1 x2 x3 x4 x5 x6 x7 x8 x9 x10 x11 x12 x13 x14 x15 (ix3 b s h)) Attn.len := by
  have e83 : ∀ k : Fin 448, ReadP.idx_main_v83 (ix2 b h) k = ix3 b k h := fun k =>
    funext fun a => Fin.ext (by match a with | ⟨0, _⟩ => rfl | ⟨1, _⟩ => rfl | ⟨2, _⟩ => rfl)
  rw [ReadP.val_main_v85_apply, ReadP.val_main_v84_apply, ReadP.val_main_cst_13_apply, ReadP.val_main_v83_apply,
    ReadP.val_main_cst_12_apply]
  generalize ReadP.val_main_v82 (F := Ideal) x0 x1 x2 x3 x4 x5 x6 x7 x8 x9 x10 x11 x12 x13 x14 x15 = T
  simp only [Ideal.hostDivf_def, Ideal.ofBits_def, Ideal.ofBits_zero_f32, zero_add]
  exact congrArg (Ideal.div · Attn.len) (Finset.sum_congr rfl fun k _ => congrArg T (e83 k))

theorem refUtter (x0 : (⟨S32x448x1024, .f32⟩ : BufTy).Contents (Elt Ideal)) (x1 : (⟨S500x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S1024x2048, .f32⟩ : BufTy).Contents (Elt Ideal)) (x15 : (⟨S1024, .f32⟩ : BufTy).Contents (Elt Ideal)) (x16 : (⟨S1024x1024, .f32⟩ : BufTy).Contents (Elt Ideal)) (x17 : (⟨S1024, .f32⟩ : BufTy).Contents (Elt Ideal))
    (b : Fin 32) (o : Fin 1024) :
    ReadP.val_main_v90 (F := Ideal) x0 x1 x2 x3 x4 x5 x6 x7 x8 x9 x10 x11 x12 x13 x14 x15 x16 x17 (ix2 b o)
      = Attn.utter (fun s h => ReadP.val_main_v82 (F := Ideal) x0 x1 x2 x3 x4 x5 x6 x7 x8 x9 x10 x11 x12 x13 x14 x15 (ix3 b s h))
          (fun h j => x16 (ix2 j h)) (fun j => x17 (ix1 j)) o := by
  have eb : ReadP.idx_main_v87 (ReadP.idx_main_v88 (ix2 b o)) = ix1 o :=
    funext fun a => Fin.ext (by match a with | ⟨0, _⟩ => rfl)
  have el : ∀ k : Fin 1024, ReadP.lidx_main_v86 (ix2 b o) k = ix2 b k := fun k =>
    funext fun a => Fin.ext (by match a with | ⟨0, _⟩ => rfl | ⟨1, _⟩ => rfl)
  have er : ∀ k : Fin 1024, ReadP.ridx_main_v86 (ix2 b o) k = ix2 o k := fun k =>
    funext fun a => Fin.ext (by match a with | ⟨0, _⟩ => rfl | ⟨1, _⟩ => rfl)
  rw [ReadP.val_main_v90_apply, ReadP.val_main_v89_apply, ReadP.val_main_v88_apply, ReadP.val_main_v87_apply, eb,
    ReadP.val_main_v86_apply]
  simp only [Ideal.hostUnary_tanh_def, Ideal.addf_def]
  unfold Attn.utter
  refine congrArg Ideal.tanh (congrArg (· + x17 (ix1 o)) (Finset.sum_congr rfl fun k _ => ?_))
  rw [el k, er k, refMean]

end Cert.ReferenceIdeal.Ref

end
-- ==== Proof.RAll.lean ====
/-
  The idealized reference's two results as whole-array functions of the arguments.

  The reference's stages are read one entry at a time in two other modules: each attention at `(b, q, h)` is
  `Attn.attn` of batch element `b`; the tokens at `(b, s, h)` are `Attn.token` of the two attentions' rows; the
  utterance vector at `(b, o)` is `Attn.utter` of the tokens' rows.  Put together, index by index, the two result
  terms are `Attn.tokenW` and `Attn.utterW` of the eighteen arguments.
-/
import proofs.«181104_j38946763440234_1_alg».proof.Proof.RAttn
import proofs.«181104_j38946763440234_1_alg».proof.Proof.RGate
import proofs.«181104_j38946763440234_1_alg».proof.Proof.Whole

noncomputable section

namespace Cert.ReferenceIdeal.Ref

open Idealize.ShloMosaic Idealize.ShloMosaic.ValueIdx Cert.ReferenceIdeal

/-- The reference's token result is `Attn.tokenW` of the arguments. -/
theorem tokens_eq (x0 : (⟨S32x448x1024, .f32⟩ : BufTy).Contents (Elt Ideal)) (x1 : (⟨S500x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S1024x2048, .f32⟩ : BufTy).Contents (Elt Ideal)) (x15 : (⟨S1024, .f32⟩ : BufTy).Contents (Elt Ideal)) :
    ReadP.val_main_v82 (F := Ideal) x0 x1 x2 x3 x4 x5 x6 x7 x8 x9 x10 x11 x12 x13 x14 x15 = Attn.tokenW x0 x1 x2 x3 x4 x5 x6 x7 x8 x9 x10 x11 x12 x13 x14 x15 := by
  funext i
  obtain ⟨b, s, h, rfl⟩ : ∃ (b : Fin 32) (s : Fin 448) (h : Fin 1024), i = (ix3 b s h : S32x448x1024.Idx) := ⟨i 0, i 1, i 2, eq_ix3 i⟩
  rw [refToken]
  simp only [refAttnFw, refAttnBw]
  rfl

/-- The reference's utterance result is `Attn.utterW` of the arguments. -/
theorem utter_eq (x0 : (⟨S32x448x1024, .f32⟩ : BufTy).Contents (Elt Ideal)) (x1 : (⟨S500x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S1024x2048, .f32⟩ : BufTy).Contents (Elt Ideal)) (x15 : (⟨S1024, .f32⟩ : BufTy).Contents (Elt Ideal)) (x16 : (⟨S1024x1024, .f32⟩ : BufTy).Contents (Elt Ideal)) (x17 : (⟨S1024, .f32⟩ : BufTy).Contents (Elt Ideal)) :
    ReadP.val_main_v90 (F := Ideal) x0 x1 x2 x3 x4 x5 x6 x7 x8 x9 x10 x11 x12 x13 x14 x15 x16 x17 = Attn.utterW x0 x1 x2 x3 x4 x5 x6 x7 x8 x9 x10 x11 x12 x13 x14 x15 x16 x17 := by
  funext i
  obtain ⟨b, o, rfl⟩ : ∃ (b : Fin 32) (o : Fin 1024), i = (ix2 b o : S32x1024.Idx) := ⟨i 0, i 1, eq_ix2 i⟩
  rw [refUtter]
  simp only [refToken, refAttnFw, refAttnBw]
  rfl

end Cert.ReferenceIdeal.Ref

end
-- ==== Proof.lean ====
/-
  The certificate of the dual-triangular self-attention with a sigmoid gate: the kernel against its reference.

  Both programs compute, for each of 32 batch elements, a forward and a backward masked attention of the
  position-shifted input (three affine projections, scaled masked logits, a softmax over each row, the product with the
  values), the logistic gate's mix of the two, and `tanh` of an affine map of the mix's mean over the sequence.  The
  mathematics is written once, over the extended reals, in `Cert.Attn` (Spec.lean, Whole.lean).

  The idealized kernel runs it in two regions of 32 grid points with layout operations on the host before, between
  and after them.  Its run is read with every buffer named (KRun.lean); the body's pure payloads are read at an entry
  (KAttn.lean, KGate.lean); each region's output arrays are one function of the arrays the region finds (KArr0.lean,
  KArr1.lean); the host operations are read back to the arguments (KHost.lean).  The idealized reference's run is read
  stretch by stretch of its host operations (RefOps.lean, RRun.lean), and one operation at a time (RefRead.lean) up to the same functions (RAttn.lean,
  RGate.lean, RAll.lean), where the two arrangements that differ are joined: a division by √1024 is the product with
  2⁻⁵ on every extended real, and a sum over the 2048 gate columns is the sum of its two halves.  No finiteness of
  the inputs is needed: every law used holds on all extended reals.

  The frames of the two kernels are the generated ones; the reference's frame is its run with the results dropped;
  the idealization's two ledger entries name the finite mask fill −0.7·max as −∞.
-/
import proofs.«181104_j38946763440234_1_alg».proof.Defs
import proofs.«181104_j38946763440234_1_alg».proof.Proof.Gen.Kernel
import proofs.«181104_j38946763440234_1_alg».proof.Proof.Gen.Kernel.Frame
import proofs.«181104_j38946763440234_1_alg».proof.Proof.Gen.KernelIdeal
import proofs.«181104_j38946763440234_1_alg».proof.Proof.Gen.KernelIdeal.Frame
import proofs.«181104_j38946763440234_1_alg».proof.Proof.Gen.ReferenceIdeal
import proofs.«181104_j38946763440234_1_alg».proof.Proof.Gen.Pre_finite_inputs
import proofs.«181104_j38946763440234_1_alg».proof.Proof.KRun
import proofs.«181104_j38946763440234_1_alg».proof.Proof.KAttn
import proofs.«181104_j38946763440234_1_alg».proof.Proof.KGate
import proofs.«181104_j38946763440234_1_alg».proof.Proof.KHost
import proofs.«181104_j38946763440234_1_alg».proof.Proof.RRun
import proofs.«181104_j38946763440234_1_alg».proof.Proof.RAll
import Idealize.ShloMosaic.Adequacy
import Idealize.ShloMosaic.Init

set_option maxRecDepth 16384

noncomputable section

open Idealize.ShloMosaic Idealize.ShloMosaic.TcCoe Idealize.SL.Sem

/-! ## The claims -/

namespace Cert.Proof

open Cert.KernelIdeal.Pay Cert.KernelIdeal.Host Cert.KernelIdeal.Gen

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Ref.run m ρ)

/-- The two ledger entries: the certificate's table gives the finite mask fill the value −∞, in both directions' masks. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- The idealized kernel's run: the utterance buffer ends at `Attn.utterW` and the token buffer at `Attn.tokenW` of the
    arguments, which end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v29) = Cert.Attn.utterW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      ∧ r.2.mem ((c.tc : Thread Cert.KernelIdeal.nD Cert.KernelIdeal.τ).loc Cert.KernelIdeal.main_v28_0) = Cert.Attn.tokenW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) := by
  refine (θ_run Cert.KernelIdeal.defs _ _).mono (fun r h c => ?_) (Cert.KernelIdeal.Run.run_all (F := Ideal) m ρ)
  exact ⟨(h c _ (mem_uc Cert.KernelIdeal.main_v29 (by decide))).trans (W5_utter m ρ attnFw_apply attnBw_apply utter_apply c),
    (h c _ (mem_uc Cert.KernelIdeal.main_v28_0 (by decide))).trans (W5_tokens m ρ attnFw_apply attnBw_apply token_apply c),
    (h c _ (mem_uc Cert.KernelIdeal.main_arg0 (by decide))).trans (W5_main_arg0 m ρ c),
    (h c _ (mem_uc Cert.KernelIdeal.main_arg1 (by decide))).trans (W5_main_arg1 m ρ c),
    (h c _ (mem_uc Cert.KernelIdeal.main_arg2 (by decide))).trans (W5_main_arg2 m ρ c),
    (h c _ (mem_uc Cert.KernelIdeal.main_arg3 (by decide))).trans (W5_main_arg3 m ρ c),
    (h c _ (mem_uc Cert.KernelIdeal.main_arg4 (by decide))).trans (W5_main_arg4 m ρ c),
    (h c _ (mem_uc Cert.KernelIdeal.main_arg5 (by decide))).trans (W5_main_arg5 m ρ c),
    (h c _ (mem_uc Cert.KernelIdeal.main_arg6 (by decide))).trans (W5_main_arg6 m ρ c),
    (h c _ (mem_uc Cert.KernelIdeal.main_arg7 (by decide))).trans (W5_main_arg7 m ρ c),
    (h c _ (mem_uc Cert.KernelIdeal.main_arg8 (by decide))).trans (W5_main_arg8 m ρ c),
    (h c _ (mem_uc Cert.KernelIdeal.main_arg9 (by decide))).trans (W5_main_arg9 m ρ c),
    (h c _ (mem_uc Cert.KernelIdeal.main_arg10 (by decide))).trans (W5_main_arg10 m ρ c),
    (h c _ (mem_uc Cert.KernelIdeal.main_arg11 (by decide))).trans (W5_main_arg11 m ρ c),
    (h c _ (mem_uc Cert.KernelIdeal.main_arg12 (by decide))).trans (W5_main_arg12 m ρ c),
    (h c _ (mem_uc Cert.KernelIdeal.main_arg13 (by decide))).trans (W5_main_arg13 m ρ c),
    (h c _ (mem_uc Cert.KernelIdeal.main_arg14 (by decide))).trans (W5_main_arg14 m ρ c),
    (h c _ (mem_uc Cert.KernelIdeal.main_arg15 (by decide))).trans (W5_main_arg15 m ρ c),
    (h c _ (mem_uc Cert.KernelIdeal.main_arg16 (by decide))).trans (W5_main_arg16 m ρ c),
    (h c _ (mem_uc Cert.KernelIdeal.main_arg17 (by decide))).trans (W5_main_arg17 m ρ c)⟩

/-- The idealized reference's run: its two results are the same two functions of ITS arguments. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v90) = Cert.Attn.utterW (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_v82) = Cert.Attn.tokenW (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run Cert.ReferenceIdeal.defs _ _).mono (fun r h c =>
    ⟨(h c).1.trans (Cert.ReferenceIdeal.Ref.utter_eq _ _ _ _ _ _ _ _ _ _ _ _ _ _ _ _ _ _),
     (h c).2.1.trans (Cert.ReferenceIdeal.Ref.tokens_eq _ _ _ _ _ _ _ _ _ _ _ _ _ _ _ _), (h c).2.2⟩)
    (Cert.ReferenceIdeal.Ref.run m ρ)

/-- Equal argument arrays give equal utterance vectors. -/
theorem utterW_congr {a0 b0 : (⟨3, ![32, 448, 1024]⟩ : Shape).Idx → EReal} {a1 b1 : (⟨2, ![500, 1024]⟩ : Shape).Idx → EReal}
    {a2 b2 a4 b4 a6 b6 a8 b8 a10 b10 a12 b12 a16 b16 : (⟨2, ![1024, 1024]⟩ : Shape).Idx → EReal}
    {a3 b3 a5 b5 a7 b7 a9 b9 a11 b11 a13 b13 a15 b15 a17 b17 : (⟨1, ![1024]⟩ : Shape).Idx → EReal} {a14 b14 : (⟨2, ![1024, 2048]⟩ : Shape).Idx → EReal}
    (e0 : a0 = b0) (e1 : a1 = b1) (e2 : a2 = b2) (e3 : a3 = b3) (e4 : a4 = b4) (e5 : a5 = b5) (e6 : a6 = b6) (e7 : a7 = b7) (e8 : a8 = b8)
    (e9 : a9 = b9) (e10 : a10 = b10) (e11 : a11 = b11) (e12 : a12 = b12) (e13 : a13 = b13) (e14 : a14 = b14) (e15 : a15 = b15)
    (e16 : a16 = b16) (e17 : a17 = b17) :
    Cert.Attn.utterW a0 a1 a2 a3 a4 a5 a6 a7 a8 a9 a10 a11 a12 a13 a14 a15 a16 a17
      = Cert.Attn.utterW b0 b1 b2 b3 b4 b5 b6 b7 b8 b9 b10 b11 b12 b13 b14 b15 b16 b17 := by
  subst e0 e1 e2 e3 e4 e5 e6 e7 e8 e9 e10 e11 e12 e13 e14 e15 e16 e17; rfl

/-- Equal argument arrays give equal tokens. -/
theorem tokenW_congr {a0 b0 : (⟨3, ![32, 448, 1024]⟩ : Shape).Idx → EReal} {a1 b1 : (⟨2, ![500, 1024]⟩ : Shape).Idx → EReal}
    {a2 b2 a4 b4 a6 b6 a8 b8 a10 b10 a12 b12 : (⟨2, ![1024, 1024]⟩ : Shape).Idx → EReal}
    {a3 b3 a5 b5 a7 b7 a9 b9 a11 b11 a13 b13 a15 b15 : (⟨1, ![1024]⟩ : Shape).Idx → EReal} {a14 b14 : (⟨2, ![1024, 2048]⟩ : Shape).Idx → EReal}
    (e0 : a0 = b0) (e1 : a1 = b1) (e2 : a2 = b2) (e3 : a3 = b3) (e4 : a4 = b4) (e5 : a5 = b5) (e6 : a6 = b6) (e7 : a7 = b7) (e8 : a8 = b8)
    (e9 : a9 = b9) (e10 : a10 = b10) (e11 : a11 = b11) (e12 : a12 = b12) (e13 : a13 = b13) (e14 : a14 = b14) (e15 : a15 = b15) :
    Cert.Attn.tokenW a0 a1 a2 a3 a4 a5 a6 a7 a8 a9 a10 a11 a12 a13 a14 a15
      = Cert.Attn.tokenW b0 b1 b2 b3 b4 b5 b6 b7 b8 b9 b10 b11 b12 b13 b14 b15 := by
  subst e0 e1 e2 e3 e4 e5 e6 e7 e8 e9 e10 e11 e12 e13 e14 e15; rfl

/-- Both idealized programs, from memories agreeing on the arguments, end with the utterance vectors at `Attn.utterW` and
    the tokens at `Attn.tokenW` of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Attn.utterW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.Attn.tokenW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), kernel_run m ρ, ?_⟩
  refine (θ_run Cert.ReferenceIdeal.defs _ _).mono (fun r h c => ?_) (reference_run m' ρ')
  obtain ⟨h0, h1, hrest⟩ := h c
  obtain ⟨e0, e1, e2, e3, e4, e5, e6, e7, e8, e9, e10, e11, e12, e13, e14, e15, e16, e17⟩ := hagree c
  exact ⟨h0.trans (utterW_congr e0 e1 e2 e3 e4 e5 e6 e7 e8 e9 e10 e11 e12 e13 e14 e15 e16 e17),
    h1.trans (tokenW_congr e0 e1 e2 e3 e4 e5 e6 e7 e8 e9 e10 e11 e12 e13 e14 e15), hrest⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
